-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x512 : Shape := ⟨4, ![16, 32, 32, 512]⟩
abbrev S512x512 : Shape := ⟨2, ![512, 512]⟩
abbrev S512 : Shape := ⟨1, ![512]⟩
abbrev S2x2x64x384 : Shape := ⟨4, ![2, 2, 64, 384]⟩
abbrev S64 : Shape := ⟨1, ![64]⟩
abbrev S2x2x32x64 : Shape := ⟨4, ![2, 2, 32, 64]⟩
abbrev S32 : Shape := ⟨1, ![32]⟩
abbrev S2x2x3x32 : Shape := ⟨4, ![2, 2, 3, 32]⟩
abbrev S3 : Shape := ⟨1, ![3]⟩
abbrev S_ : Shape := ⟨0, ![]⟩

class Facts : Prop where
  bcast_S_S16x32x32x512 : S_.BroadcastsInDim S16x32x32x512 (![] : Fin 0 → Fin S16x32x32x512.rank)
  reducesTo_S16x32x32x512_S_d0_1_2_3 : S16x32x32x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x2x64x384 : S_.BroadcastsInDim S2x2x64x384 (![] : Fin 0 → Fin S2x2x64x384.rank)
  reducesTo_S2x2x64x384_S_d0_1_2_3 : S2x2x64x384.ReducesTo [0, 1, 2, 3] S_
  bcast_S_S64 : S_.BroadcastsInDim S64 (![] : Fin 0 → Fin S64.rank)
  reducesTo_S64_S_d0 : S64.ReducesTo [0] S_
  bcast_S_S2x2x32x64 : S_.BroadcastsInDim S2x2x32x64 (![] : Fin 0 → Fin S2x2x32x64.rank)
  reducesTo_S2x2x32x64_S_d0_1_2_3 : S2x2x32x64.ReducesTo [0, 1, 2, 3] S_
  bcast_S_S32 : S_.BroadcastsInDim S32 (![] : Fin 0 → Fin S32.rank)
  reducesTo_S32_S_d0 : S32.ReducesTo [0] S_
  bcast_S_S2x2x3x32 : S_.BroadcastsInDim S2x2x3x32 (![] : Fin 0 → Fin S2x2x3x32.rank)
  reducesTo_S2x2x3x32_S_d0_1_2_3 : S2x2x3x32.ReducesTo [0, 1, 2, 3] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S2x2x32x64 .f32) (main_arg8 : FVec F S32 .f32) (main_arg9 : FVec F S2x2x3x32 .f32) (main_arg10 : FVec F S3 .f32) (main_v33 : IVec S_ 1) : IVec S_ 1 :=
  let main_v34 : FVec F S2x2x32x64 .f32 := Host.absf main_arg7
  let main_cst_12 : FVec F S_ .f32 := constant S_ .f32 0x7F800000#32
  let main_v35 : FVec F S2x2x32x64 .f32 := broadcastInDim S2x2x32x64 ![] bcast_S_S2x2x32x64 main_cst_12
  let main_v36 : IVec S2x2x32x64 1 := cmpf .olt main_v34 main_v35
  let main_c_13 : IVec S_ 1 := constantI S_ 1 1#1
  let main_v37 : IVec S_ 1 := (fun x v => Host.reduce IntOp.andi x v reducesTo_S2x2x32x64_S_d0_1_2_3 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S2x2x3x32 .f32 := Host.absf main_arg9
  let main_cst_16 : FVec F S_ .f32 := constant S_ .f32 0x7F800000#32
  let main_v45 : FVec F S2x2x3x32 .f32 := broadcastInDim S2x2x3x32 ![] bcast_S_S2x2x3x32 main_cst_16
  let main_v46 : IVec S2x2x3x32 1 := cmpf .olt main_v44 main_v45
  let main_c_17 : IVec S_ 1 := constantI S_ 1 1#1
  let main_v47 : IVec S_ 1 := (fun x v => Host.reduce IntOp.andi x v reducesTo_S2x2x3x32_S_d0_1_2_3 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S512 .f32) (main_arg5 : FVec F S2x2x64x384 .f32) (main_arg6 : FVec F S64 .f32) (main_arg7 : FVec F S2x2x32x64 .f32) (main_arg8 : FVec F S32 .f32) (main_arg9 : FVec F S2x2x3x32 .f32) (main_arg10 : FVec F S3 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2x2x64x384 .f32 := Host.absf main_arg5
  let main_cst_8 : FVec F S_ .f32 := constant S_ .f32 0x7F800000#32
  let main_v25 : FVec F S2x2x64x384 .f32 := broadcastInDim S2x2x64x384 ![] bcast_S_S2x2x64x384 main_cst_8
  let main_v26 : IVec S2x2x64x384 1 := cmpf .olt main_v24 main_v25
  let main_c_9 : IVec S_ 1 := constantI S_ 1 1#1
  let main_v27 : IVec S_ 1 := (fun x v => Host.reduce IntOp.andi x v reducesTo_S2x2x64x384_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x32x32x512 .f32) (main_arg1 : FVec F S16x32x32x512 .f32) (main_arg2 : FVec F S16x32x32x512 .f32) (main_arg3 : FVec F S512x512 .f32) (main_arg4 : FVec F S512 .f32) (main_arg5 : FVec F S2x2x64x384 .f32) (main_arg6 : FVec F S64 .f32) (main_arg7 : FVec F S2x2x32x64 .f32) (main_arg8 : FVec F S32 .f32) (main_arg9 : FVec F S2x2x3x32 .f32) (main_arg10 : FVec F S3 .f32) : IVec S_ 1 :=
  let main_v0 : FVec F S16x32x32x512 .f32 := Host.absf main_arg0
  let main_cst : FVec F S_ .f32 := constant S_ .f32 0x7F800000#32
  let main_v1 : FVec F S16x32x32x512 .f32 := broadcastInDim S16x32x32x512 ![] bcast_S_S16x32x32x512 main_cst
  let main_v2 : IVec S16x32x32x512 1 := cmpf .olt main_v0 main_v1
  let main_c : IVec S_ 1 := constantI S_ 1 1#1
  let main_v3 : IVec S_ 1 := (fun x v => Host.reduce IntOp.andi x v reducesTo_S16x32x32x512_S_d0_1_2_3 h_S_) main_v2 main_c
  let main_v4 : FVec F S16x32x32x512 .f32 := Host.absf main_arg1
  let main_cst_0 : FVec F S_ .f32 := constant S_ .f32 0x7F800000#32
  let main_v5 : FVec F S16x32x32x512 .f32 := broadcastInDim S16x32x32x512 ![] bcast_S_S16x32x32x512 main_cst_0
  let main_v6 : IVec S16x32x32x512 1 := cmpf .olt main_v4 main_v5
  let main_c_1 : IVec S_ 1 := constantI S_ 1 1#1
  let main_v7 : IVec S_ 1 := (fun x v => Host.reduce IntOp.andi x v reducesTo_S16x32x32x512_S_d0_1_2_3 h_S_) main_v6 main_c_1
  let main_v8 : IVec S_ 1 := andi main_v3 main_v7
  let main_v9 : FVec F S16x32x32x512 .f32 := Host.absf main_arg2
  let main_cst_2 : FVec F S_ .f32 := constant S_ .f32 0x7F800000#32
  let main_v10 : FVec F S16x32x32x512 .f32 := broadcastInDim S16x32x32x512 ![] bcast_S_S16x32x32x512 main_cst_2
  let main_v11 : IVec S16x32x32x512 1 := cmpf .olt main_v9 main_v10
  let main_c_3 : IVec S_ 1 := constantI S_ 1 1#1
  let main_v12 : IVec S_ 1 := (fun x v => Host.reduce IntOp.andi x v reducesTo_S16x32x32x512_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S16x32x32x512 : Shape := ⟨4, ![16, 32, 32, 512]⟩
abbrev S512x512 : Shape := ⟨2, ![512, 512]⟩
abbrev S512 : Shape := ⟨1, ![512]⟩
abbrev S2x2x64x384 : Shape := ⟨4, ![2, 2, 64, 384]⟩
abbrev S64 : Shape := ⟨1, ![64]⟩
abbrev S2x2x32x64 : Shape := ⟨4, ![2, 2, 32, 64]⟩
abbrev S32 : Shape := ⟨1, ![32]⟩
abbrev S2x2x3x32 : Shape := ⟨4, ![2, 2, 3, 32]⟩
abbrev S3 : Shape := ⟨1, ![3]⟩
abbrev S16384x512 : Shape := ⟨2, ![16384, 512]⟩
abbrev S2x2x384x64 : Shape := ⟨4, ![2, 2, 384, 64]⟩
abbrev S4x384x64 : Shape := ⟨3, ![4, 384, 64]⟩
abbrev S2x2x64x32 : Shape := ⟨4, ![2, 2, 64, 32]⟩
abbrev S4x64x32 : Shape := ⟨3, ![4, 64, 32]⟩
abbrev S2x2x32x3 : Shape := ⟨4, ![2, 2, 32, 3]⟩
abbrev S4x32x3 : Shape := ⟨3, ![4, 32, 3]⟩
abbrev S16384x768 : Shape := ⟨2, ![16384, 768]⟩
abbrev S256x512 : Shape := ⟨2, ![256, 512]⟩
abbrev S256x768 : Shape := ⟨2, ![256, 768]⟩
abbrev S1x512 : Shape := ⟨2, ![1, 512]⟩
abbrev S256x128 : Shape := ⟨2, ![256, 128]⟩
abbrev S256x384 : Shape := ⟨2, ![256, 384]⟩
abbrev S256x1x384 : Shape := ⟨3, ![256, 1, 384]⟩
abbrev S256x2x384 : Shape := ⟨3, ![256, 2, 384]⟩
abbrev S256x1x2x384 : Shape := ⟨4, ![256, 1, 2, 384]⟩
abbrev S256x2x2x384 : Shape := ⟨4, ![256, 2, 2, 384]⟩
abbrev S1024x384 : Shape := ⟨2, ![1024, 384]⟩
abbrev S1x384x64 : Shape := ⟨3, ![1, 384, 64]⟩
abbrev S384x64 : Shape := ⟨2, ![384, 64]⟩
abbrev S1024x64 : Shape := ⟨2, ![1024, 64]⟩
abbrev S1x64 : Shape := ⟨2, ![1, 64]⟩
abbrev S256x2x2x64 : Shape := ⟨4, ![256, 2, 2, 64]⟩
abbrev S256x2x1x2x64 : Shape := ⟨5, ![256, 2, 1, 2, 64]⟩
abbrev S256x2x2x2x64 : Shape := ⟨5, ![256, 2, 2, 2, 64]⟩
abbrev S256x2x2x2x1x64 : Shape := ⟨6, ![256, 2, 2, 2, 1, 64]⟩
abbrev S256x2x2x2x2x64 : Shape := ⟨6, ![256, 2, 2, 2, 2, 64]⟩
abbrev S256x4x4x64 : Shape := ⟨4, ![256, 4, 4, 64]⟩
abbrev S4096x64 : Shape := ⟨2, ![4096, 64]⟩
abbrev S1x64x32 : Shape := ⟨3, ![1, 64, 32]⟩
abbrev S64x32 : Shape := ⟨2, ![64, 32]⟩
abbrev S4096x32 : Shape := ⟨2, ![4096, 32]⟩
abbrev S1x32 : Shape := ⟨2, ![1, 32]⟩
abbrev S256x4x4x32 : Shape := ⟨4, ![256, 4, 4, 32]⟩
abbrev S256x4x1x4x32 : Shape := ⟨5, ![256, 4, 1, 4, 32]⟩
abbrev S256x4x2x4x32 : Shape := ⟨5, ![256, 4, 2, 4, 32]⟩
abbrev S256x4x2x4x1x32 : Shape := ⟨6, ![256, 4, 2, 4, 1, 32]⟩
abbrev S256x4x2x4x2x32 : Shape := ⟨6, ![256, 4, 2, 4, 2, 32]⟩
abbrev S256x8x8x32 : Shape := ⟨4, ![256, 8, 8, 32]⟩
abbrev S16384x32 : Shape := ⟨2, ![16384, 32]⟩
abbrev S1x32x3 : Shape := ⟨3, ![1, 32, 3]⟩
abbrev S32x3 : Shape := ⟨2, ![32, 3]⟩
abbrev S16384x3 : Shape := ⟨2, ![16384, 3]⟩
abbrev S1x3 : Shape := ⟨2, ![1, 3]⟩
abbrev S256x8x8x3 : Shape := ⟨4, ![256, 8, 8, 3]⟩
abbrev S256x8x1x8x3 : Shape := ⟨5, ![256, 8, 1, 8, 3]⟩
abbrev S256x8x2x8x3 : Shape := ⟨5, ![256, 8, 2, 8, 3]⟩
abbrev S256x8x2x8x1x3 : Shape := ⟨6, ![256, 8, 2, 8, 1, 3]⟩
abbrev S256x8x2x8x2x3 : Shape := ⟨6, ![256, 8, 2, 8, 2, 3]⟩
abbrev S256x16x16x3 : Shape := ⟨4, ![256, 16, 16, 3]⟩
abbrev S16x32x32x16x16x3 : Shape := ⟨6, ![16, 32, 32, 16, 16, 3]⟩

abbrev nBuf : Space → Nat
  | .hbm => 26
  | .vmem => 16
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S16x32x32x512, .f32⟩
  | .hbm, ⟨3, _⟩ => ⟨S512x512, .f32⟩
  | .hbm, ⟨4, _⟩ => ⟨S512, .f32⟩
  | .hbm, ⟨5, _⟩ => ⟨S2x2x64x384, .f32⟩
  | .hbm, ⟨6, _⟩ => ⟨S64, .f32⟩
  | .hbm, ⟨7, _⟩ => ⟨S2x2x32x64, .f32⟩
  | .hbm, ⟨8, _⟩ => ⟨S32, .f32⟩
  | .hbm, ⟨9, _⟩ => ⟨S2x2x3x32, .f32⟩
  | .hbm, ⟨10, _⟩ => ⟨S3, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S512x512, .bf16⟩
  | .hbm, ⟨15, _⟩ => ⟨S2x2x384x64, .f32⟩
  | .hbm, ⟨16, _⟩ => ⟨S4x384x64, .f32⟩
  | .hbm, ⟨17, _⟩ => ⟨S4x384x64, .bf16⟩
  | .hbm, ⟨18, _⟩ => ⟨S2x2x64x32, .f32⟩
  | .hbm, ⟨19, _⟩ => ⟨S4x64x32, .f32⟩
  | .hbm, ⟨20, _⟩ => ⟨S4x64x32, .bf16⟩
  | .hbm, ⟨21, _⟩ => ⟨S2x2x32x3, .f32⟩
  | .hbm, ⟨22, _⟩ => ⟨S4x32x3, .f32⟩
  | .hbm, ⟨23, _⟩ => ⟨S4x32x3, .bf16⟩
  | .hbm, ⟨24, _⟩ => ⟨S16384x768, .f32⟩
  | .hbm, ⟨25, _⟩ => ⟨S16x32x32x16x16x3, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .bf16⟩
  | .local _ .vmem, ⟨7, _⟩ => ⟨S512, .f32⟩
  | .local _ .vmem, ⟨8, _⟩ => ⟨S4x384x64, .bf16⟩
  | .local _ .vmem, ⟨9, _⟩ => ⟨S64, .f32⟩
  | .local _ .vmem, ⟨10, _⟩ => ⟨S4x64x32, .bf16⟩
  | .local _ .vmem, ⟨11, _⟩ => ⟨S32, .f32⟩
  | .local _ .vmem, ⟨12, _⟩ => ⟨S4x32x3, .bf16⟩
  | .local _ .vmem, ⟨13, _⟩ => ⟨S3, .f32⟩
  | .local _ .vmem, ⟨14, _⟩ => ⟨S256x768, .f32⟩
  | .local _ .vmem, ⟨15, _⟩ => ⟨S256x768, .f32⟩
  | _, _ => ⟨S16x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x384x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16x32x32x512_S16384x512 : S16x32x32x512.ShapeCasts S16384x512
  bitsLt_bf16_f32 : FTy.bits .bf16 < FTy.bits .f32
  transposes_S2x2x64x384_S2x2x384x64_0_1_3_2 : S2x2x64x384.Transposes [0, 1, 3, 2] S2x2x384x64
  shapeCasts_S2x2x384x64_S4x384x64 : S2x2x384x64.ShapeCasts S4x384x64
  transposes_S2x2x32x64_S2x2x64x32_0_1_3_2 : S2x2x32x64.Transposes [0, 1, 3, 2] S2x2x64x32
  shapeCasts_S2x2x64x32_S4x64x32 : S2x2x64x32.ShapeCasts S4x64x32
  transposes_S2x2x3x32_S2x2x32x3_0_1_3_2 : S2x2x3x32.Transposes [0, 1, 3, 2] S2x2x32x3
  shapeCasts_S2x2x32x3_S4x32x3 : S2x2x32x3.ShapeCasts S4x32x3
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  slices_S256x512_o0_0_S256x128 : S256x512.Slices ![0, 0] S256x128
  concatenates_S256x128_S256x128_S256x128_S256x384_d1 : Shape.Concatenates [S256x128, S256x128, S256x128] S256x384 1
  slices_S256x512_o0_128_S256x128 : S256x512.Slices ![0, 128] S256x128
  shapeCasts_S256x384_S256x1x384 : S256x384.ShapeCasts S256x1x384
  concatenates_S256x1x384_S256x1x384_S256x2x384_d1 : Shape.Concatenates [S256x1x384, S256x1x384] S256x2x384 1
  slices_S256x512_o0_256_S256x128 : S256x512.Slices ![0, 256] S256x128
  slices_S256x512_o0_384_S256x128 : S256x512.Slices ![0, 384] S256x128
  shapeCasts_S256x2x384_S256x1x2x384 : S256x2x384.ShapeCasts S256x1x2x384
  concatenates_S256x1x2x384_S256x1x2x384_S256x2x2x384_d1 : Shape.Concatenates [S256x1x2x384, S256x1x2x384] S256x2x2x384 1
  shapeCasts_S256x2x2x384_S1024x384 : S256x2x2x384.ShapeCasts S1024x384
  inb_S64_S64_0 : ∀ a, (![0] : Fin 1 → Nat) a + S64.size a ≤ S64.size a
  h_S64 : 0 < S64.numel
  inb_S4x384x64_S1x384x64_0_0_0 : ∀ a, (![0, 0, 0] : Fin 3 → Nat) a + S1x384x64.size a ≤ S4x384x64.size a
  h_S1x384x64 : 0 < S1x384x64.numel
  shapeCasts_S1x384x64_S384x64 : S1x384x64.ShapeCasts S384x64
  shapeCasts_S64_S1x64 : S64.ShapeCasts S1x64
  broadcasts_S1x64_S1024x64 : S1x64.Broadcasts S1024x64
  shapeCasts_S1024x64_S256x2x2x64 : S1024x64.ShapeCasts S256x2x2x64
  inb_S4x384x64_S1x384x64_1_0_0 : ∀ a, (![1, 0, 0] : Fin 3 → Nat) a + S1x384x64.size a ≤ S4x384x64.size a
  inb_S4x384x64_S1x384x64_2_0_0 : ∀ a, (![2, 0, 0] : Fin 3 → Nat) a + S1x384x64.size a ≤ S4x384x64.size a
  inb_S4x384x64_S1x384x64_3_0_0 : ∀ a, (![3, 0, 0] : Fin 3 → Nat) a + S1x384x64.size a ≤ S4x384x64.size a
  shapeCasts_S256x2x2x64_S256x2x1x2x64 : S256x2x2x64.ShapeCasts S256x2x1x2x64
  concatenates_S256x2x1x2x64_S256x2x1x2x64_S256x2x2x2x64_d2 : Shape.Concatenates [S256x2x1x2x64, S256x2x1x2x64] S256x2x2x2x64 2
  shapeCasts_S256x2x2x2x64_S256x2x2x2x1x64 : S256x2x2x2x64.ShapeCasts S256x2x2x2x1x64
  concatenates_S256x2x2x2x1x64_S256x2x2x2x1x64_S256x2x2x2x2x64_d4 : Shape.Concatenates [S256x2x2x2x1x64, S256x2x2x2x1x64] S256x2x2x2x2x64 4
  shapeCasts_S256x2x2x2x2x64_S256x4x4x64 : S256x2x2x2x2x64.ShapeCasts S256x4x4x64
  shapeCasts_S256x4x4x64_S4096x64 : S256x4x4x64.ShapeCasts S4096x64
  inb_S32_S32_0 : ∀ a, (![0] : Fin 1 → Nat) a + S32.size a ≤ S32.size a
  h_S32 : 0 < S32.numel
  inb_S4x64x32_S1x64x32_0_0_0 : ∀ a, (![0, 0, 0] : Fin 3 → Nat) a + S1x64x32.size a ≤ S4x64x32.size a
  h_S1x64x32 : 0 < S1x64x32.numel
  shapeCasts_S1x64x32_S64x32 : S1x64x32.ShapeCasts S64x32
  shapeCasts_S32_S1x32 : S32.ShapeCasts S1x32
  broadcasts_S1x32_S4096x32 : S1x32.Broadcasts S4096x32
  shapeCasts_S4096x32_S256x4x4x32 : S4096x32.ShapeCasts S256x4x4x32
  inb_S4x64x32_S1x64x32_1_0_0 : ∀ a, (![1, 0, 0] : Fin 3 → Nat) a + S1x64x32.size a ≤ S4x64x32.size a
  inb_S4x64x32_S1x64x32_2_0_0 : ∀ a, (![2, 0, 0] : Fin 3 → Nat) a + S1x64x32.size a ≤ S4x64x32.size a
  inb_S4x64x32_S1x64x32_3_0_0 : ∀ a, (![3, 0, 0] : Fin 3 → Nat) a + S1x64x32.size a ≤ S4x64x32.size a
  shapeCasts_S256x4x4x32_S256x4x1x4x32 : S256x4x4x32.ShapeCasts S256x4x1x4x32
  concatenates_S256x4x1x4x32_S256x4x1x4x32_S256x4x2x4x32_d2 : Shape.Concatenates [S256x4x1x4x32, S256x4x1x4x32] S256x4x2x4x32 2
  shapeCasts_S256x4x2x4x32_S256x4x2x4x1x32 : S256x4x2x4x32.ShapeCasts S256x4x2x4x1x32
  concatenates_S256x4x2x4x1x32_S256x4x2x4x1x32_S256x4x2x4x2x32_d4 : Shape.Concatenates [S256x4x2x4x1x32, S256x4x2x4x1x32] S256x4x2x4x2x32 4
  shapeCasts_S256x4x2x4x2x32_S256x8x8x32 : S256x4x2x4x2x32.ShapeCasts S256x8x8x32
  shapeCasts_S256x8x8x32_S16384x32 : S256x8x8x32.ShapeCasts S16384x32
  inb_S3_S3_0 : ∀ a, (![0] : Fin 1 → Nat) a + S3.size a ≤ S3.size a
  h_S3 : 0 < S3.numel
  inb_S4x32x3_S1x32x3_0_0_0 : ∀ a, (![0, 0, 0] : Fin 3 → Nat) a + S1x32x3.size a ≤ S4x32x3.size a
  h_S1x32x3 : 0 < S1x32x3.numel
  shapeCasts_S1x32x3_S32x3 : S1x32x3.ShapeCasts S32x3
  shapeCasts_S3_S1x3 : S3.ShapeCasts S1x3
  broadcasts_S1x3_S16384x3 : S1x3.Broadcasts S16384x3
  shapeCasts_S16384x3_S256x8x8x3 : S16384x3.ShapeCasts S256x8x8x3
  inb_S4x32x3_S1x32x3_1_0_0 : ∀ a, (![1, 0, 0] : Fin 3 → Nat) a + S1x32x3.size a ≤ S4x32x3.size a
  inb_S4x32x3_S1x32x3_2_0_0 : ∀ a, (![2, 0, 0] : Fin 3 → Nat) a + S1x32x3.size a ≤ S4x32x3.size a
  inb_S4x32x3_S1x32x3_3_0_0 : ∀ a, (![3, 0, 0] : Fin 3 → Nat) a + S1x32x3.size a ≤ S4x32x3.size a
  shapeCasts_S256x8x8x3_S256x8x1x8x3 : S256x8x8x3.ShapeCasts S256x8x1x8x3
  concatenates_S256x8x1x8x3_S256x8x1x8x3_S256x8x2x8x3_d2 : Shape.Concatenates [S256x8x1x8x3, S256x8x1x8x3] S256x8x2x8x3 2
  shapeCasts_S256x8x2x8x3_S256x8x2x8x1x3 : S256x8x2x8x3.ShapeCasts S256x8x2x8x1x3
  concatenates_S256x8x2x8x1x3_S256x8x2x8x1x3_S256x8x2x8x2x3_d4 : Shape.Concatenates [S256x8x2x8x1x3, S256x8x2x8x1x3] S256x8x2x8x2x3 4
  shapeCasts_S256x8x2x8x2x3_S256x16x16x3 : S256x8x2x8x2x3.ShapeCasts S256x16x16x3
  shapeCasts_S256x16x16x3_S256x768 : S256x16x16x3.ShapeCasts S256x768
  inb_S256x768_S256x768_0_0 : ∀ a, (![0, 0] : Fin 2 → Nat) a + S256x768.size a ≤ S256x768.size a
  h_S256x768 : 0 < S256x768.numel
  shapeCasts_S16384x768_S16x32x32x16x16x3 : S16384x768.ShapeCasts S16x32x32x16x16x3
  dot_S256x512_S512x512_S256x512_1_0_0_1_n_n_wf : DotDims.WF S256x512 S512x512 S256x512 [1] [0] [0] [1] [] []
  dot_S1024x384_S384x64_S1024x64_1_0_0_1_n_n_wf : DotDims.WF S1024x384 S384x64 S1024x64 [1] [0] [0] [1] [] []
  dot_S4096x64_S64x32_S4096x32_1_0_0_1_n_n_wf : DotDims.WF S4096x64 S64x32 S4096x32 [1] [0] [0] [1] [] []
  dot_S16384x32_S32x3_S16384x3_1_0_0_1_n_n_wf : DotDims.WF S16384x32 S32x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x384x64.size a ≤ S4x384x64.size a
  hwx0_5 : ∀ i : grid0.Coords, EltTy.bits .bf16 = 32 ∨ (Rect.block (s := S4x384x64) S4x384x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64x32.size a ≤ S4x64x32.size a
  hwx0_7 : ∀ i : grid0.Coords, EltTy.bits .bf16 = 32 ∨ (Rect.block (s := S4x64x32) S4x64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x32x3.size a ≤ S4x32x3.size a
  hwx0_9 : ∀ i : grid0.Coords, EltTy.bits .bf16 = 32 ∨ (Rect.block (s := S4x32x3) S4x32x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3.size a ≤ S3.size a
  hwx0_10 : ∀ i : grid0.Coords, EltTy.bits .f32 = 32 ∨ (Rect.block (s := S3) S3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S16384x768.size a
  hwx0_11 : ∀ i : grid0.Coords, EltTy.bits .f32 = 32 ∨ (Rect.block (s := S16384x768) S256x768.size (cc0_transform_11 i) (hinb0_11 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S1024x384_S384x64_S1024x64_1_0_0_1_n_n : DotDims S1024x384 S384x64 S1024x64 where
  lhsContracting := [1]
  rhsContracting := [0]
  lhsNonContracting := [0]
  rhsNonContracting := [1]
  lhsBatch := []
  rhsBatch := []
  wf := dot_S1024x384_S384x64_S1024x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S16384x32_S32x3_S16384x3_1_0_0_1_n_n : DotDims S16384x32 S32x3 S16384x3 where
  lhsContracting := [1]
  rhsContracting := [0]
  lhsNonContracting := [0]
  rhsNonContracting := [1]
  lhsBatch := []
  rhsBatch := []
  wf := dot_S16384x32_S32x3_S16384x3_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x384x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4x64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S4x32x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S256x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x32x32x512 : Shape := ⟨4, ![16, 32, 32, 512]⟩
abbrev S512x512 : Shape := ⟨2, ![512, 512]⟩
abbrev S512 : Shape := ⟨1, ![512]⟩
abbrev S2x2x64x384 : Shape := ⟨4, ![2, 2, 64, 384]⟩
abbrev S64 : Shape := ⟨1, ![64]⟩
abbrev S2x2x32x64 : Shape := ⟨4, ![2, 2, 32, 64]⟩
abbrev S32 : Shape := ⟨1, ![32]⟩
abbrev S2x2x3x32 : Shape := ⟨4, ![2, 2, 3, 32]⟩
abbrev S3 : Shape := ⟨1, ![3]⟩
abbrev S16384x512 : Shape := ⟨2, ![16384, 512]⟩
abbrev S1x512 : Shape := ⟨2, ![1, 512]⟩
abbrev S_ : Shape := ⟨0, ![]⟩
abbrev S16384x2x2x128 : Shape := ⟨4, ![16384, 2, 2, 128]⟩
abbrev S16384x2x2x384 : Shape := ⟨4, ![16384, 2, 2, 384]⟩
abbrev S2x2x64x16384x2x2 : Shape := ⟨6, ![2, 2, 64, 16384, 2, 2]⟩
abbrev S16384x2x2x2x2x64 : Shape := ⟨6, ![16384, 2, 2, 2, 2, 64]⟩
abbrev S16384x4x4x64 : Shape := ⟨4, ![16384, 4, 4, 64]⟩
abbrev S1x1x1x64 : Shape := ⟨4, ![1, 1, 1, 64]⟩
abbrev S2x2x32x16384x4x4 : Shape := ⟨6, ![2, 2, 32, 16384, 4, 4]⟩
abbrev S16384x4x2x4x2x32 : Shape := ⟨6, ![16384, 4, 2, 4, 2, 32]⟩
abbrev S16384x8x8x32 : Shape := ⟨4, ![16384, 8, 8, 32]⟩
abbrev S1x1x1x32 : Shape := ⟨4, ![1, 1, 1, 32]⟩
abbrev S2x2x3x16384x8x8 : Shape := ⟨6, ![2, 2, 3, 16384, 8, 8]⟩
abbrev S16384x8x2x8x2x3 : Shape := ⟨6, ![16384, 8, 2, 8, 2, 3]⟩
abbrev S16384x16x16x3 : Shape := ⟨4, ![16384, 16, 16, 3]⟩
abbrev S1x1x1x3 : Shape := ⟨4, ![1, 1, 1, 3]⟩
abbrev S16x32x32x16x16x3 : Shape := ⟨6, ![16, 32, 32, 16, 16, 3]⟩

abbrev nBuf : Space → Nat
  | .hbm => 72
  | .vmem => 0
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S16x32x32x512, .f32⟩
  | .hbm, ⟨3, _⟩ => ⟨S512x512, .f32⟩
  | .hbm, ⟨4, _⟩ => ⟨S512, .f32⟩
  | .hbm, ⟨5, _⟩ => ⟨S2x2x64x384, .f32⟩
  | .hbm, ⟨6, _⟩ => ⟨S64, .f32⟩
  | .hbm, ⟨7, _⟩ => ⟨S2x2x32x64, .f32⟩
  | .hbm, ⟨8, _⟩ => ⟨S32, .f32⟩
  | .hbm, ⟨9, _⟩ => ⟨S2x2x3x32, .f32⟩
  | .hbm, ⟨10, _⟩ => ⟨S3, .f32⟩
  | .hbm, ⟨11, _⟩ => ⟨S16384x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x2x2x128, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x2x2x128, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x2x2x128, .f32⟩
  | .hbm, ⟨38, _⟩ => ⟨S16384x2x2x384, .f32⟩
  | .hbm, ⟨39, _⟩ => ⟨S2x2x64x16384x2x2, .f32⟩
  | .hbm, ⟨40, _⟩ => ⟨S16384x2x2x2x2x64, .f32⟩
  | .hbm, ⟨41, _⟩ => ⟨S16384x4x4x64, .f32⟩
  | .hbm, ⟨42, _⟩ => ⟨S1x1x1x64, .f32⟩
  | .hbm, ⟨43, _⟩ => ⟨S16384x4x4x64, .f32⟩
  | .hbm, ⟨44, _⟩ => ⟨S16384x4x4x64, .f32⟩
  | .hbm, ⟨45, _⟩ => ⟨S_, .f32⟩
  | .hbm, ⟨46, _⟩ => ⟨S16384x4x4x64, .f32⟩
  | .hbm, ⟨47, _⟩ => ⟨S16384x4x4x64, .f32⟩
  | .hbm, ⟨48, _⟩ => ⟨S2x2x32x16384x4x4, .f32⟩
  | .hbm, ⟨49, _⟩ => ⟨S16384x4x2x4x2x32, .f32⟩
  | .hbm, ⟨50, _⟩ => ⟨S16384x8x8x32, .f32⟩
  | .hbm, ⟨51, _⟩ => ⟨S1x1x1x32, .f32⟩
  | .hbm, ⟨52, _⟩ => ⟨S16384x8x8x32, .f32⟩
  | .hbm, ⟨53, _⟩ => ⟨S16384x8x8x32, .f32⟩
  | .hbm, ⟨54, _⟩ => ⟨S_, .f32⟩
  | .hbm, ⟨55, _⟩ => ⟨S16384x8x8x32, .f32⟩
  | .hbm, ⟨56, _⟩ => ⟨S16384x8x8x32, .f32⟩
  | .hbm, ⟨57, _⟩ => ⟨S2x2x3x16384x8x8, .f32⟩
  | .hbm, ⟨58, _⟩ => ⟨S16384x8x2x8x2x3, .f32⟩
  | .hbm, ⟨59, _⟩ => ⟨S16384x16x16x3, .f32⟩
  | .hbm, ⟨60, _⟩ => ⟨S1x1x1x3, .f32⟩
  | .hbm, ⟨61, _⟩ => ⟨S16384x16x16x3, .f32⟩
  | .hbm, ⟨62, _⟩ => ⟨S16384x16x16x3, .f32⟩
  | .hbm, ⟨63, _⟩ => ⟨S16384x16x16x3, .f32⟩
  | .hbm, ⟨64, _⟩ => ⟨S16384x16x16x3, .f32⟩
  | .hbm, ⟨65, _⟩ => ⟨S_, .f32⟩
  | .hbm, ⟨66, _⟩ => ⟨S16384x16x16x3, .f32⟩
  | .hbm, ⟨67, _⟩ => ⟨S16384x16x16x3, .f32⟩
  | .hbm, ⟨68, _⟩ => ⟨S_, .f32⟩
  | .hbm, ⟨69, _⟩ => ⟨S16384x16x16x3, .f32⟩
  | .hbm, ⟨70, _⟩ => ⟨S16384x16x16x3, .f32⟩
  | .hbm, ⟨71, _⟩ => ⟨S16x32x32x16x16x3, .f32⟩
  | _, _ => ⟨S16x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call2_cst : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call3_cst : Ref sig .tc := ⟨.hbm, 45, rfl⟩
abbrev main_call3_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call4_cst : Ref sig .tc := ⟨.hbm, 54, rfl⟩
abbrev main_call4_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_v44 : Ref sig .tc := ⟨.hbm, 66, rfl⟩
abbrev main_v45 : Ref sig .tc := ⟨.hbm, 67, rfl⟩
abbrev main_cst_0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  shapeCasts_S16x32x32x512_S16384x512 : S16x32x32x512.ShapeCasts S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  shapeCasts_S16384x512_S16384x2x2x128 : S16384x512.ShapeCasts S16384x2x2x128
  concatenates_S16384x2x2x128_S16384x2x2x128_S16384x2x2x128_S16384x2x2x384_d3 : Shape.Concatenates [S16384x2x2x128, S16384x2x2x128, S16384x2x2x128] S16384x2x2x384 3
  transposes_S2x2x64x16384x2x2_S16384x2x2x2x2x64_3_4_0_5_1_2 : S2x2x64x16384x2x2.Transposes [3, 4, 0, 5, 1, 2] S16384x2x2x2x2x64
  shapeCasts_S16384x2x2x2x2x64_S16384x4x4x64 : S16384x2x2x2x2x64.ShapeCasts S16384x4x4x64
  bcast_S64_S1x1x1x64_3 : S64.BroadcastsInDim S1x1x1x64 (![3] : Fin 1 → Fin S1x1x1x64.rank)
  bcast_S1x1x1x64_S16384x4x4x64_0_1_2_3 : S1x1x1x64.BroadcastsInDim S16384x4x4x64 (![0, 1, 2, 3] : Fin 4 → Fin S16384x4x4x64.rank)
  bcast_S_S16384x4x4x64 : S_.BroadcastsInDim S16384x4x4x64 (![] : Fin 0 → Fin S16384x4x4x64.rank)
  transposes_S2x2x32x16384x4x4_S16384x4x2x4x2x32_3_4_0_5_1_2 : S2x2x32x16384x4x4.Transposes [3, 4, 0, 5, 1, 2] S16384x4x2x4x2x32
  shapeCasts_S16384x4x2x4x2x32_S16384x8x8x32 : S16384x4x2x4x2x32.ShapeCasts S16384x8x8x32
  bcast_S32_S1x1x1x32_3 : S32.BroadcastsInDim S1x1x1x32 (![3] : Fin 1 → Fin S1x1x1x32.rank)
  bcast_S1x1x1x32_S16384x8x8x32_0_1_2_3 : S1x1x1x32.BroadcastsInDim S16384x8x8x32 (![0, 1, 2, 3] : Fin 4 → Fin S16384x8x8x32.rank)
  bcast_S_S16384x8x8x32 : S_.BroadcastsInDim S16384x8x8x32 (![] : Fin 0 → Fin S16384x8x8x32.rank)
  transposes_S2x2x3x16384x8x8_S16384x8x2x8x2x3_3_4_0_5_1_2 : S2x2x3x16384x8x8.Transposes [3, 4, 0, 5, 1, 2] S16384x8x2x8x2x3
  shapeCasts_S16384x8x2x8x2x3_S16384x16x16x3 : S16384x8x2x8x2x3.ShapeCasts S16384x16x16x3
  bcast_S3_S1x1x1x3_3 : S3.BroadcastsInDim S1x1x1x3 (![3] : Fin 1 → Fin S1x1x1x3.rank)
  bcast_S1x1x1x3_S16384x16x16x3_0_1_2_3 : S1x1x1x3.BroadcastsInDim S16384x16x16x3 (![0, 1, 2, 3] : Fin 4 → Fin S16384x16x16x3.rank)
  bcast_S_S16384x16x16x3 : S_.BroadcastsInDim S16384x16x16x3 (![] : Fin 0 → Fin S16384x16x16x3.rank)
  shapeCasts_S16384x16x16x3_S16x32x32x16x16x3 : S16384x16x16x3.ShapeCasts S16x32x32x16x16x3
  dot_S16384x512_S512x512_S16384x512_1_0_0_1_n_n_wf : DotDims.WF S16384x512 S512x512 S16384x512 [1] [0] [0] [1] [] []
  dot_S2x2x64x384_S16384x2x2x384_S2x2x64x16384x2x2_3_3_012_012_n_n_wf : DotDims.WF S2x2x64x384 S16384x2x2x384 S2x2x64x16384x2x2 [3] [3] [0, 1, 2] [0, 1, 2] [] []
  dot_S2x2x32x64_S16384x4x4x64_S2x2x32x16384x4x4_3_3_012_012_n_n_wf : DotDims.WF S2x2x32x64 S16384x4x4x64 S2x2x32x16384x4x4 [3] [3] [0, 1, 2] [0, 1, 2] [] []
  dot_S2x2x3x32_S16384x8x8x32_S2x2x3x16384x8x8_3_3_012_012_n_n_wf : DotDims.WF S2x2x3x32 S16384x8x8x32 S2x2x3x16384x8x8 [3] [3] [0, 1, 2] [0, 1, 2] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S2x2x64x384_S16384x2x2x384_S2x2x64x16384x2x2_3_3_012_012_n_n : DotDims S2x2x64x384 S16384x2x2x384 S2x2x64x16384x2x2 where
  lhsContracting := [3]
  rhsContracting := [3]
  lhsNonContracting := [0, 1, 2]
  rhsNonContracting := [0, 1, 2]
  lhsBatch := []
  rhsBatch := []
  wf := dot_S2x2x64x384_S16384x2x2x384_S2x2x64x16384x2x2_3_3_012_012_n_n_wf
def dot_S2x2x32x64_S16384x4x4x64_S2x2x32x16384x4x4_3_3_012_012_n_n : DotDims S2x2x32x64 S16384x4x4x64 S2x2x32x16384x4x4 where
  lhsContracting := [3]
  rhsContracting := [3]
  lhsNonContracting := [0, 1, 2]
  rhsNonContracting := [0, 1, 2]
  lhsBatch := []
  rhsBatch := []
  wf := dot_S2x2x32x64_S16384x4x4x64_S2x2x32x16384x4x4_3_3_012_012_n_n_wf
def dot_S2x2x3x32_S16384x8x8x32_S2x2x3x16384x8x8_3_3_012_012_n_n : DotDims S2x2x3x32 S16384x8x8x32 S2x2x3x16384x8x8 where
  lhsContracting := [3]
  rhsContracting := [3]
  lhsNonContracting := [0, 1, 2]
  rhsNonContracting := [0, 1, 2]
  lhsBatch := []
  rhsBatch := []
  wf := dot_S2x2x3x32_S16384x8x8x32_S2x2x3x16384x8x8_3_3_012_012_n_n_wf

class Facts : Prop extends Facts₀ where

variable [Facts]
-- ==== Proof.Spec.lean ====
/-
  The decoder, pixel by pixel, on the extended reals.

  A pixel n carries three rows of 512 numbers (one per input scale). Each row goes through the same affine map into 512
  numbers and is rectified (`dense`). The 512 numbers of a row are four groups of 128, one per cell (hh, ww) of a 2×2
  grid; the three scales' groups of a cell are laid side by side into 384 channels (`cell`). Three times the grid is then
  doubled: output cell (Y, X) is computed from input cell (Y/2, X/2) alone, by the matrix of the weight array at the
  parities (Y%2, X%2) — a transposed convolution of kernel 2 and stride 2, whose patches do not overlap — plus a bias per
  output channel (`pre1`, `pre2`, `pre3`); the first two are rectified (`act1`, `act2`), the last goes through the logistic
  function (`out`). Nothing here mixes two pixels.

  Arrays are functions of the indices of literal shapes; the rectifier's zero is kept as the zero word.
-/
import Idealize.ShloMosaic.PureOps.Ideal
import Idealize.ShloMosaic.Lib.ValueIdx

noncomputable section

namespace Cert.Decoder

open Idealize.ShloMosaic Idealize.ShloMosaic.ValueIdx

/-- The zero the rectifiers compare with: the zero word, read as an extended real. -/
abbrev z32 : EReal := Ideal.ofBits .f32 0x00000000#32

abbrev Arr1 (a : Nat) : Type := (⟨1, ![a]⟩ : Shape).Idx → EReal
abbrev Arr2 (a b : Nat) : Type := (⟨2, ![a, b]⟩ : Shape).Idx → EReal
abbrev Arr4 (a b c d : Nat) : Type := (⟨4, ![a, b, c, d]⟩ : Shape).Idx → EReal

/-- Row n of X through the affine map (W, b), rectified: entry j. -/
def dense (X : Arr2 16384 512) (W : Arr2 512 512) (b : Arr1 512) (n : Fin 16384) (j : Fin 512) : EReal :=
  max ((∑ k : Fin 512, X (ix2 n k) * W (ix2 k j)) + b (ix1 j)) z32

/-- Channel ch of cell (hh, ww) of pixel n: the cell's group of 128 of scale ch / 128, at ch % 128. -/
def cell (X0 X1 X2 : Arr2 16384 512) (W : Arr2 512 512) (b : Arr1 512) (n : Fin 16384) (hh ww : Fin 2) (ch : Fin 384) : EReal :=
  if h : ch.val < 128 then
    dense X0 W b n ⟨(hh.val * 2 + ww.val) * 128 + ch.val, by have := hh.isLt; have := ww.isLt; omega⟩
  else if h' : ch.val < 256 then
    dense X1 W b n ⟨(hh.val * 2 + ww.val) * 128 + (ch.val - 128), by have := hh.isLt; have := ww.isLt; omega⟩
  else
    dense X2 W b n ⟨(hh.val * 2 + ww.val) * 128 + (ch.val - 256), by have := hh.isLt; have := ww.isLt; have := ch.isLt; omega⟩

/-- First doubling, 2×2×384 → 4×4×64, before the rectifier. -/
def pre1 (A : Fin 16384 → Fin 2 → Fin 2 → Fin 384 → EReal) (w : Arr4 2 2 64 384) (b : Arr1 64)
    (n : Fin 16384) (Y X : Fin 4) (f : Fin 64) : EReal :=
  (∑ k : Fin 384, A n ⟨Y.val / 2, by have := Y.isLt; omega⟩ ⟨X.val / 2, by have := X.isLt; omega⟩ k
      * w (ix4 ⟨Y.val % 2, by omega⟩ ⟨X.val % 2, by omega⟩ f k)) + b (ix1 f)

/-- Second doubling, 4×4×64 → 8×8×32, before the rectifier. -/
def pre2 (A : Fin 16384 → Fin 4 → Fin 4 → Fin 64 → EReal) (w : Arr4 2 2 32 64) (b : Arr1 32)
    (n : Fin 16384) (Y X : Fin 8) (f : Fin 32) : EReal :=
  (∑ k : Fin 64, A n ⟨Y.val / 2, by have := Y.isLt; omega⟩ ⟨X.val / 2, by have := X.isLt; omega⟩ k
      * w (ix4 ⟨Y.val % 2, by omega⟩ ⟨X.val % 2, by omega⟩ f k)) + b (ix1 f)

/-- Third doubling, 8×8×32 → 16×16×3, before the logistic function. -/
def pre3 (A : Fin 16384 → Fin 8 → Fin 8 → Fin 32 → EReal) (w : Arr4 2 2 3 32) (b : Arr1 3)
    (n : Fin 16384) (Y X : Fin 16) (f : Fin 3) : EReal :=
  (∑ k : Fin 32, A n ⟨Y.val / 2, by have := Y.isLt; omega⟩ ⟨X.val / 2, by have := X.isLt; omega⟩ k
      * w (ix4 ⟨Y.val % 2, by omega⟩ ⟨X.val % 2, by omega⟩ f k)) + b (ix1 f)

/-- The weights and biases of the whole decoder. -/
structure Params where
  W : Arr2 512 512
  b : Arr1 512
  w1 : Arr4 2 2 64 384
  b1 : Arr1 64
  w2 : Arr4 2 2 32 64
  b2 : Arr1 32
  w3 : Arr4 2 2 3 32
  b3 : Arr1 3

variable (X0 X1 X2 : Arr2 16384 512) (P : Params)

/-- The 4×4×64 grid of pixel n, rectified. -/
def act1 (n : Fin 16384) (Y X : Fin 4) (f : Fin 64) : EReal :=
  max (pre1 (cell X0 X1 X2 P.W P.b) P.w1 P.b1 n Y X f) z32

/-- The 8×8×32 grid of pixel n, rectified. -/
def act2 (n : Fin 16384) (Y X : Fin 8) (f : Fin 32) : EReal :=
  max (pre2 (act1 X0 X1 X2 P) P.w2 P.b2 n Y X f) z32

/-- The 16×16×3 picture of pixel n. -/
def out (n : Fin 16384) (Y X : Fin 16) (f : Fin 3) : EReal :=
  Ideal.logistic (pre3 (act2 X0 X1 X2 P) P.w3 P.b3 n Y X f)

/-- The result as a four-axis array [16384, 16, 16, 3]. -/
def out4 : Arr4 16384 16 16 3 := fun i => out X0 X1 X2 P (i 0) (i 1) (i 2) (i 3)

/-- An input as it arrives: [16, 32, 32, 512]. Its pixels are the rows of the same numbers laid out as [16384, 512]. -/
abbrev In4 : Type := (⟨4, ![16, 32, 32, 512]⟩ : Shape).Idx → EReal

theorem casts_in : (⟨4, ![16, 32, 32, 512]⟩ : Shape).ShapeCasts ⟨2, ![16384, 512]⟩ := by decide
theorem casts_out : (⟨4, ![16384, 16, 16, 3]⟩ : Shape).ShapeCasts ⟨6, ![16, 32, 32, 16, 16, 3]⟩ := by decide

/-- The decoder's result as the programs return it: the pictures of the 16384 pixels, the pixel axis split back into
    [16, 32, 32]. Both programs are shown to end with this array. -/
def result (a0 a1 a2 : In4) (P : Params) : (⟨6, ![16, 32, 32, 16, 16, 3]⟩ : Shape).Idx → EReal :=
  shapeCast _ (out4 (shapeCast _ a0 casts_in) (shapeCast _ a1 casts_in) (shapeCast _ a2 casts_in) P) casts_out

end Cert.Decoder

end
-- ==== Proof.RefDense.lean ====
import proofs.«118323_j87299505258574_2_alg».proof.Proof.Gen.ReferenceIdeal.Read
import proofs.«118323_j87299505258574_2_alg».proof.Proof.Spec
import Idealize.ShloMosaic.Lib.IdealHost
import Idealize.ShloMosaic.Lib.ValueIdxRank6
import Idealize.ShloMosaic.Lib.ValueIdxCoords

noncomputable section

namespace Cert.Decoder.Ref

open Cert.ReferenceIdeal Cert.ReferenceIdeal.Read Idealize.ShloMosaic Idealize.ShloMosaic.ValueIdx Cert.Decoder

/-! ## The shared dense layer, read at a pixel and an output column

Each of the three inputs is flattened to rows of 512, multiplied by the weight matrix, shifted by the bias and
rectified. Read at row n and column j this is the sum over k of row n's entry k times the matrix's entry (k, j), plus
the bias at j, maximised with the zero word: the specification's dense. -/

/-- The left factor's index of the product at (n, j), term k: (n, k). -/
theorem lidx_v1 (n : Fin 16384) (j k : Fin 512) : lidx_main_v1 (ix2 n j) k = ix2 n k := by
  funext a; match a with | ⟨0, _⟩ => rfl | ⟨1, _⟩ => rfl

/-- The right factor's index of the product at (n, j), term k: (k, j). -/
theorem ridx_v1 (n : Fin 16384) (j k : Fin 512) : ridx_main_v1 (ix2 n j) k = ix2 k j := by
  funext a; match a with | ⟨0, _⟩ => rfl | ⟨1, _⟩ => rfl

/-- The rectified affine image of row n, at column j. -/
theorem v5_dense (x0 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (j : Fin 512) :
    val_main_v5 (F := Ideal) x0 x3 x4 (ix2 n j) = dense (shapeCast _ x0 casts_in) x3 x4 n j := by
  rw [val_main_v5_apply, val_main_v4_apply, val_main_v1_apply, val_main_v3_apply, val_main_v2_apply,
    val_main_call0_v0_apply, val_main_call0_cst_apply]
  unfold dense
  show max ((∑ k : Fin 512, val_main_v0 x0 (lidx_main_v1 (ix2 n j) k) * x3 (ridx_main_v1 (ix2 n j) k))
      + x4 (idx_main_v2 (idx_main_v3 (ix2 n j)))) z32 = _
  refine congrArg (fun t => max t z32) ?_
  refine congrArg₂ (· + ·) (Finset.sum_congr rfl fun k _ => ?_) (congrArg x4 ?_)
  · rw [lidx_v1, ridx_v1]; rfl
  · funext a; match a with | ⟨0, _⟩ => rfl

/-- The row of 512 regrouped as 2×2×128: cell (hh, ww), channel c sits at column (2·hh + ww)·128 + c of the same row. -/
theorem idx_v6 (n : Fin 16384) (hh ww : Fin 2) (c : Fin 128) :
    idx_main_v6 (ix4 n hh ww c)
      = ix2 n ⟨(hh.val * 2 + ww.val) * 128 + c.val, by have := hh.isLt; have := ww.isLt; have := c.isLt; omega⟩ := by
  funext a; refine Fin.ext ?_
  match a with
  | ⟨0, _⟩ =>
    show (((n.val * 2 + hh.val) * 2 + ww.val) * 128 + c.val) / 512 = n.val
    have := hh.isLt; have := ww.isLt; have := c.isLt; omega
  | ⟨1, _⟩ =>
    show (((n.val * 2 + hh.val) * 2 + ww.val) * 128 + c.val) % 512 = (hh.val * 2 + ww.val) * 128 + c.val
    have := hh.isLt; have := ww.isLt; have := c.isLt; omega

/-- The regrouped row at cell (hh, ww), channel c. -/
theorem v6_dense (x0 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (hh ww : Fin 2) (c : Fin 128) :
    val_main_v6 (F := Ideal) x0 x3 x4 (ix4 n hh ww c)
      = dense (shapeCast _ x0 casts_in) x3 x4 n ⟨(hh.val * 2 + ww.val) * 128 + c.val, by have := hh.isLt; have := ww.isLt; have := c.isLt; omega⟩ := by
  rw [val_main_v6_apply, idx_v6, v5_dense]

/-- The left factor's index of the product at (n, j), term k: (n, k). -/
theorem lidx_v8 (n : Fin 16384) (j k : Fin 512) : lidx_main_v8 (ix2 n j) k = ix2 n k := by
  funext a; match a with | ⟨0, _⟩ => rfl | ⟨1, _⟩ => rfl

/-- The right factor's index of the product at (n, j), term k: (k, j). -/
theorem ridx_v8 (n : Fin 16384) (j k : Fin 512) : ridx_main_v8 (ix2 n j) k = ix2 k j := by
  funext a; match a with | ⟨0, _⟩ => rfl | ⟨1, _⟩ => rfl

/-- The rectified affine image of row n, at column j. -/
theorem v12_dense (x1 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (j : Fin 512) :
    val_main_v12 (F := Ideal) x1 x3 x4 (ix2 n j) = dense (shapeCast _ x1 casts_in) x3 x4 n j := by
  rw [val_main_v12_apply, val_main_v11_apply, val_main_v8_apply, val_main_v10_apply, val_main_v9_apply,
    val_main_call1_v0_apply, val_main_call1_cst_apply]
  unfold dense
  show max ((∑ k : Fin 512, val_main_v7 x1 (lidx_main_v8 (ix2 n j) k) * x3 (ridx_main_v8 (ix2 n j) k))
      + x4 (idx_main_v9 (idx_main_v10 (ix2 n j)))) z32 = _
  refine congrArg (fun t => max t z32) ?_
  refine congrArg₂ (· + ·) (Finset.sum_congr rfl fun k _ => ?_) (congrArg x4 ?_)
  · rw [lidx_v8, ridx_v8]; rfl
  · funext a; match a with | ⟨0, _⟩ => rfl

/-- The row of 512 regrouped as 2×2×128: cell (hh, ww), channel c sits at column (2·hh + ww)·128 + c of the same row. -/
theorem idx_v13 (n : Fin 16384) (hh ww : Fin 2) (c : Fin 128) :
    idx_main_v13 (ix4 n hh ww c)
      = ix2 n ⟨(hh.val * 2 + ww.val) * 128 + c.val, by have := hh.isLt; have := ww.isLt; have := c.isLt; omega⟩ := by
  funext a; refine Fin.ext ?_
  match a with
  | ⟨0, _⟩ =>
    show (((n.val * 2 + hh.val) * 2 + ww.val) * 128 + c.val) / 512 = n.val
    have := hh.isLt; have := ww.isLt; have := c.isLt; omega
  | ⟨1, _⟩ =>
    show (((n.val * 2 + hh.val) * 2 + ww.val) * 128 + c.val) % 512 = (hh.val * 2 + ww.val) * 128 + c.val
    have := hh.isLt; have := ww.isLt; have := c.isLt; omega

/-- The regrouped row at cell (hh, ww), channel c. -/
theorem v13_dense (x1 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (hh ww : Fin 2) (c : Fin 128) :
    val_main_v13 (F := Ideal) x1 x3 x4 (ix4 n hh ww c)
      = dense (shapeCast _ x1 casts_in) x3 x4 n ⟨(hh.val * 2 + ww.val) * 128 + c.val, by have := hh.isLt; have := ww.isLt; have := c.isLt; omega⟩ := by
  rw [val_main_v13_apply, idx_v13, v12_dense]

/-- The left factor's index of the product at (n, j), term k: (n, k). -/
theorem lidx_v15 (n : Fin 16384) (j k : Fin 512) : lidx_main_v15 (ix2 n j) k = ix2 n k := by
  funext a; match a with | ⟨0, _⟩ => rfl | ⟨1, _⟩ => rfl

/-- The right factor's index of the product at (n, j), term k: (k, j). -/
theorem ridx_v15 (n : Fin 16384) (j k : Fin 512) : ridx_main_v15 (ix2 n j) k = ix2 k j := by
  funext a; match a with | ⟨0, _⟩ => rfl | ⟨1, _⟩ => rfl

/-- The rectified affine image of row n, at column j. -/
theorem v19_dense (x2 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (j : Fin 512) :
    val_main_v19 (F := Ideal) x2 x3 x4 (ix2 n j) = dense (shapeCast _ x2 casts_in) x3 x4 n j := by
  rw [val_main_v19_apply, val_main_v18_apply, val_main_v15_apply, val_main_v17_apply, val_main_v16_apply,
    val_main_call2_v0_apply, val_main_call2_cst_apply]
  unfold dense
  show max ((∑ k : Fin 512, val_main_v14 x2 (lidx_main_v15 (ix2 n j) k) * x3 (ridx_main_v15 (ix2 n j) k))
      + x4 (idx_main_v16 (idx_main_v17 (ix2 n j)))) z32 = _
  refine congrArg (fun t => max t z32) ?_
  refine congrArg₂ (· + ·) (Finset.sum_congr rfl fun k _ => ?_) (congrArg x4 ?_)
  · rw [lidx_v15, ridx_v15]; rfl
  · funext a; match a with | ⟨0, _⟩ => rfl

/-- The row of 512 regrouped as 2×2×128: cell (hh, ww), channel c sits at column (2·hh + ww)·128 + c of the same row. -/
theorem idx_v20 (n : Fin 16384) (hh ww : Fin 2) (c : Fin 128) :
    idx_main_v20 (ix4 n hh ww c)
      = ix2 n ⟨(hh.val * 2 + ww.val) * 128 + c.val, by have := hh.isLt; have := ww.isLt; have := c.isLt; omega⟩ := by
  funext a; refine Fin.ext ?_
  match a with
  | ⟨0, _⟩ =>
    show (((n.val * 2 + hh.val) * 2 + ww.val) * 128 + c.val) / 512 = n.val
    have := hh.isLt; have := ww.isLt; have := c.isLt; omega
  | ⟨1, _⟩ =>
    show (((n.val * 2 + hh.val) * 2 + ww.val) * 128 + c.val) % 512 = (hh.val * 2 + ww.val) * 128 + c.val
    have := hh.isLt; have := ww.isLt; have := c.isLt; omega

/-- The regrouped row at cell (hh, ww), channel c. -/
theorem v20_dense (x2 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (hh ww : Fin 2) (c : Fin 128) :
    val_main_v20 (F := Ideal) x2 x3 x4 (ix4 n hh ww c)
      = dense (shapeCast _ x2 casts_in) x3 x4 n ⟨(hh.val * 2 + ww.val) * 128 + c.val, by have := hh.isLt; have := ww.isLt; have := c.isLt; omega⟩ := by
  rw [val_main_v20_apply, idx_v20, v19_dense]

end Cert.Decoder.Ref

end
-- ==== Proof.RefCell.lean ====
import proofs.«118323_j87299505258574_2_alg».proof.Proof.RefDense

noncomputable section

namespace Cert.Decoder.Ref

open Cert.ReferenceIdeal Cert.ReferenceIdeal.Read Idealize.ShloMosaic Idealize.ShloMosaic.ValueIdx Cert.Decoder

/-! ## The three scales side by side

The three regrouped rows are joined along the channel axis into 384 channels: channels 0–127 are the first scale's,
128–255 the second's, 256–383 the third's, each read at the channel less the extents before it. With the dense layer
read at a pixel this is the specification's cell. -/

/-- The joined array at pixel n, cell (hh, ww), channel ch. -/
theorem v21_cell (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (n : Fin 16384) (hh ww : Fin 2) (ch : Fin 384) :
    val_main_v21 (F := Ideal) x0 x1 x2 x3 x4 (ix4 n hh ww ch)
      = cell (shapeCast _ x0 casts_in) (shapeCast _ x1 casts_in) (shapeCast _ x2 casts_in) x3 x4 n hh ww ch := by
  unfold cell
  by_cases h : ch.val < 128
  · rw [dif_pos h]
    refine Eq.trans ?_ (v6_dense x0 x3 x4 n hh ww ⟨ch.val, h⟩)
    unfold val_main_v21
    generalize val_main_v6 (F := Ideal) x0 x3 x4 = y0
    generalize val_main_v13 (F := Ideal) x1 x3 x4 = y1
    generalize val_main_v20 (F := Ideal) x2 x3 x4 = y2
    exact concatenate_apply_piece (3 : Fin 4) _ _ (ix4 n hh ww ch) 0 (by show (0 : Nat) < 3; omega) S16384x2x2x128 y0 rfl rfl 0 rfl
      (ix4 n hh ww ⟨ch.val, h⟩) (fun b hb => match b, hb with
        | ⟨0, _⟩, _ => rfl
        | ⟨1, _⟩, _ => rfl
        | ⟨2, _⟩, _ => rfl
        | ⟨3, _⟩, hb => (hb (Fin.ext rfl)).elim)
      (by show 0 + (ch.val) = ch.val; omega)
  · rw [dif_neg h]
    by_cases h' : ch.val < 256
    · rw [dif_pos h']
      refine Eq.trans ?_ (v13_dense x1 x3 x4 n hh ww ⟨ch.val - 128, by omega⟩)
      unfold val_main_v21
      generalize val_main_v6 (F := Ideal) x0 x3 x4 = y0
      generalize val_main_v13 (F := Ideal) x1 x3 x4 = y1
      generalize val_main_v20 (F := Ideal) x2 x3 x4 = y2
      exact concatenate_apply_piece (3 : Fin 4) _ _ (ix4 n hh ww ch) 1 (by show (1 : Nat) < 3; omega) S16384x2x2x128 y1 rfl rfl 128 rfl
        (ix4 n hh ww ⟨ch.val - 128, by omega⟩) (fun b hb => match b, hb with
          | ⟨0, _⟩, _ => rfl
          | ⟨1, _⟩, _ => rfl
          | ⟨2, _⟩, _ => rfl
          | ⟨3, _⟩, hb => (hb (Fin.ext rfl)).elim)
        (by show 128 + (ch.val - 128) = ch.val; omega)
    · rw [dif_neg h']
      have hc := ch.isLt
      refine Eq.trans ?_ (v20_dense x2 x3 x4 n hh ww ⟨ch.val - 256, by omega⟩)
      unfold val_main_v21
      generalize val_main_v6 (F := Ideal) x0 x3 x4 = y0
      generalize val_main_v13 (F := Ideal) x1 x3 x4 = y1
      generalize val_main_v20 (F := Ideal) x2 x3 x4 = y2
      exact concatenate_apply_piece (3 : Fin 4) _ _ (ix4 n hh ww ch) 2 (by show (2 : Nat) < 3; omega) S16384x2x2x128 y2 rfl rfl 256 rfl
        (ix4 n hh ww ⟨ch.val - 256, by omega⟩) (fun b hb => match b, hb with
          | ⟨0, _⟩, _ => rfl
          | ⟨1, _⟩, _ => rfl
          | ⟨2, _⟩, _ => rfl
          | ⟨3, _⟩, hb => (hb (Fin.ext rfl)).elim)
        (by show 256 + (ch.val - 256) = ch.val; omega)

end Cert.Decoder.Ref

end
-- ==== Proof.RefLayer1.lean ====
import proofs.«118323_j87299505258574_2_alg».proof.Proof.RefCell

noncomputable section

namespace Cert.Decoder.Ref

open Cert.ReferenceIdeal Cert.ReferenceIdeal.Gen Cert.ReferenceIdeal.Read Idealize.ShloMosaic Idealize.ShloMosaic.ValueIdx Cert.Decoder

/-! ## The first doubling, 2×2×384 → 4×4×64

The product of the weight [a, c, f, k] with the grid [n, H, W, k] over k comes out laid as [a, c, f, n, H, W]; it is
transposed to [n, H, a, W, c, f] and the pairs (H, a), (W, c) are merged into Y = 2·H + a, X = 2·W + c. So output cell
(Y, X) reads input cell (Y / 2, X / 2) through the weight at the parities (Y % 2, X % 2). The factors come as weight
times input; the specification writes input times weight. -/

/-- The weight's index of the product at (a, c, f, n, H, W), term k: (a, c, f, k). -/
theorem lidx_v22 (a c : Fin 2) (f : Fin 64) (n : Fin 16384) (H W : Fin 2) (k : Fin 384) :
    lidx_main_v22 (ix6 a c f n H W) k = ix4 a c f k := by
  funext e; match e with | ⟨0, _⟩ => rfl | ⟨1, _⟩ => rfl | ⟨2, _⟩ => rfl | ⟨3, _⟩ => rfl

/-- The grid's index of the product at (a, c, f, n, H, W), term k: (n, H, W, k). -/
theorem ridx_v22 (a c : Fin 2) (f : Fin 64) (n : Fin 16384) (H W : Fin 2) (k : Fin 384) :
    ridx_main_v22 (ix6 a c f n H W) k = ix4 n H W k := by
  funext e; match e with | ⟨0, _⟩ => rfl | ⟨1, _⟩ => rfl | ⟨2, _⟩ => rfl | ⟨3, _⟩ => rfl

/-- The transposition reads (n, H, a, W, c, f) at (a, c, f, n, H, W). -/
theorem idx_v23 (n : Fin 16384) (H : Fin 2) (a : Fin 2) (W : Fin 2) (c : Fin 2) (f : Fin 64) :
    idx_main_v23 (ix6 n H a W c f) = ix6 a c f n H W := by
  funext e; match e with | ⟨0, _⟩ => rfl | ⟨1, _⟩ => rfl | ⟨2, _⟩ => rfl | ⟨3, _⟩ => rfl | ⟨4, _⟩ => rfl | ⟨5, _⟩ => rfl

/-- Merging (H, a) into Y = 2·H + a and (W, c) into X = 2·W + c keeps the row-major position, so the merged array at
    (n, Y, X, f) is the six-axis one at (n, Y / 2, Y % 2, X / 2, X % 2, f). -/
theorem v24_apply (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (n : Fin 16384) (Y X : Fin 4) (f : Fin 64) :
    val_main_v24 (F := Ideal) x0 x1 x2 x3 x4 x5 (ix4 n Y X f)
      = val_main_v23 (F := Ideal) x0 x1 x2 x3 x4 x5 (ix6 n (⟨Y.val / 2, by have := Y.isLt; omega⟩ : Fin 2) (⟨Y.val % 2, by omega⟩ : Fin 2) (⟨X.val / 2, by have := X.isLt; omega⟩ : Fin 2) (⟨X.val % 2, by omega⟩ : Fin 2) f) := by
  unfold val_main_v24
  generalize val_main_v23 (F := Ideal) x0 x1 x2 x3 x4 x5 = y
  refine shapeCast_apply y shapeCasts_S16384x2x2x2x2x64_S16384x4x4x64 (ix4 n Y X f) _ ?_
  rewrite [Shape.rowMajor_val_six, Shape.rowMajor_val_four]
  show ((((n.val * 2 + Y.val / 2) * 2 + Y.val % 2) * 2 + X.val / 2) * 2 + X.val % 2) * 64 + f.val
    = ((n.val * 4 + Y.val) * 4 + X.val) * 64 + f.val
  have := Y.isLt; have := X.isLt; omega

/-- The doubled grid before the bias: output cell (Y, X), channel f is the sum over the input channels k of the weight
    at the parities (Y % 2, X % 2) times the input cell (Y / 2, X / 2). -/
theorem v24_sum (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (n : Fin 16384) (Y X : Fin 4) (f : Fin 64) :
    val_main_v24 (F := Ideal) x0 x1 x2 x3 x4 x5 (ix4 n Y X f)
      = ∑ k : Fin 384, x5 (ix4 (⟨Y.val % 2, by omega⟩ : Fin 2) (⟨X.val % 2, by omega⟩ : Fin 2) f k)
          * val_main_v21 (F := Ideal) x0 x1 x2 x3 x4 (ix4 n (⟨Y.val / 2, by have := Y.isLt; omega⟩ : Fin 2) (⟨X.val / 2, by have := X.isLt; omega⟩ : Fin 2) k) := by
  rw [v24_apply, val_main_v23_apply, idx_v23, val_main_v22_apply]
  refine Finset.sum_congr rfl fun k _ => ?_
  rw [lidx_v22, ridx_v22]

/-- The bias, broadcast over pixels and cells, read at channel f. -/
theorem v26_bias (x6 : (⟨S64, .f32⟩ : BufTy).Contents (Elt Ideal)) (n : Fin 16384) (Y X : Fin 4) (f : Fin 64) :
    val_main_v26 (F := Ideal) x6 (ix4 n Y X f) = x6 (ix1 f) := by
  rw [val_main_v26_apply, val_main_v25_apply]
  refine congrArg x6 ?_
  funext e; match e with | ⟨0, _⟩ => rfl

/-- The first doubling with its bias is the specification's pre1 over the cells. -/
theorem v27_pre1 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 4) (f : Fin 64) :
    val_main_v27 (F := Ideal) x0 x1 x2 x3 x4 x5 x6 (ix4 n Y X f)
      = pre1 (cell (shapeCast _ x0 casts_in) (shapeCast _ x1 casts_in) (shapeCast _ x2 casts_in) x3 x4) x5 x6 n Y X f := by
  rw [val_main_v27_apply, v24_sum, v26_bias]
  unfold pre1
  refine congrArg₂ (· + ·) (Finset.sum_congr rfl fun k _ => ?_) rfl
  refine (mul_comm _ _).trans ?_
  rw [v21_cell]

/-- Rectified, the first doubling is the specification's act1. -/
theorem v28_act1 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 4) (f : Fin 64) :
    val_main_v28 (F := Ideal) x0 x1 x2 x3 x4 x5 x6 (ix4 n Y X f) = act1 (shapeCast _ x0 casts_in) (shapeCast _ x1 casts_in) (shapeCast _ x2 casts_in) ⟨x3, x4, x5, x6, x7, x8, x9, x10⟩ n Y X f := by
  rw [val_main_v28_apply, v27_pre1 x0 x1 x2 x3 x4 x5 x6 x7 x8 x9 x10, val_main_call3_v0_apply, val_main_call3_cst_apply]
  rfl

end Cert.Decoder.Ref

end
-- ==== Proof.RefLayer2.lean ====
import proofs.«118323_j87299505258574_2_alg».proof.Proof.RefLayer1

noncomputable section

namespace Cert.Decoder.Ref

open Cert.ReferenceIdeal Cert.ReferenceIdeal.Gen Cert.ReferenceIdeal.Read Idealize.ShloMosaic Idealize.ShloMosaic.ValueIdx Cert.Decoder

/-! ## The second doubling, 4×4×64 → 8×8×32

As the first: the product of the weight [a, c, f, k] with the rectified grid [n, H, W, k] over k, laid as
[a, c, f, n, H, W], transposed to [n, H, a, W, c, f], the pairs (H, a), (W, c) merged into Y = 2·H + a, X = 2·W + c. -/

/-- The weight's index of the product at (a, c, f, n, H, W), term k: (a, c, f, k). -/
theorem lidx_v29 (a c : Fin 2) (f : Fin 32) (n : Fin 16384) (H W : Fin 4) (k : Fin 64) :
    lidx_main_v29 (ix6 a c f n H W) k = ix4 a c f k := by
  funext e; match e with | ⟨0, _⟩ => rfl | ⟨1, _⟩ => rfl | ⟨2, _⟩ => rfl | ⟨3, _⟩ => rfl

/-- The grid's index of the product at (a, c, f, n, H, W), term k: (n, H, W, k). -/
theorem ridx_v29 (a c : Fin 2) (f : Fin 32) (n : Fin 16384) (H W : Fin 4) (k : Fin 64) :
    ridx_main_v29 (ix6 a c f n H W) k = ix4 n H W k := by
  funext e; match e with | ⟨0, _⟩ => rfl | ⟨1, _⟩ => rfl | ⟨2, _⟩ => rfl | ⟨3, _⟩ => rfl

/-- The transposition reads (n, H, a, W, c, f) at (a, c, f, n, H, W). -/
theorem idx_v30 (n : Fin 16384) (H : Fin 4) (a : Fin 2) (W : Fin 4) (c : Fin 2) (f : Fin 32) :
    idx_main_v30 (ix6 n H a W c f) = ix6 a c f n H W := by
  funext e; match e with | ⟨0, _⟩ => rfl | ⟨1, _⟩ => rfl | ⟨2, _⟩ => rfl | ⟨3, _⟩ => rfl | ⟨4, _⟩ => rfl | ⟨5, _⟩ => rfl

/-- Merging (H, a) into Y = 2·H + a and (W, c) into X = 2·W + c keeps the row-major position, so the merged array at
    (n, Y, X, f) is the six-axis one at (n, Y / 2, Y % 2, X / 2, X % 2, f). -/
theorem v31_apply (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (n : Fin 16384) (Y X : Fin 8) (f : Fin 32) :
    val_main_v31 (F := Ideal) x0 x1 x2 x3 x4 x5 x6 x7 (ix4 n Y X f)
      = val_main_v30 (F := Ideal) x0 x1 x2 x3 x4 x5 x6 x7 (ix6 n (⟨Y.val / 2, by have := Y.isLt; omega⟩ : Fin 4) (⟨Y.val % 2, by omega⟩ : Fin 2) (⟨X.val / 2, by have := X.isLt; omega⟩ : Fin 4) (⟨X.val % 2, by omega⟩ : Fin 2) f) := by
  unfold val_main_v31
  generalize val_main_v30 (F := Ideal) x0 x1 x2 x3 x4 x5 x6 x7 = y
  refine shapeCast_apply y shapeCasts_S16384x4x2x4x2x32_S16384x8x8x32 (ix4 n Y X f) _ ?_
  rewrite [Shape.rowMajor_val_six, Shape.rowMajor_val_four]
  show ((((n.val * 4 + Y.val / 2) * 2 + Y.val % 2) * 4 + X.val / 2) * 2 + X.val % 2) * 32 + f.val
    = ((n.val * 8 + Y.val) * 8 + X.val) * 32 + f.val
  have := Y.isLt; have := X.isLt; omega

/-- The doubled grid before the bias: output cell (Y, X), channel f is the sum over the input channels k of the weight
    at the parities (Y % 2, X % 2) times the input cell (Y / 2, X / 2). -/
theorem v31_sum (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (n : Fin 16384) (Y X : Fin 8) (f : Fin 32) :
    val_main_v31 (F := Ideal) x0 x1 x2 x3 x4 x5 x6 x7 (ix4 n Y X f)
      = ∑ k : Fin 64, x7 (ix4 (⟨Y.val % 2, by omega⟩ : Fin 2) (⟨X.val % 2, by omega⟩ : Fin 2) f k)
          * val_main_v28 (F := Ideal) x0 x1 x2 x3 x4 x5 x6 (ix4 n (⟨Y.val / 2, by have := Y.isLt; omega⟩ : Fin 4) (⟨X.val / 2, by have := X.isLt; omega⟩ : Fin 4) k) := by
  rw [v31_apply, val_main_v30_apply, idx_v30, val_main_v29_apply]
  refine Finset.sum_congr rfl fun k _ => ?_
  rw [lidx_v29, ridx_v29]

/-- The bias, broadcast over pixels and cells, read at channel f. -/
theorem v33_bias (x8 : (⟨S32, .f32⟩ : BufTy).Contents (Elt Ideal)) (n : Fin 16384) (Y X : Fin 8) (f : Fin 32) :
    val_main_v33 (F := Ideal) x8 (ix4 n Y X f) = x8 (ix1 f) := by
  rw [val_main_v33_apply, val_main_v32_apply]
  refine congrArg x8 ?_
  funext e; match e with | ⟨0, _⟩ => rfl

/-- The second doubling with its bias is the specification's pre2 over the first rectified grid. -/
theorem v34_pre2 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 8) (f : Fin 32) :
    val_main_v34 (F := Ideal) x0 x1 x2 x3 x4 x5 x6 x7 x8 (ix4 n Y X f)
      = pre2 (act1 (shapeCast _ x0 casts_in) (shapeCast _ x1 casts_in) (shapeCast _ x2 casts_in) ⟨x3, x4, x5, x6, x7, x8, x9, x10⟩) x7 x8 n Y X f := by
  rw [val_main_v34_apply, v31_sum, v33_bias]
  unfold pre2
  refine congrArg₂ (· + ·) (Finset.sum_congr rfl fun k _ => ?_) rfl
  refine (mul_comm _ _).trans ?_
  rw [v28_act1 x0 x1 x2 x3 x4 x5 x6 x7 x8 x9 x10]

/-- Rectified, the second doubling is the specification's act2. -/
theorem v35_act2 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 8) (f : Fin 32) :
    val_main_v35 (F := Ideal) x0 x1 x2 x3 x4 x5 x6 x7 x8 (ix4 n Y X f) = act2 (shapeCast _ x0 casts_in) (shapeCast _ x1 casts_in) (shapeCast _ x2 casts_in) ⟨x3, x4, x5, x6, x7, x8, x9, x10⟩ n Y X f := by
  rw [val_main_v35_apply, v34_pre2 x0 x1 x2 x3 x4 x5 x6 x7 x8 x9 x10, val_main_call4_v0_apply, val_main_call4_cst_apply]
  rfl

end Cert.Decoder.Ref

end
-- ==== Proof.RefLayer3.lean ====
import proofs.«118323_j87299505258574_2_alg».proof.Proof.RefLayer2

noncomputable section

namespace Cert.Decoder.Ref

open Cert.ReferenceIdeal Cert.ReferenceIdeal.Gen Cert.ReferenceIdeal.Read Idealize.ShloMosaic Idealize.ShloMosaic.ValueIdx Cert.Decoder

/-! ## The third doubling, 8×8×32 → 16×16×3

As the first two: the product of the weight [a, c, f, k] with the rectified grid [n, H, W, k] over k, laid as
[a, c, f, n, H, W], transposed to [n, H, a, W, c, f], the pairs (H, a), (W, c) merged into Y = 2·H + a, X = 2·W + c.
This one is not rectified: it goes through the logistic function. -/

/-- The weight's index of the product at (a, c, f, n, H, W), term k: (a, c, f, k). -/
theorem lidx_v36 (a c : Fin 2) (f : Fin 3) (n : Fin 16384) (H W : Fin 8) (k : Fin 32) :
    lidx_main_v36 (ix6 a c f n H W) k = ix4 a c f k := by
  funext e; match e with | ⟨0, _⟩ => rfl | ⟨1, _⟩ => rfl | ⟨2, _⟩ => rfl | ⟨3, _⟩ => rfl

/-- The grid's index of the product at (a, c, f, n, H, W), term k: (n, H, W, k). -/
theorem ridx_v36 (a c : Fin 2) (f : Fin 3) (n : Fin 16384) (H W : Fin 8) (k : Fin 32) :
    ridx_main_v36 (ix6 a c f n H W) k = ix4 n H W k := by
  funext e; match e with | ⟨0, _⟩ => rfl | ⟨1, _⟩ => rfl | ⟨2, _⟩ => rfl | ⟨3, _⟩ => rfl

/-- The transposition reads (n, H, a, W, c, f) at (a, c, f, n, H, W). -/
theorem idx_v37 (n : Fin 16384) (H : Fin 8) (a : Fin 2) (W : Fin 8) (c : Fin 2) (f : Fin 3) :
    idx_main_v37 (ix6 n H a W c f) = ix6 a c f n H W := by
  funext e; match e with | ⟨0, _⟩ => rfl | ⟨1, _⟩ => rfl | ⟨2, _⟩ => rfl | ⟨3, _⟩ => rfl | ⟨4, _⟩ => rfl | ⟨5, _⟩ => rfl

/-- Merging (H, a) into Y = 2·H + a and (W, c) into X = 2·W + c keeps the row-major position, so the merged array at
    (n, Y, X, f) is the six-axis one at (n, Y / 2, Y % 2, X / 2, X % 2, f). -/
theorem v38_apply (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (n : Fin 16384) (Y X : Fin 16) (f : Fin 3) :
    val_main_v38 (F := Ideal) x0 x1 x2 x3 x4 x5 x6 x7 x8 x9 (ix4 n Y X f)
      = val_main_v37 (F := Ideal) x0 x1 x2 x3 x4 x5 x6 x7 x8 x9 (ix6 n (⟨Y.val / 2, by have := Y.isLt; omega⟩ : Fin 8) (⟨Y.val % 2, by omega⟩ : Fin 2) (⟨X.val / 2, by have := X.isLt; omega⟩ : Fin 8) (⟨X.val % 2, by omega⟩ : Fin 2) f) := by
  unfold val_main_v38
  generalize val_main_v37 (F := Ideal) x0 x1 x2 x3 x4 x5 x6 x7 x8 x9 = y
  refine shapeCast_apply y shapeCasts_S16384x8x2x8x2x3_S16384x16x16x3 (ix4 n Y X f) _ ?_
  rewrite [Shape.rowMajor_val_six, Shape.rowMajor_val_four]
  show ((((n.val * 8 + Y.val / 2) * 2 + Y.val % 2) * 8 + X.val / 2) * 2 + X.val % 2) * 3 + f.val
    = ((n.val * 16 + Y.val) * 16 + X.val) * 3 + f.val
  have := Y.isLt; have := X.isLt; omega

/-- The doubled grid before the bias: output cell (Y, X), channel f is the sum over the input channels k of the weight
    at the parities (Y % 2, X % 2) times the input cell (Y / 2, X / 2). -/
theorem v38_sum (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (n : Fin 16384) (Y X : Fin 16) (f : Fin 3) :
    val_main_v38 (F := Ideal) x0 x1 x2 x3 x4 x5 x6 x7 x8 x9 (ix4 n Y X f)
      = ∑ k : Fin 32, x9 (ix4 (⟨Y.val % 2, by omega⟩ : Fin 2) (⟨X.val % 2, by omega⟩ : Fin 2) f k)
          * val_main_v35 (F := Ideal) x0 x1 x2 x3 x4 x5 x6 x7 x8 (ix4 n (⟨Y.val / 2, by have := Y.isLt; omega⟩ : Fin 8) (⟨X.val / 2, by have := X.isLt; omega⟩ : Fin 8) k) := by
  rw [v38_apply, val_main_v37_apply, idx_v37, val_main_v36_apply]
  refine Finset.sum_congr rfl fun k _ => ?_
  rw [lidx_v36, ridx_v36]

/-- The bias, broadcast over pixels and cells, read at channel f. -/
theorem v40_bias (x10 : (⟨S3, .f32⟩ : BufTy).Contents (Elt Ideal)) (n : Fin 16384) (Y X : Fin 16) (f : Fin 3) :
    val_main_v40 (F := Ideal) x10 (ix4 n Y X f) = x10 (ix1 f) := by
  rw [val_main_v40_apply, val_main_v39_apply]
  refine congrArg x10 ?_
  funext e; match e with | ⟨0, _⟩ => rfl

/-- The third doubling with its bias is the specification's pre3 over the second rectified grid. -/
theorem v41_pre3 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 16) (f : Fin 3) :
    val_main_v41 (F := Ideal) x0 x1 x2 x3 x4 x5 x6 x7 x8 x9 x10 (ix4 n Y X f)
      = pre3 (act2 (shapeCast _ x0 casts_in) (shapeCast _ x1 casts_in) (shapeCast _ x2 casts_in) ⟨x3, x4, x5, x6, x7, x8, x9, x10⟩) x9 x10 n Y X f := by
  rw [val_main_v41_apply, v38_sum, v40_bias]
  unfold pre3
  refine congrArg₂ (· + ·) (Finset.sum_congr rfl fun k _ => ?_) rfl
  refine (mul_comm _ _).trans ?_
  rw [v35_act2 x0 x1 x2 x3 x4 x5 x6 x7 x8 x9 x10]

end Cert.Decoder.Ref

end
-- ==== Proof.RefValue.lean ====
import proofs.«118323_j87299505258574_2_alg».proof.Proof.RefLayer3

noncomputable section

namespace Cert.Decoder.Ref

open Cert.ReferenceIdeal Cert.ReferenceIdeal.Gen Cert.ReferenceIdeal.Read Idealize.ShloMosaic Idealize.ShloMosaic.ValueIdx Cert.Decoder

/-! ## The logistic function and the result

After the third doubling the program computes 1 / (1 + exp (−x)) element by element, with 1 written as the word of the
float one: the logistic function of the extended reals by its definition. The four-axis array of pictures is then
regrouped so that the pixel axis splits back into [16, 32, 32]. -/

/-- The picture of pixel n at (Y, X), channel f. -/
theorem v47_out (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) (n : Fin 16384) (Y X : Fin 16) (f : Fin 3) :
    val_main_v47 (F := Ideal) x0 x1 x2 x3 x4 x5 x6 x7 x8 x9 x10 (ix4 n Y X f) = out (shapeCast _ x0 casts_in) (shapeCast _ x1 casts_in) (shapeCast _ x2 casts_in) ⟨x3, x4, x5, x6, x7, x8, x9, x10⟩ n Y X f := by
  rw [val_main_v47_apply, val_main_v46_apply, val_main_cst_0_apply, val_main_v45_apply, val_main_v44_apply,
    val_main_cst_apply, val_main_v43_apply, val_main_v42_apply, v41_pre3 x0 x1 x2 x3 x4 x5 x6 x7 x8 x9 x10]
  show Ideal.div (Ideal.ofBits .f32 0x3F800000#32) (Ideal.ofBits .f32 0x3F800000#32 + Ideal.exp (-_)) = _
  rw [Ideal.ofBits_one_f32]
  rfl

/-- The four-axis array of pictures. -/
theorem v47_out4 (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) :
    val_main_v47 (F := Ideal) x0 x1 x2 x3 x4 x5 x6 x7 x8 x9 x10 = out4 (shapeCast _ x0 casts_in) (shapeCast _ x1 casts_in) (shapeCast _ x2 casts_in) ⟨x3, x4, x5, x6, x7, x8, x9, x10⟩ := by
  funext i
  obtain ⟨n, Y, X, f, rfl⟩ : ∃ n Y X f, i = ix4 n Y X f := ⟨i 0, i 1, i 2, i 3, eq_ix4 i⟩
  exact v47_out x0 x1 x2 x3 x4 x5 x6 x7 x8 x9 x10 n Y X f

/-- The reference's result is the decoder's. -/
theorem val_eq (x0 x1 x2 : (⟨S16x32x32x512, .f32⟩ : BufTy).Contents (Elt Ideal)) (x3 : (⟨S512x512, .f32⟩ : BufTy).Contents (Elt Ideal)) (x4 : (⟨S512, .f32⟩ : BufTy).Contents (Elt Ideal)) (x5 : (⟨S2x2x64x384, .f32⟩ : BufTy).Contents (Elt Ideal)) (x6 : (⟨S64, .f32⟩ : BufTy).Contents (Elt Ideal)) (x7 : (⟨S2x2x32x64, .f32⟩ : BufTy).Contents (Elt Ideal)) (x8 : (⟨S32, .f32⟩ : BufTy).Contents (Elt Ideal)) (x9 : (⟨S2x2x3x32, .f32⟩ : BufTy).Contents (Elt Ideal)) (x10 : (⟨S3, .f32⟩ : BufTy).Contents (Elt Ideal)) :
    Cert.ReferenceIdeal.Read.val_main_v48 (F := Ideal) x0 x1 x2 x3 x4 x5 x6 x7 x8 x9 x10 = Cert.Decoder.result x0 x1 x2 ⟨x3, x4, x5, x6, x7, x8, x9, x10⟩ := by
  unfold val_main_v48 result
  rw [v47_out4 x0 x1 x2 x3 x4 x5 x6 x7 x8 x9 x10]

end Cert.Decoder.Ref

end
-- ==== Proof.Claims.lean ====
import proofs.«118323_j87299505258574_2_alg».proof.Defs
import proofs.«118323_j87299505258574_2_alg».proof.Proof.Gen.Kernel.Frame
import proofs.«118323_j87299505258574_2_alg».proof.Proof.Gen.KernelIdeal.Frame
import proofs.«118323_j87299505258574_2_alg».proof.Proof.Gen.Pre_finite_inputs
import proofs.«118323_j87299505258574_2_alg».proof.Proof.Gen.ReferenceIdeal.Run
import proofs.«118323_j87299505258574_2_alg».proof.Proof.RefValue
import proofs.«118323_j87299505258574_2_alg».proof.Proof.Spec

noncomputable section

/-! ## The claims

The three programs run and keep their arguments; the idealized kernel is the kernel's own text read on the extended
reals; and the idealized kernel and the idealized reference, started from memories that agree on the eleven arguments,
both end with the decoder's result of those arguments — the first by the kernel's run (taken here as a hypothesis),
the second by the reference's run and the reading of its result as the decoder's. -/

namespace Cert.Decoder.Claims

open Idealize.ShloMosaic Idealize.ShloMosaic.TcCoe Idealize.SL.Sem

/-- The kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- If the idealized kernel ends with the decoder's result of its arguments, then the two idealized programs, started
    from memories that agree on the arguments, end with equal results: the reference's result is the decoder's result of
    its own arguments, which are the kernel's. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
        r.2.mem ((c.tc : Thread Cert.KernelIdeal.nD Cert.KernelIdeal.τ).loc Cert.KernelIdeal.main_v14) = Cert.Decoder.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          ⟨m ((c.tc : Thread Cert.KernelIdeal.nD Cert.KernelIdeal.τ).loc Cert.KernelIdeal.main_arg3),
           m ((c.tc : Thread Cert.KernelIdeal.nD Cert.KernelIdeal.τ).loc Cert.KernelIdeal.main_arg4),
           m ((c.tc : Thread Cert.KernelIdeal.nD Cert.KernelIdeal.τ).loc Cert.KernelIdeal.main_arg5),
           m ((c.tc : Thread Cert.KernelIdeal.nD Cert.KernelIdeal.τ).loc Cert.KernelIdeal.main_arg6),
           m ((c.tc : Thread Cert.KernelIdeal.nD Cert.KernelIdeal.τ).loc Cert.KernelIdeal.main_arg7),
           m ((c.tc : Thread Cert.KernelIdeal.nD Cert.KernelIdeal.τ).loc Cert.KernelIdeal.main_arg8),
           m ((c.tc : Thread Cert.KernelIdeal.nD Cert.KernelIdeal.τ).loc Cert.KernelIdeal.main_arg9),
           m ((c.tc : Thread Cert.KernelIdeal.nD Cert.KernelIdeal.τ).loc Cert.KernelIdeal.main_arg10)⟩
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))) :
    Cert.algebraic_KernelIdeal_ReferenceIdeal := by
  intro m ρ m' ρ' _ hagree
  refine ⟨fun c => Cert.Decoder.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          ⟨m ((c.tc : Thread Cert.KernelIdeal.nD Cert.KernelIdeal.τ).loc Cert.KernelIdeal.main_arg3),
           m ((c.tc : Thread Cert.KernelIdeal.nD Cert.KernelIdeal.τ).loc Cert.KernelIdeal.main_arg4),
           m ((c.tc : Thread Cert.KernelIdeal.nD Cert.KernelIdeal.τ).loc Cert.KernelIdeal.main_arg5),
           m ((c.tc : Thread Cert.KernelIdeal.nD Cert.KernelIdeal.τ).loc Cert.KernelIdeal.main_arg6),
           m ((c.tc : Thread Cert.KernelIdeal.nD Cert.KernelIdeal.τ).loc Cert.KernelIdeal.main_arg7),
           m ((c.tc : Thread Cert.KernelIdeal.nD Cert.KernelIdeal.τ).loc Cert.KernelIdeal.main_arg8),
           m ((c.tc : Thread Cert.KernelIdeal.nD Cert.KernelIdeal.τ).loc Cert.KernelIdeal.main_arg9),
           m ((c.tc : Thread Cert.KernelIdeal.nD Cert.KernelIdeal.τ).loc Cert.KernelIdeal.main_arg10)⟩, hrun m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  refine (Cert.ReferenceIdeal.Read.val_main_v48_eq (F := Ideal)
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
  rw [Cert.Decoder.Ref.val_eq, e0, e1, e2, e3, e4, e5, e6, e7, e8, e9, e10]

end Cert.Decoder.Claims

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.KernelCellDense.lean ====
/-
  The three dense layers of the kernel body, entry by entry.

  Each layer takes a block of 256 rows of 512 numbers, multiplies it by the 512×512 weights starting from the zero
  array, adds the bias vector to every row and takes the maximum with zero. Entry (p, j) of the result is therefore
  max (∑ k, x (p, k) · w (k, j) + b j) 0, and when the block holds rows 256·t … 256·t + 255 of an input it is the
  decoder's `dense` of row 256·t + p. The slices of the first 128 columns read the same entries.
-/
import proofs.«118323_j87299505258574_2_alg».proof.Proof.Gen.KernelIdeal.Skeleton
import proofs.«118323_j87299505258574_2_alg».proof.Proof.Spec
import proofs.«118323_j87299505258574_2_alg».proof.Proof.LibArrays

noncomputable section

namespace Cert.Decoder.KernelCell

open Idealize.ShloMosaic Idealize.ShloMosaic.ValueIdx Cert.KernelIdeal Cert.KernelIdeal.Gen Cert.Decoder

/-- A dense layer at entry (p, j): the row's product with column j of the weights, plus the bias, rectified. -/
theorem pay2_apply (x : Vec Ideal S256x512 .f32) (w : Vec Ideal S512x512 .bf16) (b : Vec Ideal S512 .f32)
    (p : Fin 256) (j : Fin 512) :
    k0_pay2 (F := Ideal) x w b (ix2 p j) = max ((∑ k : Fin 512, x (ix2 p k) * w (ix2 k j)) + b (ix1 j)) z32 := by
  unfold k0_pay2
  rw [maximumf_apply, addf_apply, broadcast_apply, shapeCast_self, shapeCast_self]
  refine congrArg (max · z32) (congrArg₂ (· + ·) ?_ ?_)
  · exact Lib.matmul_rows_apply 256 512 512 _ _ p j
  · exact Lib.bias_rows_apply 256 512 b _ _ p j

/-- The second and third layers are the same function of their operands. -/
theorem pay3_eq : @k0_pay3 Ideal _ = @k0_pay2 Ideal _ := rfl

theorem pay4_eq : @k0_pay4 Ideal _ = @k0_pay2 Ideal _ := rfl

/-- When the block holds rows 256·t … 256·t + 255 of X and the operands are the dense weights and bias, the layer's
    entry (p, j) is the decoder's dense value of row 256·t + p. -/
theorem pay2_dense (t : Fin 64) (X : Arr2 16384 512) (W : Arr2 512 512) (b : Arr1 512)
    (x : Vec Ideal S256x512 .f32) (w : Vec Ideal S512x512 .bf16) (bv : Vec Ideal S512 .f32)
    (hx : ∀ (p : Fin 256) (k : Fin 512), x (ix2 p k) = X (ix2 ⟨256 * t.val + p.val, by have := t.isLt; have := p.isLt; omega⟩ k))
    (hw : ∀ (k j : Fin 512), w (ix2 k j) = W (ix2 k j)) (hb : ∀ j : Fin 512, bv (ix1 j) = b (ix1 j))
    (p : Fin 256) (j : Fin 512) :
    k0_pay2 (F := Ideal) x w bv (ix2 p j)
      = dense X W b ⟨256 * t.val + p.val, by have := t.isLt; have := p.isLt; omega⟩ j := by
  rw [pay2_apply]
  unfold dense
  rw [hb j]
  refine congrArg (max · z32) (congrArg (· + b (ix1 j)) (Finset.sum_congr rfl fun k _ => ?_))
  rw [hx p k, hw k j]

/-- The same for the second layer. -/
theorem pay3_dense (t : Fin 64) (X : Arr2 16384 512) (W : Arr2 512 512) (b : Arr1 512)
    (x : Vec Ideal S256x512 .f32) (w : Vec Ideal S512x512 .bf16) (bv : Vec Ideal S512 .f32)
    (hx : ∀ (p : Fin 256) (k : Fin 512), x (ix2 p k) = X (ix2 ⟨256 * t.val + p.val, by have := t.isLt; have := p.isLt; omega⟩ k))
    (hw : ∀ (k j : Fin 512), w (ix2 k j) = W (ix2 k j)) (hb : ∀ j : Fin 512, bv (ix1 j) = b (ix1 j))
    (p : Fin 256) (j : Fin 512) :
    k0_pay3 (F := Ideal) x w bv (ix2 p j)
      = dense X W b ⟨256 * t.val + p.val, by have := t.isLt; have := p.isLt; omega⟩ j :=
  (congrFun (congrFun (congrFun (congrFun pay3_eq x) w) bv) (ix2 p j)).trans (pay2_dense t X W b x w bv hx hw hb p j)

/-- The same for the third layer. -/
theorem pay4_dense (t : Fin 64) (X : Arr2 16384 512) (W : Arr2 512 512) (b : Arr1 512)
    (x : Vec Ideal S256x512 .f32) (w : Vec Ideal S512x512 .bf16) (bv : Vec Ideal S512 .f32)
    (hx : ∀ (p : Fin 256) (k : Fin 512), x (ix2 p k) = X (ix2 ⟨256 * t.val + p.val, by have := t.isLt; have := p.isLt; omega⟩ k))
    (hw : ∀ (k j : Fin 512), w (ix2 k j) = W (ix2 k j)) (hb : ∀ j : Fin 512, bv (ix1 j) = b (ix1 j))
    (p : Fin 256) (j : Fin 512) :
    k0_pay4 (F := Ideal) x w bv (ix2 p j)
      = dense X W b ⟨256 * t.val + p.val, by have := t.isLt; have := p.isLt; omega⟩ j :=
  (congrFun (congrFun (congrFun (congrFun pay4_eq x) w) bv) (ix2 p j)).trans (pay2_dense t X W b x w bv hx hw hb p j)

/-- The slice of the first 128 columns of the first layer reads the layer's own entries. -/
theorem pay5_apply (x : Vec Ideal S256x512 .f32) (w : Vec Ideal S512x512 .bf16) (bv : Vec Ideal S512 .f32)
    (p : Fin 256) (k : Fin 128) :
    k0_pay5 (F := Ideal) x w bv (ix2 p k) = k0_pay2 (F := Ideal) x w bv (ix2 p ⟨k.val, by have := k.isLt; omega⟩) := by
  unfold k0_pay5
  exact slice2_axis1_apply 0 _ _ p k _ (Nat.zero_add _).symm

/-- The slice of the first 128 columns of the second layer likewise. -/
theorem pay6_apply (x : Vec Ideal S256x512 .f32) (w : Vec Ideal S512x512 .bf16) (bv : Vec Ideal S512 .f32)
    (p : Fin 256) (k : Fin 128) :
    k0_pay6 (F := Ideal) x w bv (ix2 p k) = k0_pay3 (F := Ideal) x w bv (ix2 p ⟨k.val, by have := k.isLt; omega⟩) := by
  unfold k0_pay6
  exact slice2_axis1_apply 0 _ _ p k _ (Nat.zero_add _).symm

end Cert.Decoder.KernelCell

end
-- ==== Proof.KernelCellLayout.lean ====
/-
  Regrouping matrices into a 2×2 grid of cells, entry by entry.

  Three matrices of 128 columns laid side by side give 384 columns: column ch comes from piece ch / 128, at ch % 128.
  Two arrays stacked on a new axis put the first at position 0 of that axis and the second at position 1. Flattening
  [256, 2, 2, 384] to [1024, 384] puts cell (hh, ww) of row p at row 4·p + 2·hh + ww. No program is mentioned here.
-/
import Idealize.ShloMosaic.Lib.Pipeline.Value
import Idealize.ShloMosaic.Lib.ValueIdx
import Idealize.ShloMosaic.Lib.ValueLayout

noncomputable section

namespace Cert.Decoder.KernelCell

open Idealize.ShloMosaic Idealize.ShloMosaic.ValueIdx

variable {α : Type}

/-- Three blocks of 128 columns side by side, read at column ch: the block ch falls in, at ch minus the columns before it. -/
theorem cols3_apply (u v w : (⟨2, ![256, 128]⟩ : Shape).Idx → α)
    (h : Shape.Concatenates [⟨2, ![256, 128]⟩, ⟨2, ![256, 128]⟩, ⟨2, ![256, 128]⟩] ⟨2, ![256, 384]⟩ 1)
    (p : Fin 256) (ch : Fin 384) :
    concatenate ⟨2, ![256, 384]⟩ 1 [⟨⟨2, ![256, 128]⟩, u⟩, ⟨⟨2, ![256, 128]⟩, v⟩, ⟨⟨2, ![256, 128]⟩, w⟩] h (ix2 p ch)
      = if h1 : ch.val < 128 then u (ix2 p ⟨ch.val, h1⟩)
        else if h2 : ch.val < 256 then v (ix2 p ⟨ch.val - 128, by omega⟩)
        else w (ix2 p ⟨ch.val - 256, by have := ch.isLt; omega⟩) := by
  by_cases h1 : ch.val < 128
  · rw [dif_pos h1]
    exact concatenate_apply_piece 1 [⟨⟨2, ![256, 128]⟩, u⟩, ⟨⟨2, ![256, 128]⟩, v⟩, ⟨⟨2, ![256, 128]⟩, w⟩] h (ix2 p ch)
      0 (show 0 < 3 by decide) ⟨2, ![256, 128]⟩ u rfl rfl 0 rfl (ix2 p ⟨ch.val, h1⟩)
      (fun b => match b with | ⟨0, _⟩ => fun _ => rfl | ⟨1, _⟩ => fun hne => absurd rfl hne)
      (by show 0 + ch.val = ch.val; omega)
  · rw [dif_neg h1]
    by_cases h2 : ch.val < 256
    · rw [dif_pos h2]
      exact concatenate_apply_piece 1 [⟨⟨2, ![256, 128]⟩, u⟩, ⟨⟨2, ![256, 128]⟩, v⟩, ⟨⟨2, ![256, 128]⟩, w⟩] h (ix2 p ch)
        1 (show 1 < 3 by decide) ⟨2, ![256, 128]⟩ v rfl rfl 128 rfl (ix2 p ⟨ch.val - 128, by omega⟩)
        (fun b => match b with | ⟨0, _⟩ => fun _ => rfl | ⟨1, _⟩ => fun hne => absurd rfl hne)
        (by show 128 + (ch.val - 128) = ch.val; omega)
    · rw [dif_neg h2]
      exact concatenate_apply_piece 1 [⟨⟨2, ![256, 128]⟩, u⟩, ⟨⟨2, ![256, 128]⟩, v⟩, ⟨⟨2, ![256, 128]⟩, w⟩] h (ix2 p ch)
        2 (show 2 < 3 by decide) ⟨2, ![256, 128]⟩ w rfl rfl 256 rfl (ix2 p ⟨ch.val - 256, by have := ch.isLt; omega⟩)
        (fun b => match b with | ⟨0, _⟩ => fun _ => rfl | ⟨1, _⟩ => fun hne => absurd rfl hne)
        (by show 256 + (ch.val - 256) = ch.val; omega)

/-- Columns o … o + 127 of three matrices of 512 columns, side by side: column ch is column o + ch % 128 of matrix ch / 128. -/
theorem cellcols_apply (a b c : (⟨2, ![256, 512]⟩ : Shape).Idx → α) (o : Nat) (ho : o + 128 ≤ 512)
    (s : (⟨2, ![256, 512]⟩ : Shape).Slices ![0, o] ⟨2, ![256, 128]⟩)
    (h : Shape.Concatenates [⟨2, ![256, 128]⟩, ⟨2, ![256, 128]⟩, ⟨2, ![256, 128]⟩] ⟨2, ![256, 384]⟩ 1)
    (p : Fin 256) (ch : Fin 384) :
    concatenate ⟨2, ![256, 384]⟩ 1 [⟨⟨2, ![256, 128]⟩, extractStridedSlice ⟨2, ![256, 128]⟩ ![0, o] a s⟩,
        ⟨⟨2, ![256, 128]⟩, extractStridedSlice ⟨2, ![256, 128]⟩ ![0, o] b s⟩,
        ⟨⟨2, ![256, 128]⟩, extractStridedSlice ⟨2, ![256, 128]⟩ ![0, o] c s⟩] h (ix2 p ch)
      = if h1 : ch.val < 128 then a (ix2 p ⟨o + ch.val, by omega⟩)
        else if h2 : ch.val < 256 then b (ix2 p ⟨o + (ch.val - 128), by omega⟩)
        else c (ix2 p ⟨o + (ch.val - 256), by have := ch.isLt; omega⟩) := by
  rw [cols3_apply]
  by_cases h1 : ch.val < 128
  · rw [dif_pos h1, dif_pos h1]
    exact slice2_axis1_apply o a s p _ _ rfl
  · rw [dif_neg h1, dif_neg h1]
    by_cases h2 : ch.val < 256
    · rw [dif_pos h2, dif_pos h2]
      exact slice2_axis1_apply o b s p _ _ rfl
    · rw [dif_neg h2, dif_neg h2]
      exact slice2_axis1_apply o c s p _ _ rfl

/-- Two matrices stacked on a new middle axis: position 0 is the first. -/
theorem stack3_zero (A B : (⟨2, ![256, 384]⟩ : Shape).Idx → α)
    (hc : (⟨2, ![256, 384]⟩ : Shape).ShapeCasts ⟨3, ![256, 1, 384]⟩)
    (hk : Shape.Concatenates [⟨3, ![256, 1, 384]⟩, ⟨3, ![256, 1, 384]⟩] ⟨3, ![256, 2, 384]⟩ 1)
    (p : Fin 256) (ch : Fin 384) :
    concatenate ⟨3, ![256, 2, 384]⟩ 1 [⟨⟨3, ![256, 1, 384]⟩, shapeCast ⟨3, ![256, 1, 384]⟩ A hc⟩,
        ⟨⟨3, ![256, 1, 384]⟩, shapeCast ⟨3, ![256, 1, 384]⟩ B hc⟩] hk (ix3 p (⟨0, Nat.zero_lt_two⟩ : Fin 2) ch)
      = A (ix2 p ch) :=
  (concatenate_pair_apply_left 1 _ _ hk _ rfl (ix3 p (⟨0, Nat.one_pos⟩ : Fin 1) ch)
    (fun b => match b with | ⟨0, _⟩ => rfl | ⟨1, _⟩ => rfl | ⟨2, _⟩ => rfl)).trans
  (shapeCast_apply A hc _ _ (by
    rw [Shape.rowMajor_val_two, Shape.rowMajor_val_three]
    show p.val * 384 + ch.val = (p.val * 1 + 0) * 384 + ch.val
    omega))

/-- Two matrices stacked on a new middle axis: position 1 is the second. -/
theorem stack3_one (A B : (⟨2, ![256, 384]⟩ : Shape).Idx → α)
    (hc : (⟨2, ![256, 384]⟩ : Shape).ShapeCasts ⟨3, ![256, 1, 384]⟩)
    (hk : Shape.Concatenates [⟨3, ![256, 1, 384]⟩, ⟨3, ![256, 1, 384]⟩] ⟨3, ![256, 2, 384]⟩ 1)
    (p : Fin 256) (ch : Fin 384) :
    concatenate ⟨3, ![256, 2, 384]⟩ 1 [⟨⟨3, ![256, 1, 384]⟩, shapeCast ⟨3, ![256, 1, 384]⟩ A hc⟩,
        ⟨⟨3, ![256, 1, 384]⟩, shapeCast ⟨3, ![256, 1, 384]⟩ B hc⟩] hk (ix3 p (⟨1, Nat.one_lt_two⟩ : Fin 2) ch)
      = B (ix2 p ch) :=
  (concatenate_pair_apply_right 1 _ _ hk _ rfl rfl (ix3 p (⟨0, Nat.one_pos⟩ : Fin 1) ch)
    (fun b => match b with | ⟨0, _⟩ => fun _ => rfl | ⟨1, _⟩ => fun hne => absurd rfl hne | ⟨2, _⟩ => fun _ => rfl)
    (by show 0 + 1 = 1; rfl)).trans
  (shapeCast_apply B hc _ _ (by
    rw [Shape.rowMajor_val_two, Shape.rowMajor_val_three]
    show p.val * 384 + ch.val = (p.val * 1 + 0) * 384 + ch.val
    omega))

/-- Two rank-3 arrays stacked on a new axis 1: position 0 is the first. -/
theorem stack4_zero (A B : (⟨3, ![256, 2, 384]⟩ : Shape).Idx → α)
    (hc : (⟨3, ![256, 2, 384]⟩ : Shape).ShapeCasts ⟨4, ![256, 1, 2, 384]⟩)
    (hk : Shape.Concatenates [⟨4, ![256, 1, 2, 384]⟩, ⟨4, ![256, 1, 2, 384]⟩] ⟨4, ![256, 2, 2, 384]⟩ 1)
    (p : Fin 256) (ww : Fin 2) (ch : Fin 384) :
    concatenate ⟨4, ![256, 2, 2, 384]⟩ 1 [⟨⟨4, ![256, 1, 2, 384]⟩, shapeCast ⟨4, ![256, 1, 2, 384]⟩ A hc⟩,
        ⟨⟨4, ![256, 1, 2, 384]⟩, shapeCast ⟨4, ![256, 1, 2, 384]⟩ B hc⟩] hk (ix4 p (⟨0, Nat.zero_lt_two⟩ : Fin 2) ww ch)
      = A (ix3 p ww ch) :=
  (concatenate_pair_apply_left 1 _ _ hk _ rfl (ix4 p (⟨0, Nat.one_pos⟩ : Fin 1) ww ch)
    (fun b => match b with | ⟨0, _⟩ => rfl | ⟨1, _⟩ => rfl | ⟨2, _⟩ => rfl | ⟨3, _⟩ => rfl)).trans
  (shapeCast_apply A hc _ _ (by
    rw [Shape.rowMajor_val_three, Shape.rowMajor_val_four]
    show (p.val * 2 + ww.val) * 384 + ch.val = ((p.val * 1 + 0) * 2 + ww.val) * 384 + ch.val
    omega))

/-- Two rank-3 arrays stacked on a new axis 1: position 1 is the second. -/
theorem stack4_one (A B : (⟨3, ![256, 2, 384]⟩ : Shape).Idx → α)
    (hc : (⟨3, ![256, 2, 384]⟩ : Shape).ShapeCasts ⟨4, ![256, 1, 2, 384]⟩)
    (hk : Shape.Concatenates [⟨4, ![256, 1, 2, 384]⟩, ⟨4, ![256, 1, 2, 384]⟩] ⟨4, ![256, 2, 2, 384]⟩ 1)
    (p : Fin 256) (ww : Fin 2) (ch : Fin 384) :
    concatenate ⟨4, ![256, 2, 2, 384]⟩ 1 [⟨⟨4, ![256, 1, 2, 384]⟩, shapeCast ⟨4, ![256, 1, 2, 384]⟩ A hc⟩,
        ⟨⟨4, ![256, 1, 2, 384]⟩, shapeCast ⟨4, ![256, 1, 2, 384]⟩ B hc⟩] hk (ix4 p (⟨1, Nat.one_lt_two⟩ : Fin 2) ww ch)
      = B (ix3 p ww ch) :=
  (concatenate_pair_apply_right 1 _ _ hk _ rfl rfl (ix4 p (⟨0, Nat.one_pos⟩ : Fin 1) ww ch)
    (fun b => match b with
      | ⟨0, _⟩ => fun _ => rfl | ⟨1, _⟩ => fun hne => absurd rfl hne | ⟨2, _⟩ => fun _ => rfl | ⟨3, _⟩ => fun _ => rfl)
    (by show 0 + 1 = 1; rfl)).trans
  (shapeCast_apply B hc _ _ (by
    rw [Shape.rowMajor_val_three, Shape.rowMajor_val_four]
    show (p.val * 2 + ww.val) * 384 + ch.val = ((p.val * 1 + 0) * 2 + ww.val) * 384 + ch.val
    omega))

/-- [256, 2, 2, 384] flattened to [1024, 384]: row 4·p + 2·hh + ww is cell (hh, ww) of row p. -/
theorem flat_apply (V : (⟨4, ![256, 2, 2, 384]⟩ : Shape).Idx → α)
    (hf : (⟨4, ![256, 2, 2, 384]⟩ : Shape).ShapeCasts ⟨2, ![1024, 384]⟩)
    (p : Fin 256) (hh ww : Fin 2) (ch : Fin 384) :
    shapeCast ⟨2, ![1024, 384]⟩ V hf
        (ix2 (⟨p.val * 4 + hh.val * 2 + ww.val, by have := p.isLt; have := hh.isLt; have := ww.isLt; omega⟩ : Fin 1024) ch)
      = V (ix4 p hh ww ch) :=
  shapeCast_apply V hf _ _ (by
    rw [Shape.rowMajor_val_four, Shape.rowMajor_val_two]
    show ((p.val * 2 + hh.val) * 2 + ww.val) * 384 + ch.val = (p.val * 4 + hh.val * 2 + ww.val) * 384 + ch.val
    omega)

end Cert.Decoder.KernelCell

end
-- ==== Proof.KernelCell.lean ====
/-
  The kernel body's regrouped value, entry by entry: the decoder's cells.

  The body lays the three dense layers' results out cell by cell: for cell (hh, ww) the columns (2·hh + ww)·128 …
  (2·hh + ww)·128 + 127 of the three results go side by side into 384 channels, the two cells of a row and then the
  two rows are stacked, and the [256, 2, 2, 384] array is flattened to 1024 rows. So row 4·p + 2·hh + ww, channel ch,
  is entry (p, (2·hh + ww)·128 + ch % 128) of layer ch / 128 — the decoder's `cell` of row p of the block.
-/
import proofs.«118323_j87299505258574_2_alg».proof.Proof.KernelCellDense
import proofs.«118323_j87299505258574_2_alg».proof.Proof.KernelCellLayout

noncomputable section

namespace Cert.Decoder.KernelCell

open Idealize.ShloMosaic Idealize.ShloMosaic.ValueIdx Cert.KernelIdeal Cert.KernelIdeal.Gen Cert.Decoder

/-- The regrouping at row 4·p + 2·hh + ww, channel ch, from the three layers' results. -/
theorem pay7_apply (v11 v23 v35 : FVec Ideal S256x512 .f32) (p : Fin 256) (hh ww : Fin 2) (ch : Fin 384) :
    k0_pay7 (F := Ideal) v11 v23 v35
        (extractStridedSlice S256x128 ![0, 0] v11 Facts₀.slices_S256x512_o0_0_S256x128)
        (extractStridedSlice S256x128 ![0, 0] v23 Facts₀.slices_S256x512_o0_0_S256x128)
        (ix2 (⟨p.val * 4 + hh.val * 2 + ww.val, by have := p.isLt; have := hh.isLt; have := ww.isLt; omega⟩ : Fin 1024) ch)
      = if h1 : ch.val < 128 then
          v11 (ix2 p ⟨(hh.val * 2 + ww.val) * 128 + ch.val, by have := hh.isLt; have := ww.isLt; omega⟩)
        else if h2 : ch.val < 256 then
          v23 (ix2 p ⟨(hh.val * 2 + ww.val) * 128 + (ch.val - 128), by have := hh.isLt; have := ww.isLt; omega⟩)
        else
          v35 (ix2 p ⟨(hh.val * 2 + ww.val) * 128 + (ch.val - 256), by have := hh.isLt; have := ww.isLt; have := ch.isLt; omega⟩) := by
  unfold k0_pay7
  rw [truncf_apply]
  refine (flat_apply _ _ p hh ww ch).trans ?_
  match hh, ww with
  | ⟨0, _⟩, ⟨0, _⟩ =>
    refine (stack4_zero _ _ _ _ p _ ch).trans ((stack3_zero _ _ _ _ p ch).trans ?_)
    exact cellcols_apply v11 v23 v35 0 (by decide) _ _ p ch
  | ⟨0, _⟩, ⟨1, _⟩ =>
    refine (stack4_zero _ _ _ _ p _ ch).trans ((stack3_one _ _ _ _ p ch).trans ?_)
    exact cellcols_apply v11 v23 v35 128 (by decide) _ _ p ch
  | ⟨1, _⟩, ⟨0, _⟩ =>
    refine (stack4_one _ _ _ _ p _ ch).trans ((stack3_zero _ _ _ _ p ch).trans ?_)
    exact cellcols_apply v11 v23 v35 256 (by decide) _ _ p ch
  | ⟨1, _⟩, ⟨1, _⟩ =>
    refine (stack4_one _ _ _ _ p _ ch).trans ((stack3_one _ _ _ _ p ch).trans ?_)
    exact cellcols_apply v11 v23 v35 384 (by decide) _ _ p ch

/-- Block t of the grid holds rows 256·t … 256·t + 255. If the three input blocks are those rows of the three inputs
    and the dense operands are the dense weights and bias, then row 4·p + 2·hh + ww, channel ch, of the regrouped value
    is channel ch of cell (hh, ww) of row 256·t + p. -/
theorem cell_block (t : Fin 64) (X0 X1 X2 : Arr2 16384 512) (W : Arr2 512 512) (b : Arr1 512)
    (x0 x1 x2 : Vec Ideal S256x512 .f32) (x3 : Vec Ideal S512x512 .bf16) (x4 : Vec Ideal S512 .f32)
    (h0 : ∀ (p : Fin 256) (k : Fin 512), x0 (ix2 p k) = X0 (ix2 ⟨256 * t.val + p.val, by have := t.isLt; have := p.isLt; omega⟩ k))
    (h1 : ∀ (p : Fin 256) (k : Fin 512), x1 (ix2 p k) = X1 (ix2 ⟨256 * t.val + p.val, by have := t.isLt; have := p.isLt; omega⟩ k))
    (h2 : ∀ (p : Fin 256) (k : Fin 512), x2 (ix2 p k) = X2 (ix2 ⟨256 * t.val + p.val, by have := t.isLt; have := p.isLt; omega⟩ k))
    (h3 : ∀ (k j : Fin 512), x3 (ix2 k j) = W (ix2 k j)) (h4 : ∀ j : Fin 512, x4 (ix1 j) = b (ix1 j))
    (p : Fin 256) (hh ww : Fin 2) (ch : Fin 384) :
    k0_pay7 (F := Ideal) (k0_pay2 x0 x3 x4) (k0_pay3 x1 x3 x4) (k0_pay4 x2 x3 x4) (k0_pay5 x0 x3 x4) (k0_pay6 x1 x3 x4)
        (ix2 ⟨p.val * 4 + hh.val * 2 + ww.val, by have := p.isLt; have := hh.isLt; have := ww.isLt; omega⟩ ch)
      = cell X0 X1 X2 W b ⟨256 * t.val + p.val, by have := t.isLt; have := p.isLt; omega⟩ hh ww ch := by
  refine (pay7_apply (k0_pay2 x0 x3 x4) (k0_pay3 x1 x3 x4) (k0_pay4 x2 x3 x4) p hh ww ch).trans ?_
  unfold cell
  by_cases c1 : ch.val < 128
  · rw [dif_pos c1, dif_pos c1]
    exact pay2_dense t X0 W b x0 x3 x4 h0 h3 h4 p _
  · rw [dif_neg c1, dif_neg c1]
    by_cases c2 : ch.val < 256
    · rw [dif_pos c2, dif_pos c2]
      exact pay3_dense t X1 W b x1 x3 x4 h1 h3 h4 p _
    · rw [dif_neg c2, dif_neg c2]
      exact pay4_dense t X2 W b x2 x3 x4 h2 h3 h4 p _

end Cert.Decoder.KernelCell

end
-- ==== Proof.Layout1.lean ====
/-
  Doubling step 1 of the decoder, as array layouts: a block of 256 pixels, each a 2×2 grid of 384 channels, goes to
  4×4 grids of 64 channels.

  The rows of the flat [1024, ·] arrays are (pixel, grid row, grid column) in row-major order. Four products, one per pair
  of parities (a, c), give four [256, 2, 2, 64] arrays; stacking the two of one c on a new axis after the grid row, then
  the two stacks on a new axis after the grid column, and merging (row, a) and (column, c), interleaves them: output
  cell (Y, X) is cell (Y / 2, X / 2) of the array of parities (Y % 2, X % 2).
-/
import proofs.«118323_j87299505258574_2_alg».proof.Proof.LibArrays

noncomputable section

namespace Cert.Decoder.Layout1

open Idealize.ShloMosaic Idealize.ShloMosaic.ValueIdx Cert.Decoder.Lib

variable {α : Type}

/-- The flat rows regrouped by pixel and grid cell. -/
theorem unflat_apply (v : (⟨2, ![1024, 64]⟩ : Shape).Idx → α) (h : (⟨2, ![1024, 64]⟩ : Shape).ShapeCasts ⟨4, ![256, 2, 2, 64]⟩)
    (p : Fin 256) (H W : Fin 2) (f : Fin 64) :
    shapeCast ⟨4, ![256, 2, 2, 64]⟩ v h (ix4 p H W f)
      = v (ix2 ⟨p.val * 4 + H.val * 2 + W.val, by have := p.isLt; have := H.isLt; have := W.isLt; omega⟩ f) :=
  shapeCast_apply v h _ _ (by
    rw [Shape.rowMajor_val_two, Shape.rowMajor_val_four]
    show (p.val * 4 + H.val * 2 + W.val) * 64 + f.val = ((p.val * 2 + H.val) * 2 + W.val) * 64 + f.val
    omega)

/-- Two arrays stacked on a new axis after the grid row: the new coordinate chooses. -/
theorem stack_rows_apply (u v : (⟨4, ![256, 2, 2, 64]⟩ : Shape).Idx → α)
    (h1 h2 : (⟨4, ![256, 2, 2, 64]⟩ : Shape).ShapeCasts ⟨5, ![256, 2, 1, 2, 64]⟩)
    (hc : Shape.Concatenates [(⟨5, ![256, 2, 1, 2, 64]⟩ : Shape), ⟨5, ![256, 2, 1, 2, 64]⟩] ⟨5, ![256, 2, 2, 2, 64]⟩ 2)
    (p : Fin 256) (H : Fin 2) (a : Fin 2) (W : Fin 2) (f : Fin 64) :
    concatenate ⟨5, ![256, 2, 2, 2, 64]⟩ 2 [⟨⟨5, ![256, 2, 1, 2, 64]⟩, shapeCast ⟨5, ![256, 2, 1, 2, 64]⟩ u h1⟩,
        ⟨⟨5, ![256, 2, 1, 2, 64]⟩, shapeCast ⟨5, ![256, 2, 1, 2, 64]⟩ v h2⟩] hc (ix5 p H a W f)
      = if a.val = 0 then u (ix4 p H W f) else v (ix4 p H W f) := by
  have hpos : ∀ (x : (⟨4, ![256, 2, 2, 64]⟩ : Shape).Idx → α) (h : (⟨4, ![256, 2, 2, 64]⟩ : Shape).ShapeCasts ⟨5, ![256, 2, 1, 2, 64]⟩),
      shapeCast ⟨5, ![256, 2, 1, 2, 64]⟩ x h (ix5 p H (0 : Fin 1) W f) = x (ix4 p H W f) := fun x h =>
    shapeCast_apply x h _ _ (by
      rw [Shape.rowMajor_val_four, Shape.rowMajor_val_five]
      show ((p.val * 2 + H.val) * 2 + W.val) * 64 + f.val = (((p.val * 2 + H.val) * 1 + 0) * 2 + W.val) * 64 + f.val
      omega)
  by_cases ha : a.val = 0
  · rw [if_pos ha]
    refine (concatenate_pair_apply_left 2 _ _ hc (ix5 p H a W f) rfl (ix5 p H (0 : Fin 1) W f) (fun b => ?_)).trans (hpos u h1)
    match b with
    | ⟨0, _⟩ => rfl
    | ⟨1, _⟩ => rfl
    | ⟨2, _⟩ => show 0 = a.val; omega
    | ⟨3, _⟩ => rfl
    | ⟨4, _⟩ => rfl
  · rw [if_neg ha]
    refine (concatenate_pair_apply_right 2 _ _ hc (ix5 p H a W f) rfl rfl (ix5 p H (0 : Fin 1) W f) (fun b hb => ?_) ?_).trans (hpos v h2)
    · match b with
      | ⟨0, _⟩ => rfl
      | ⟨1, _⟩ => rfl
      | ⟨2, _⟩ => exact absurd rfl hb
      | ⟨3, _⟩ => rfl
      | ⟨4, _⟩ => rfl
    · show 0 + 1 = a.val
      have := a.isLt; omega

/-- Two arrays stacked on a new axis after the grid column: the new coordinate chooses. -/
theorem stack_cols_apply (u v : (⟨5, ![256, 2, 2, 2, 64]⟩ : Shape).Idx → α)
    (h1 h2 : (⟨5, ![256, 2, 2, 2, 64]⟩ : Shape).ShapeCasts ⟨6, ![256, 2, 2, 2, 1, 64]⟩)
    (hc : Shape.Concatenates [(⟨6, ![256, 2, 2, 2, 1, 64]⟩ : Shape), ⟨6, ![256, 2, 2, 2, 1, 64]⟩] ⟨6, ![256, 2, 2, 2, 2, 64]⟩ 4)
    (p : Fin 256) (H : Fin 2) (a : Fin 2) (W : Fin 2) (c : Fin 2) (f : Fin 64) :
    concatenate ⟨6, ![256, 2, 2, 2, 2, 64]⟩ 4 [⟨⟨6, ![256, 2, 2, 2, 1, 64]⟩, shapeCast ⟨6, ![256, 2, 2, 2, 1, 64]⟩ u h1⟩,
        ⟨⟨6, ![256, 2, 2, 2, 1, 64]⟩, shapeCast ⟨6, ![256, 2, 2, 2, 1, 64]⟩ v h2⟩] hc (ix6 p H a W c f)
      = if c.val = 0 then u (ix5 p H a W f) else v (ix5 p H a W f) := by
  have hpos : ∀ (x : (⟨5, ![256, 2, 2, 2, 64]⟩ : Shape).Idx → α) (h : (⟨5, ![256, 2, 2, 2, 64]⟩ : Shape).ShapeCasts ⟨6, ![256, 2, 2, 2, 1, 64]⟩),
      shapeCast ⟨6, ![256, 2, 2, 2, 1, 64]⟩ x h (ix6 p H a W (0 : Fin 1) f) = x (ix5 p H a W f) := fun x h =>
    shapeCast_apply x h _ _ (by
      rw [Shape.rowMajor_val_five, Shape.rowMajor_val_six]
      show (((p.val * 2 + H.val) * 2 + a.val) * 2 + W.val) * 64 + f.val
        = ((((p.val * 2 + H.val) * 2 + a.val) * 2 + W.val) * 1 + 0) * 64 + f.val
      omega)
  by_cases hc0 : c.val = 0
  · rw [if_pos hc0]
    refine (concatenate_pair_apply_left 4 _ _ hc (ix6 p H a W c f) rfl (ix6 p H a W (0 : Fin 1) f) (fun b => ?_)).trans (hpos u h1)
    match b with
    | ⟨0, _⟩ => rfl
    | ⟨1, _⟩ => rfl
    | ⟨2, _⟩ => rfl
    | ⟨3, _⟩ => rfl
    | ⟨4, _⟩ => show 0 = c.val; omega
    | ⟨5, _⟩ => rfl
  · rw [if_neg hc0]
    refine (concatenate_pair_apply_right 4 _ _ hc (ix6 p H a W c f) rfl rfl (ix6 p H a W (0 : Fin 1) f) (fun b hb => ?_) ?_).trans (hpos v h2)
    · match b with
      | ⟨0, _⟩ => rfl
      | ⟨1, _⟩ => rfl
      | ⟨2, _⟩ => rfl
      | ⟨3, _⟩ => rfl
      | ⟨4, _⟩ => exact absurd rfl hb
      | ⟨5, _⟩ => rfl
    · show 0 + 1 = c.val
      have := c.isLt; omega

/-- Merging (grid row, a) and (grid column, c): cell (Y, X) of the merged grid. -/
theorem merge_apply (z : (⟨6, ![256, 2, 2, 2, 2, 64]⟩ : Shape).Idx → α)
    (h : (⟨6, ![256, 2, 2, 2, 2, 64]⟩ : Shape).ShapeCasts ⟨4, ![256, 4, 4, 64]⟩)
    (p : Fin 256) (Y X : Fin 4) (f : Fin 64) :
    shapeCast ⟨4, ![256, 4, 4, 64]⟩ z h (ix4 p Y X f)
      = z (ix6 p ⟨Y.val / 2, by have := Y.isLt; omega⟩ ⟨Y.val % 2, by omega⟩ ⟨X.val / 2, by have := X.isLt; omega⟩ ⟨X.val % 2, by omega⟩ f) :=
  shapeCast_apply z h _ _ (by
    rw [Shape.rowMajor_val_six, Shape.rowMajor_val_four]
    show ((((p.val * 2 + Y.val / 2) * 2 + Y.val % 2) * 2 + X.val / 2) * 2 + X.val % 2) * 64 + f.val
      = ((p.val * 4 + Y.val) * 4 + X.val) * 64 + f.val
    omega)

/-- The four arrays interleaved. -/
theorem interleave_apply (y00 y01 y10 y11 : (⟨4, ![256, 2, 2, 64]⟩ : Shape).Idx → α)
    (h1 h2 h3 h4 : (⟨4, ![256, 2, 2, 64]⟩ : Shape).ShapeCasts ⟨5, ![256, 2, 1, 2, 64]⟩)
    (hr hr' : Shape.Concatenates [(⟨5, ![256, 2, 1, 2, 64]⟩ : Shape), ⟨5, ![256, 2, 1, 2, 64]⟩] ⟨5, ![256, 2, 2, 2, 64]⟩ 2)
    (h5 h6 : (⟨5, ![256, 2, 2, 2, 64]⟩ : Shape).ShapeCasts ⟨6, ![256, 2, 2, 2, 1, 64]⟩)
    (hcc : Shape.Concatenates [(⟨6, ![256, 2, 2, 2, 1, 64]⟩ : Shape), ⟨6, ![256, 2, 2, 2, 1, 64]⟩] ⟨6, ![256, 2, 2, 2, 2, 64]⟩ 4)
    (hm : (⟨6, ![256, 2, 2, 2, 2, 64]⟩ : Shape).ShapeCasts ⟨4, ![256, 4, 4, 64]⟩)
    (p : Fin 256) (Y X : Fin 4) (f : Fin 64) :
    shapeCast ⟨4, ![256, 4, 4, 64]⟩
        (concatenate ⟨6, ![256, 2, 2, 2, 2, 64]⟩ 4
          [⟨⟨6, ![256, 2, 2, 2, 1, 64]⟩, shapeCast ⟨6, ![256, 2, 2, 2, 1, 64]⟩
              (concatenate ⟨5, ![256, 2, 2, 2, 64]⟩ 2 [⟨⟨5, ![256, 2, 1, 2, 64]⟩, shapeCast ⟨5, ![256, 2, 1, 2, 64]⟩ y00 h1⟩,
                ⟨⟨5, ![256, 2, 1, 2, 64]⟩, shapeCast ⟨5, ![256, 2, 1, 2, 64]⟩ y10 h2⟩] hr) h5⟩,
           ⟨⟨6, ![256, 2, 2, 2, 1, 64]⟩, shapeCast ⟨6, ![256, 2, 2, 2, 1, 64]⟩
              (concatenate ⟨5, ![256, 2, 2, 2, 64]⟩ 2 [⟨⟨5, ![256, 2, 1, 2, 64]⟩, shapeCast ⟨5, ![256, 2, 1, 2, 64]⟩ y01 h3⟩,
                ⟨⟨5, ![256, 2, 1, 2, 64]⟩, shapeCast ⟨5, ![256, 2, 1, 2, 64]⟩ y11 h4⟩] hr') h6⟩] hcc) hm (ix4 p Y X f)
      = if X.val % 2 = 0 then
          (if Y.val % 2 = 0 then y00 (ix4 p ⟨Y.val / 2, by have := Y.isLt; omega⟩ ⟨X.val / 2, by have := X.isLt; omega⟩ f)
           else y10 (ix4 p ⟨Y.val / 2, by have := Y.isLt; omega⟩ ⟨X.val / 2, by have := X.isLt; omega⟩ f))
        else
          (if Y.val % 2 = 0 then y01 (ix4 p ⟨Y.val / 2, by have := Y.isLt; omega⟩ ⟨X.val / 2, by have := X.isLt; omega⟩ f)
           else y11 (ix4 p ⟨Y.val / 2, by have := Y.isLt; omega⟩ ⟨X.val / 2, by have := X.isLt; omega⟩ f)) := by
  rw [merge_apply, stack_cols_apply]
  by_cases hx : X.val % 2 = 0
  · rw [if_pos hx, if_pos hx, stack_rows_apply]
  · rw [if_neg hx, if_neg hx, stack_rows_apply]

/-- The merged grids flattened back to rows (pixel, grid row, grid column). -/
theorem reflat_apply (y : (⟨4, ![256, 4, 4, 64]⟩ : Shape).Idx → α) (h : (⟨4, ![256, 4, 4, 64]⟩ : Shape).ShapeCasts ⟨2, ![4096, 64]⟩)
    (p : Fin 256) (Y X : Fin 4) (f : Fin 64) :
    shapeCast ⟨2, ![4096, 64]⟩ y h
        (ix2 ⟨p.val * 16 + Y.val * 4 + X.val, by have := p.isLt; have := Y.isLt; have := X.isLt; omega⟩ f)
      = y (ix4 p Y X f) :=
  shapeCast_apply y h _ _ (by
    rw [Shape.rowMajor_val_two, Shape.rowMajor_val_four]
    show ((p.val * 4 + Y.val) * 4 + X.val) * 64 + f.val = (p.val * 16 + Y.val * 4 + X.val) * 64 + f.val
    omega)

/-- The block's rows times a slot of the stage's matrices, from the zero accumulator: entry (r, f). -/
theorem mm_apply {φ₁ φ₂ : FTy} (xf : FVec Ideal ⟨2, ![1024, 384]⟩ φ₁) (slot : FVec Ideal ⟨3, ![1, 384, 64]⟩ φ₂)
    (hs : (⟨3, ![1, 384, 64]⟩ : Shape).ShapeCasts ⟨2, ![384, 64]⟩) (r : Fin 1024) (f : Fin 64) :
    (matmul (DotDims.plain 1024 384 64) none xf (shapeCast ⟨2, ![384, 64]⟩ slot hs) (constant ⟨2, ![1024, 64]⟩ .f32 0x00000000#32)
        : FVec Ideal ⟨2, ![1024, 64]⟩ .f32) (ix2 r f)
      = ∑ k : Fin 384, xf (ix2 r k) * slot (ix3 (0 : Fin 1) k f) := by
  rw [matmul_rows_apply]
  exact Finset.sum_congr rfl fun k _ => by rw [slot_apply]

/-- The same plus the bias added to every row. -/
theorem rows_apply {φ₁ φ₂ : FTy} (xf : FVec Ideal ⟨2, ![1024, 384]⟩ φ₁) (slot : FVec Ideal ⟨3, ![1, 384, 64]⟩ φ₂)
    (b : FVec Ideal ⟨1, ![64]⟩ .f32)
    (hs : (⟨3, ![1, 384, 64]⟩ : Shape).ShapeCasts ⟨2, ![384, 64]⟩) (hb1 : (⟨1, ![64]⟩ : Shape).ShapeCasts ⟨2, ![1, 64]⟩)
    (hb2 : (⟨2, ![1, 64]⟩ : Shape).Broadcasts ⟨2, ![1024, 64]⟩) (r : Fin 1024) (f : Fin 64) :
    (addf (matmul (DotDims.plain 1024 384 64) none xf (shapeCast ⟨2, ![384, 64]⟩ slot hs) (constant ⟨2, ![1024, 64]⟩ .f32 0x00000000#32))
          (broadcastTo ⟨2, ![1024, 64]⟩ (shapeCast ⟨2, ![1, 64]⟩ b hb1) hb2) : FVec Ideal ⟨2, ![1024, 64]⟩ .f32) (ix2 r f)
      = (∑ k : Fin 384, xf (ix2 r k) * slot (ix3 (0 : Fin 1) k f)) + b (ix1 f) := by
  rw [addf_apply, mm_apply, bias_rows_apply]

/-- One of the four products regrouped by pixel and grid cell. -/
theorem product_apply {φ₁ φ₂ : FTy} (xf : FVec Ideal ⟨2, ![1024, 384]⟩ φ₁) (slot : FVec Ideal ⟨3, ![1, 384, 64]⟩ φ₂)
    (b : FVec Ideal ⟨1, ![64]⟩ .f32)
    (hs : (⟨3, ![1, 384, 64]⟩ : Shape).ShapeCasts ⟨2, ![384, 64]⟩) (hb1 : (⟨1, ![64]⟩ : Shape).ShapeCasts ⟨2, ![1, 64]⟩)
    (hb2 : (⟨2, ![1, 64]⟩ : Shape).Broadcasts ⟨2, ![1024, 64]⟩) (hu : (⟨2, ![1024, 64]⟩ : Shape).ShapeCasts ⟨4, ![256, 2, 2, 64]⟩)
    (p : Fin 256) (H W : Fin 2) (f : Fin 64) :
    shapeCast ⟨4, ![256, 2, 2, 64]⟩
        (addf (matmul (DotDims.plain 1024 384 64) none xf (shapeCast ⟨2, ![384, 64]⟩ slot hs) (constant ⟨2, ![1024, 64]⟩ .f32 0x00000000#32))
          (broadcastTo ⟨2, ![1024, 64]⟩ (shapeCast ⟨2, ![1, 64]⟩ b hb1) hb2) : FVec Ideal ⟨2, ![1024, 64]⟩ .f32) hu (ix4 p H W f)
      = (∑ k : Fin 384, xf (ix2 ⟨p.val * 4 + H.val * 2 + W.val, by have := p.isLt; have := H.isLt; have := W.isLt; omega⟩ k)
            * slot (ix3 (0 : Fin 1) k f)) + b (ix1 f) := by
  rw [unflat_apply, rows_apply]

end Cert.Decoder.Layout1

end
-- ==== Proof.Stage1.lean ====
/-
  Doubling step 1 inside the kernel body: from the block's 2×2 cells of 384 channels to its rectified 4×4 cells of 64.

  The body multiplies the block's 1024 rows (pixel, cell row, cell column) by each of the four 384×64 matrices and adds the
  bias: four arrays, one per pair of parities. Interleaved and rectified they are the block's 4×4 grids, flattened again
  to 4096 rows for the next step. Slot 2·a + c of the stacked matrices is the weight array at parities (a, c).
-/
import proofs.«118323_j87299505258574_2_alg».proof.Proof.Gen.KernelIdeal.Skeleton
import proofs.«118323_j87299505258574_2_alg».proof.Proof.Spec
import proofs.«118323_j87299505258574_2_alg».proof.Proof.Layout1

noncomputable section

namespace Cert.Decoder.Stage1

open Idealize.ShloMosaic Idealize.ShloMosaic.ValueIdx Cert.KernelIdeal Cert.KernelIdeal.Gen Cert.Decoder

/-- Pixel p of block t. -/
abbrev pix (t : Fin 64) (p : Fin 256) : Fin 16384 := ⟨256 * t.val + p.val, by have := t.isLt; have := p.isLt; omega⟩

/-- Four arrays holding the four parities' products, read at the cell and parities of (Y, X), are the step's value. -/
theorem interleaved_eq (t : Fin 64) (A : Fin 16384 → Fin 2 → Fin 2 → Fin 384 → EReal) (w : Arr4 2 2 64 384) (b : Arr1 64)
    (y00 y01 y10 y11 : (⟨4, ![256, 2, 2, 64]⟩ : Shape).Idx → EReal)
    (h00 : ∀ (p : Fin 256) (H W : Fin 2) (f : Fin 64), y00 (ix4 p H W f) = (∑ k : Fin 384, A (pix t p) H W k * w (ix4 0 0 f k)) + b (ix1 f))
    (h01 : ∀ (p : Fin 256) (H W : Fin 2) (f : Fin 64), y01 (ix4 p H W f) = (∑ k : Fin 384, A (pix t p) H W k * w (ix4 0 1 f k)) + b (ix1 f))
    (h10 : ∀ (p : Fin 256) (H W : Fin 2) (f : Fin 64), y10 (ix4 p H W f) = (∑ k : Fin 384, A (pix t p) H W k * w (ix4 1 0 f k)) + b (ix1 f))
    (h11 : ∀ (p : Fin 256) (H W : Fin 2) (f : Fin 64), y11 (ix4 p H W f) = (∑ k : Fin 384, A (pix t p) H W k * w (ix4 1 1 f k)) + b (ix1 f))
    (p : Fin 256) (Y X : Fin 4) (f : Fin 64) :
    (if X.val % 2 = 0 then
        (if Y.val % 2 = 0 then y00 (ix4 p ⟨Y.val / 2, by have := Y.isLt; omega⟩ ⟨X.val / 2, by have := X.isLt; omega⟩ f)
         else y10 (ix4 p ⟨Y.val / 2, by have := Y.isLt; omega⟩ ⟨X.val / 2, by have := X.isLt; omega⟩ f))
      else
        (if Y.val % 2 = 0 then y01 (ix4 p ⟨Y.val / 2, by have := Y.isLt; omega⟩ ⟨X.val / 2, by have := X.isLt; omega⟩ f)
         else y11 (ix4 p ⟨Y.val / 2, by have := Y.isLt; omega⟩ ⟨X.val / 2, by have := X.isLt; omega⟩ f)))
      = pre1 A w b (pix t p) Y X f := by
  have key : ∀ (a c : Fin 2), a.val = Y.val % 2 → c.val = X.val % 2 →
      (∑ k : Fin 384, A (pix t p) ⟨Y.val / 2, by have := Y.isLt; omega⟩ ⟨X.val / 2, by have := X.isLt; omega⟩ k * w (ix4 a c f k)) + b (ix1 f)
        = pre1 A w b (pix t p) Y X f := by
    intro a c ha hc
    have ea : a = ⟨Y.val % 2, Nat.mod_lt _ (by decide)⟩ := Fin.ext ha
    have ec : c = ⟨X.val % 2, Nat.mod_lt _ (by decide)⟩ := Fin.ext hc
    subst ea; subst ec
    rfl
  by_cases hx : X.val % 2 = 0
  · by_cases hy : Y.val % 2 = 0
    · rw [if_pos hx, if_pos hy, h00]; exact key 0 0 (by show 0 = _; omega) (by show 0 = _; omega)
    · rw [if_pos hx, if_neg hy, h10]; exact key 1 0 (by show 1 = _; omega) (by show 0 = _; omega)
  · by_cases hy : Y.val % 2 = 0
    · rw [if_neg hx, if_pos hy, h01]; exact key 0 1 (by show 0 = _; omega) (by show 1 = _; omega)
    · rw [if_neg hx, if_neg hy, h11]; exact key 1 1 (by show 1 = _; omega) (by show 1 = _; omega)

/-- One product of the step, as the body computes the first three: rows of the cells times a slot, plus the bias. -/
theorem pay8_apply (v11 v23 v35 : FVec Ideal S256x512 .f32) (v36 v37 : FVec Ideal S256x128 .f32) (v63 : Vec Ideal S64 .f32)
    (v64 : Vec Ideal S1x384x64 .bf16) (p : Fin 256) (H W : Fin 2) (f : Fin 64) :
    k0_pay8 (F := Ideal) v11 v23 v35 v36 v37 v63 v64 (ix4 p H W f)
      = (∑ k : Fin 384, k0_pay7 (F := Ideal) v11 v23 v35 v36 v37
            (ix2 ⟨p.val * 4 + H.val * 2 + W.val, by have := p.isLt; have := H.isLt; have := W.isLt; omega⟩ k) * v64 (ix3 (0 : Fin 1) k f))
          + v63 (ix1 f) := by
  unfold k0_pay8
  exact Layout1.product_apply _ v64 v63 _ _ _ _ p H W f

/-- The second and third products have the first one's text. -/
theorem pay9_eq : @k0_pay9 Ideal _ = @k0_pay8 Ideal _ := rfl
theorem pay10_eq : @k0_pay10 Ideal _ = @k0_pay8 Ideal _ := rfl

/-- The step's result in the body: the fourth product, the interleaving, the rectifier, the rows of the next step. -/
theorem pay11_apply (t : Fin 64) (A : Fin 16384 → Fin 2 → Fin 2 → Fin 384 → EReal) (w : Arr4 2 2 64 384) (b : Arr1 64)
    (v62 : FVec Ideal S1024x384 .bf16) (v63 : Vec Ideal S64 .f32) (v70 v77 v84 : FVec Ideal S256x2x2x64 .f32)
    (v85 : Vec Ideal S1x384x64 .bf16)
    (hx : ∀ (p : Fin 256) (H W : Fin 2) (k : Fin 384),
      v62 (ix2 ⟨p.val * 4 + H.val * 2 + W.val, by have := p.isLt; have := H.isLt; have := W.isLt; omega⟩ k) = A (pix t p) H W k)
    (h63 : ∀ f : Fin 64, v63 (ix1 f) = b (ix1 f))
    (h70 : ∀ (p : Fin 256) (H W : Fin 2) (f : Fin 64), v70 (ix4 p H W f) = (∑ k : Fin 384, A (pix t p) H W k * w (ix4 0 0 f k)) + b (ix1 f))
    (h77 : ∀ (p : Fin 256) (H W : Fin 2) (f : Fin 64), v77 (ix4 p H W f) = (∑ k : Fin 384, A (pix t p) H W k * w (ix4 0 1 f k)) + b (ix1 f))
    (h84 : ∀ (p : Fin 256) (H W : Fin 2) (f : Fin 64), v84 (ix4 p H W f) = (∑ k : Fin 384, A (pix t p) H W k * w (ix4 1 0 f k)) + b (ix1 f))
    (h85 : ∀ (k : Fin 384) (f : Fin 64), v85 (ix3 (0 : Fin 1) k f) = w (ix4 1 1 f k))
    (p : Fin 256) (Y X : Fin 4) (f : Fin 64) :
    k0_pay11 (F := Ideal) v62 v63 v70 v77 v84 v85
        (ix2 ⟨p.val * 16 + Y.val * 4 + X.val, by have := p.isLt; have := Y.isLt; have := X.isLt; omega⟩ f)
      = max (pre1 A w b (pix t p) Y X f) z32 := by
  unfold k0_pay11
  refine (truncf_apply (φ := .f32) (ψ := .bf16) _ bitsLt_bf16_f32 _).trans ?_
  refine (Layout1.reflat_apply _ _ p Y X f).trans ?_
  refine (maximumf_apply _ _ _).trans ?_
  refine congrArg (fun s => max s z32) ?_
  refine (Layout1.interleave_apply v70 _ v84 _ _ _ _ _ _ _ _ _ _ _ p Y X f).trans ?_
  refine interleaved_eq t A w b v70 v77 v84 _ h70 h77 h84 (fun p H W f => ?_) p Y X f
  refine (Layout1.product_apply v62 v85 v63 _ _ _ _ p H W f).trans ?_
  rw [h63]
  exact congrArg (· + b (ix1 f)) (Finset.sum_congr rfl fun k _ => by rw [hx, h85])

end Cert.Decoder.Stage1

end
-- ==== Proof.Layout2.lean ====
/-
  Doubling step 2 of the decoder, as array layouts: a block of 256 pixels, each a 4×4 grid of 64 channels, goes to
  8×8 grids of 32 channels.

  The rows of the flat [4096, ·] arrays are (pixel, grid row, grid column) in row-major order. Four products, one per pair
  of parities (a, c), give four [256, 4, 4, 32] arrays; stacking the two of one c on a new axis after the grid row, then
  the two stacks on a new axis after the grid column, and merging (row, a) and (column, c), interleaves them: output
  cell (Y, X) is cell (Y / 2, X / 2) of the array of parities (Y % 2, X % 2).
-/
import proofs.«118323_j87299505258574_2_alg».proof.Proof.LibArrays

noncomputable section

namespace Cert.Decoder.Layout2

open Idealize.ShloMosaic Idealize.ShloMosaic.ValueIdx Cert.Decoder.Lib

variable {α : Type}

/-- The flat rows regrouped by pixel and grid cell. -/
theorem unflat_apply (v : (⟨2, ![4096, 32]⟩ : Shape).Idx → α) (h : (⟨2, ![4096, 32]⟩ : Shape).ShapeCasts ⟨4, ![256, 4, 4, 32]⟩)
    (p : Fin 256) (H W : Fin 4) (f : Fin 32) :
    shapeCast ⟨4, ![256, 4, 4, 32]⟩ v h (ix4 p H W f)
      = v (ix2 ⟨p.val * 16 + H.val * 4 + W.val, by have := p.isLt; have := H.isLt; have := W.isLt; omega⟩ f) :=
  shapeCast_apply v h _ _ (by
    rw [Shape.rowMajor_val_two, Shape.rowMajor_val_four]
    show (p.val * 16 + H.val * 4 + W.val) * 32 + f.val = ((p.val * 4 + H.val) * 4 + W.val) * 32 + f.val
    omega)

/-- Two arrays stacked on a new axis after the grid row: the new coordinate chooses. -/
theorem stack_rows_apply (u v : (⟨4, ![256, 4, 4, 32]⟩ : Shape).Idx → α)
    (h1 h2 : (⟨4, ![256, 4, 4, 32]⟩ : Shape).ShapeCasts ⟨5, ![256, 4, 1, 4, 32]⟩)
    (hc : Shape.Concatenates [(⟨5, ![256, 4, 1, 4, 32]⟩ : Shape), ⟨5, ![256, 4, 1, 4, 32]⟩] ⟨5, ![256, 4, 2, 4, 32]⟩ 2)
    (p : Fin 256) (H : Fin 4) (a : Fin 2) (W : Fin 4) (f : Fin 32) :
    concatenate ⟨5, ![256, 4, 2, 4, 32]⟩ 2 [⟨⟨5, ![256, 4, 1, 4, 32]⟩, shapeCast ⟨5, ![256, 4, 1, 4, 32]⟩ u h1⟩,
        ⟨⟨5, ![256, 4, 1, 4, 32]⟩, shapeCast ⟨5, ![256, 4, 1, 4, 32]⟩ v h2⟩] hc (ix5 p H a W f)
      = if a.val = 0 then u (ix4 p H W f) else v (ix4 p H W f) := by
  have hpos : ∀ (x : (⟨4, ![256, 4, 4, 32]⟩ : Shape).Idx → α) (h : (⟨4, ![256, 4, 4, 32]⟩ : Shape).ShapeCasts ⟨5, ![256, 4, 1, 4, 32]⟩),
      shapeCast ⟨5, ![256, 4, 1, 4, 32]⟩ x h (ix5 p H (0 : Fin 1) W f) = x (ix4 p H W f) := fun x h =>
    shapeCast_apply x h _ _ (by
      rw [Shape.rowMajor_val_four, Shape.rowMajor_val_five]
      show ((p.val * 4 + H.val) * 4 + W.val) * 32 + f.val = (((p.val * 4 + H.val) * 1 + 0) * 4 + W.val) * 32 + f.val
      omega)
  by_cases ha : a.val = 0
  · rw [if_pos ha]
    refine (concatenate_pair_apply_left 2 _ _ hc (ix5 p H a W f) rfl (ix5 p H (0 : Fin 1) W f) (fun b => ?_)).trans (hpos u h1)
    match b with
    | ⟨0, _⟩ => rfl
    | ⟨1, _⟩ => rfl
    | ⟨2, _⟩ => show 0 = a.val; omega
    | ⟨3, _⟩ => rfl
    | ⟨4, _⟩ => rfl
  · rw [if_neg ha]
    refine (concatenate_pair_apply_right 2 _ _ hc (ix5 p H a W f) rfl rfl (ix5 p H (0 : Fin 1) W f) (fun b hb => ?_) ?_).trans (hpos v h2)
    · match b with
      | ⟨0, _⟩ => rfl
      | ⟨1, _⟩ => rfl
      | ⟨2, _⟩ => exact absurd rfl hb
      | ⟨3, _⟩ => rfl
      | ⟨4, _⟩ => rfl
    · show 0 + 1 = a.val
      have := a.isLt; omega

/-- Two arrays stacked on a new axis after the grid column: the new coordinate chooses. -/
theorem stack_cols_apply (u v : (⟨5, ![256, 4, 2, 4, 32]⟩ : Shape).Idx → α)
    (h1 h2 : (⟨5, ![256, 4, 2, 4, 32]⟩ : Shape).ShapeCasts ⟨6, ![256, 4, 2, 4, 1, 32]⟩)
    (hc : Shape.Concatenates [(⟨6, ![256, 4, 2, 4, 1, 32]⟩ : Shape), ⟨6, ![256, 4, 2, 4, 1, 32]⟩] ⟨6, ![256, 4, 2, 4, 2, 32]⟩ 4)
    (p : Fin 256) (H : Fin 4) (a : Fin 2) (W : Fin 4) (c : Fin 2) (f : Fin 32) :
    concatenate ⟨6, ![256, 4, 2, 4, 2, 32]⟩ 4 [⟨⟨6, ![256, 4, 2, 4, 1, 32]⟩, shapeCast ⟨6, ![256, 4, 2, 4, 1, 32]⟩ u h1⟩,
        ⟨⟨6, ![256, 4, 2, 4, 1, 32]⟩, shapeCast ⟨6, ![256, 4, 2, 4, 1, 32]⟩ v h2⟩] hc (ix6 p H a W c f)
      = if c.val = 0 then u (ix5 p H a W f) else v (ix5 p H a W f) := by
  have hpos : ∀ (x : (⟨5, ![256, 4, 2, 4, 32]⟩ : Shape).Idx → α) (h : (⟨5, ![256, 4, 2, 4, 32]⟩ : Shape).ShapeCasts ⟨6, ![256, 4, 2, 4, 1, 32]⟩),
      shapeCast ⟨6, ![256, 4, 2, 4, 1, 32]⟩ x h (ix6 p H a W (0 : Fin 1) f) = x (ix5 p H a W f) := fun x h =>
    shapeCast_apply x h _ _ (by
      rw [Shape.rowMajor_val_five, Shape.rowMajor_val_six]
      show (((p.val * 4 + H.val) * 2 + a.val) * 4 + W.val) * 32 + f.val
        = ((((p.val * 4 + H.val) * 2 + a.val) * 4 + W.val) * 1 + 0) * 32 + f.val
      omega)
  by_cases hc0 : c.val = 0
  · rw [if_pos hc0]
    refine (concatenate_pair_apply_left 4 _ _ hc (ix6 p H a W c f) rfl (ix6 p H a W (0 : Fin 1) f) (fun b => ?_)).trans (hpos u h1)
    match b with
    | ⟨0, _⟩ => rfl
    | ⟨1, _⟩ => rfl
    | ⟨2, _⟩ => rfl
    | ⟨3, _⟩ => rfl
    | ⟨4, _⟩ => show 0 = c.val; omega
    | ⟨5, _⟩ => rfl
  · rw [if_neg hc0]
    refine (concatenate_pair_apply_right 4 _ _ hc (ix6 p H a W c f) rfl rfl (ix6 p H a W (0 : Fin 1) f) (fun b hb => ?_) ?_).trans (hpos v h2)
    · match b with
      | ⟨0, _⟩ => rfl
      | ⟨1, _⟩ => rfl
      | ⟨2, _⟩ => rfl
      | ⟨3, _⟩ => rfl
      | ⟨4, _⟩ => exact absurd rfl hb
      | ⟨5, _⟩ => rfl
    · show 0 + 1 = c.val
      have := c.isLt; omega

/-- Merging (grid row, a) and (grid column, c): cell (Y, X) of the merged grid. -/
theorem merge_apply (z : (⟨6, ![256, 4, 2, 4, 2, 32]⟩ : Shape).Idx → α)
    (h : (⟨6, ![256, 4, 2, 4, 2, 32]⟩ : Shape).ShapeCasts ⟨4, ![256, 8, 8, 32]⟩)
    (p : Fin 256) (Y X : Fin 8) (f : Fin 32) :
    shapeCast ⟨4, ![256, 8, 8, 32]⟩ z h (ix4 p Y X f)
      = z (ix6 p ⟨Y.val / 2, by have := Y.isLt; omega⟩ ⟨Y.val % 2, by omega⟩ ⟨X.val / 2, by have := X.isLt; omega⟩ ⟨X.val % 2, by omega⟩ f) :=
  shapeCast_apply z h _ _ (by
    rw [Shape.rowMajor_val_six, Shape.rowMajor_val_four]
    show ((((p.val * 4 + Y.val / 2) * 2 + Y.val % 2) * 4 + X.val / 2) * 2 + X.val % 2) * 32 + f.val
      = ((p.val * 8 + Y.val) * 8 + X.val) * 32 + f.val
    omega)

/-- The four arrays interleaved. -/
theorem interleave_apply (y00 y01 y10 y11 : (⟨4, ![256, 4, 4, 32]⟩ : Shape).Idx → α)
    (h1 h2 h3 h4 : (⟨4, ![256, 4, 4, 32]⟩ : Shape).ShapeCasts ⟨5, ![256, 4, 1, 4, 32]⟩)
    (hr hr' : Shape.Concatenates [(⟨5, ![256, 4, 1, 4, 32]⟩ : Shape), ⟨5, ![256, 4, 1, 4, 32]⟩] ⟨5, ![256, 4, 2, 4, 32]⟩ 2)
    (h5 h6 : (⟨5, ![256, 4, 2, 4, 32]⟩ : Shape).ShapeCasts ⟨6, ![256, 4, 2, 4, 1, 32]⟩)
    (hcc : Shape.Concatenates [(⟨6, ![256, 4, 2, 4, 1, 32]⟩ : Shape), ⟨6, ![256, 4, 2, 4, 1, 32]⟩] ⟨6, ![256, 4, 2, 4, 2, 32]⟩ 4)
    (hm : (⟨6, ![256, 4, 2, 4, 2, 32]⟩ : Shape).ShapeCasts ⟨4, ![256, 8, 8, 32]⟩)
    (p : Fin 256) (Y X : Fin 8) (f : Fin 32) :
    shapeCast ⟨4, ![256, 8, 8, 32]⟩
        (concatenate ⟨6, ![256, 4, 2, 4, 2, 32]⟩ 4
          [⟨⟨6, ![256, 4, 2, 4, 1, 32]⟩, shapeCast ⟨6, ![256, 4, 2, 4, 1, 32]⟩
              (concatenate ⟨5, ![256, 4, 2, 4, 32]⟩ 2 [⟨⟨5, ![256, 4, 1, 4, 32]⟩, shapeCast ⟨5, ![256, 4, 1, 4, 32]⟩ y00 h1⟩,
                ⟨⟨5, ![256, 4, 1, 4, 32]⟩, shapeCast ⟨5, ![256, 4, 1, 4, 32]⟩ y10 h2⟩] hr) h5⟩,
           ⟨⟨6, ![256, 4, 2, 4, 1, 32]⟩, shapeCast ⟨6, ![256, 4, 2, 4, 1, 32]⟩
              (concatenate ⟨5, ![256, 4, 2, 4, 32]⟩ 2 [⟨⟨5, ![256, 4, 1, 4, 32]⟩, shapeCast ⟨5, ![256, 4, 1, 4, 32]⟩ y01 h3⟩,
                ⟨⟨5, ![256, 4, 1, 4, 32]⟩, shapeCast ⟨5, ![256, 4, 1, 4, 32]⟩ y11 h4⟩] hr') h6⟩] hcc) hm (ix4 p Y X f)
      = if X.val % 2 = 0 then
          (if Y.val % 2 = 0 then y00 (ix4 p ⟨Y.val / 2, by have := Y.isLt; omega⟩ ⟨X.val / 2, by have := X.isLt; omega⟩ f)
           else y10 (ix4 p ⟨Y.val / 2, by have := Y.isLt; omega⟩ ⟨X.val / 2, by have := X.isLt; omega⟩ f))
        else
          (if Y.val % 2 = 0 then y01 (ix4 p ⟨Y.val / 2, by have := Y.isLt; omega⟩ ⟨X.val / 2, by have := X.isLt; omega⟩ f)
           else y11 (ix4 p ⟨Y.val / 2, by have := Y.isLt; omega⟩ ⟨X.val / 2, by have := X.isLt; omega⟩ f)) := by
  rw [merge_apply, stack_cols_apply]
  by_cases hx : X.val % 2 = 0
  · rw [if_pos hx, if_pos hx, stack_rows_apply]
  · rw [if_neg hx, if_neg hx, stack_rows_apply]

/-- The merged grids flattened back to rows (pixel, grid row, grid column). -/
theorem reflat_apply (y : (⟨4, ![256, 8, 8, 32]⟩ : Shape).Idx → α) (h : (⟨4, ![256, 8, 8, 32]⟩ : Shape).ShapeCasts ⟨2, ![16384, 32]⟩)
    (p : Fin 256) (Y X : Fin 8) (f : Fin 32) :
    shapeCast ⟨2, ![16384, 32]⟩ y h
        (ix2 ⟨p.val * 64 + Y.val * 8 + X.val, by have := p.isLt; have := Y.isLt; have := X.isLt; omega⟩ f)
      = y (ix4 p Y X f) :=
  shapeCast_apply y h _ _ (by
    rw [Shape.rowMajor_val_two, Shape.rowMajor_val_four]
    show ((p.val * 8 + Y.val) * 8 + X.val) * 32 + f.val = (p.val * 64 + Y.val * 8 + X.val) * 32 + f.val
    omega)

/-- The block's rows times a slot of the stage's matrices, from the zero accumulator: entry (r, f). -/
theorem mm_apply {φ₁ φ₂ : FTy} (xf : FVec Ideal ⟨2, ![4096, 64]⟩ φ₁) (slot : FVec Ideal ⟨3, ![1, 64, 32]⟩ φ₂)
    (hs : (⟨3, ![1, 64, 32]⟩ : Shape).ShapeCasts ⟨2, ![64, 32]⟩) (r : Fin 4096) (f : Fin 32) :
    (matmul (DotDims.plain 4096 64 32) none xf (shapeCast ⟨2, ![64, 32]⟩ slot hs) (constant ⟨2, ![4096, 32]⟩ .f32 0x00000000#32)
        : FVec Ideal ⟨2, ![4096, 32]⟩ .f32) (ix2 r f)
      = ∑ k : Fin 64, xf (ix2 r k) * slot (ix3 (0 : Fin 1) k f) := by
  rw [matmul_rows_apply]
  exact Finset.sum_congr rfl fun k _ => by rw [slot_apply]

/-- The same plus the bias added to every row. -/
theorem rows_apply {φ₁ φ₂ : FTy} (xf : FVec Ideal ⟨2, ![4096, 64]⟩ φ₁) (slot : FVec Ideal ⟨3, ![1, 64, 32]⟩ φ₂)
    (b : FVec Ideal ⟨1, ![32]⟩ .f32)
    (hs : (⟨3, ![1, 64, 32]⟩ : Shape).ShapeCasts ⟨2, ![64, 32]⟩) (hb1 : (⟨1, ![32]⟩ : Shape).ShapeCasts ⟨2, ![1, 32]⟩)
    (hb2 : (⟨2, ![1, 32]⟩ : Shape).Broadcasts ⟨2, ![4096, 32]⟩) (r : Fin 4096) (f : Fin 32) :
    (addf (matmul (DotDims.plain 4096 64 32) none xf (shapeCast ⟨2, ![64, 32]⟩ slot hs) (constant ⟨2, ![4096, 32]⟩ .f32 0x00000000#32))
          (broadcastTo ⟨2, ![4096, 32]⟩ (shapeCast ⟨2, ![1, 32]⟩ b hb1) hb2) : FVec Ideal ⟨2, ![4096, 32]⟩ .f32) (ix2 r f)
      = (∑ k : Fin 64, xf (ix2 r k) * slot (ix3 (0 : Fin 1) k f)) + b (ix1 f) := by
  rw [addf_apply, mm_apply, bias_rows_apply]

/-- One of the four products regrouped by pixel and grid cell. -/
theorem product_apply {φ₁ φ₂ : FTy} (xf : FVec Ideal ⟨2, ![4096, 64]⟩ φ₁) (slot : FVec Ideal ⟨3, ![1, 64, 32]⟩ φ₂)
    (b : FVec Ideal ⟨1, ![32]⟩ .f32)
    (hs : (⟨3, ![1, 64, 32]⟩ : Shape).ShapeCasts ⟨2, ![64, 32]⟩) (hb1 : (⟨1, ![32]⟩ : Shape).ShapeCasts ⟨2, ![1, 32]⟩)
    (hb2 : (⟨2, ![1, 32]⟩ : Shape).Broadcasts ⟨2, ![4096, 32]⟩) (hu : (⟨2, ![4096, 32]⟩ : Shape).ShapeCasts ⟨4, ![256, 4, 4, 32]⟩)
    (p : Fin 256) (H W : Fin 4) (f : Fin 32) :
    shapeCast ⟨4, ![256, 4, 4, 32]⟩
        (addf (matmul (DotDims.plain 4096 64 32) none xf (shapeCast ⟨2, ![64, 32]⟩ slot hs) (constant ⟨2, ![4096, 32]⟩ .f32 0x00000000#32))
          (broadcastTo ⟨2, ![4096, 32]⟩ (shapeCast ⟨2, ![1, 32]⟩ b hb1) hb2) : FVec Ideal ⟨2, ![4096, 32]⟩ .f32) hu (ix4 p H W f)
      = (∑ k : Fin 64, xf (ix2 ⟨p.val * 16 + H.val * 4 + W.val, by have := p.isLt; have := H.isLt; have := W.isLt; omega⟩ k)
            * slot (ix3 (0 : Fin 1) k f)) + b (ix1 f) := by
  rw [unflat_apply, rows_apply]

end Cert.Decoder.Layout2

end
-- ==== Proof.Stage2.lean ====
/-
  Doubling step 2 inside the kernel body: from the block's rectified 4×4 cells of 64 channels to its rectified 8×8
  cells of 32.

  The body multiplies the block's 4096 rows (pixel, cell row, cell column) by each of the four 64×32 matrices and adds
  the bias: four arrays, one per pair of parities. Interleaved and rectified they are the block's 8×8 grids, flattened
  again to 16384 rows for the next step. Slot 2·a + c of the stacked matrices is the weight array at parities (a, c).
-/
import proofs.«118323_j87299505258574_2_alg».proof.Proof.Gen.KernelIdeal.Skeleton
import proofs.«118323_j87299505258574_2_alg».proof.Proof.Spec
import proofs.«118323_j87299505258574_2_alg».proof.Proof.Layout2

noncomputable section

namespace Cert.Decoder.Stage2

open Idealize.ShloMosaic Idealize.ShloMosaic.ValueIdx Cert.KernelIdeal Cert.KernelIdeal.Gen Cert.Decoder

/-- Pixel p of block t. -/
abbrev pix (t : Fin 64) (p : Fin 256) : Fin 16384 := ⟨256 * t.val + p.val, by have := t.isLt; have := p.isLt; omega⟩

/-- Four arrays holding the four parities' products, read at the cell and parities of (Y, X), are the step's value. -/
theorem interleaved_eq (t : Fin 64) (A : Fin 16384 → Fin 4 → Fin 4 → Fin 64 → EReal) (w : Arr4 2 2 32 64) (b : Arr1 32)
    (y00 y01 y10 y11 : (⟨4, ![256, 4, 4, 32]⟩ : Shape).Idx → EReal)
    (h00 : ∀ (p : Fin 256) (H W : Fin 4) (f : Fin 32), y00 (ix4 p H W f) = (∑ k : Fin 64, A (pix t p) H W k * w (ix4 0 0 f k)) + b (ix1 f))
    (h01 : ∀ (p : Fin 256) (H W : Fin 4) (f : Fin 32), y01 (ix4 p H W f) = (∑ k : Fin 64, A (pix t p) H W k * w (ix4 0 1 f k)) + b (ix1 f))
    (h10 : ∀ (p : Fin 256) (H W : Fin 4) (f : Fin 32), y10 (ix4 p H W f) = (∑ k : Fin 64, A (pix t p) H W k * w (ix4 1 0 f k)) + b (ix1 f))
    (h11 : ∀ (p : Fin 256) (H W : Fin 4) (f : Fin 32), y11 (ix4 p H W f) = (∑ k : Fin 64, A (pix t p) H W k * w (ix4 1 1 f k)) + b (ix1 f))
    (p : Fin 256) (Y X : Fin 8) (f : Fin 32) :
    (if X.val % 2 = 0 then
        (if Y.val % 2 = 0 then y00 (ix4 p ⟨Y.val / 2, by have := Y.isLt; omega⟩ ⟨X.val / 2, by have := X.isLt; omega⟩ f)
         else y10 (ix4 p ⟨Y.val / 2, by have := Y.isLt; omega⟩ ⟨X.val / 2, by have := X.isLt; omega⟩ f))
      else
        (if Y.val % 2 = 0 then y01 (ix4 p ⟨Y.val / 2, by have := Y.isLt; omega⟩ ⟨X.val / 2, by have := X.isLt; omega⟩ f)
         else y11 (ix4 p ⟨Y.val / 2, by have := Y.isLt; omega⟩ ⟨X.val / 2, by have := X.isLt; omega⟩ f)))
      = pre2 A w b (pix t p) Y X f := by
  have key : ∀ (a c : Fin 2), a.val = Y.val % 2 → c.val = X.val % 2 →
      (∑ k : Fin 64, A (pix t p) ⟨Y.val / 2, by have := Y.isLt; omega⟩ ⟨X.val / 2, by have := X.isLt; omega⟩ k * w (ix4 a c f k)) + b (ix1 f)
        = pre2 A w b (pix t p) Y X f := by
    intro a c ha hc
    have ea : a = ⟨Y.val % 2, Nat.mod_lt _ (by decide)⟩ := Fin.ext ha
    have ec : c = ⟨X.val % 2, Nat.mod_lt _ (by decide)⟩ := Fin.ext hc
    subst ea; subst ec
    rfl
  by_cases hx : X.val % 2 = 0
  · by_cases hy : Y.val % 2 = 0
    · rw [if_pos hx, if_pos hy, h00]; exact key 0 0 (by show 0 = _; omega) (by show 0 = _; omega)
    · rw [if_pos hx, if_neg hy, h10]; exact key 1 0 (by show 1 = _; omega) (by show 0 = _; omega)
  · by_cases hy : Y.val % 2 = 0
    · rw [if_neg hx, if_pos hy, h01]; exact key 0 1 (by show 0 = _; omega) (by show 1 = _; omega)
    · rw [if_neg hx, if_neg hy, h11]; exact key 1 1 (by show 1 = _; omega) (by show 1 = _; omega)

/-- One product of the step, as the body computes the first two: rows of the cells times a slot, plus the bias,
    regrouped by pixel and cell. -/
theorem pay12_apply (v62 : FVec Ideal S1024x384 .bf16) (v63 : Vec Ideal S64 .f32) (v70 v77 v84 : FVec Ideal S256x2x2x64 .f32)
    (v85 : Vec Ideal S1x384x64 .bf16) (v106 : Vec Ideal S32 .f32) (v107 : Vec Ideal S1x64x32 .bf16)
    (p : Fin 256) (H W : Fin 4) (f : Fin 32) :
    k0_pay12 (F := Ideal) v62 v63 v70 v77 v84 v85 v106 v107 (ix4 p H W f)
      = (∑ k : Fin 64, k0_pay11 (F := Ideal) v62 v63 v70 v77 v84 v85
            (ix2 ⟨p.val * 16 + H.val * 4 + W.val, by have := p.isLt; have := H.isLt; have := W.isLt; omega⟩ k) * v107 (ix3 (0 : Fin 1) k f))
          + v106 (ix1 f) := by
  unfold k0_pay12
  exact Layout2.product_apply _ v107 v106 _ _ _ _ p H W f

/-- The second product has the first one's text. -/
theorem pay13_eq : @k0_pay13 Ideal _ = @k0_pay12 Ideal _ := rfl

/-- The third product with its bias, still as flat rows: row r, channel f. -/
theorem pay14_apply (v62 : FVec Ideal S1024x384 .bf16) (v63 : Vec Ideal S64 .f32) (v70 v77 v84 : FVec Ideal S256x2x2x64 .f32)
    (v85 : Vec Ideal S1x384x64 .bf16) (v106 : Vec Ideal S32 .f32) (v121 : Vec Ideal S1x64x32 .bf16)
    (r : Fin 4096) (f : Fin 32) :
    k0_pay14 (F := Ideal) v62 v63 v70 v77 v84 v85 v106 v121 (ix2 r f)
      = (∑ k : Fin 64, k0_pay11 (F := Ideal) v62 v63 v70 v77 v84 v85 (ix2 r k) * v121 (ix3 (0 : Fin 1) k f))
          + v106 (ix1 f) := by
  unfold k0_pay14
  exact Layout2.rows_apply _ v121 v106 _ _ _ r f

/-- The step's result in the body: the third product regrouped, the fourth product, the interleaving, the rectifier,
    the rows of the next step. -/
theorem pay15_apply (t : Fin 64) (A : Fin 16384 → Fin 4 → Fin 4 → Fin 64 → EReal) (w : Arr4 2 2 32 64) (b : Arr1 32)
    (v105 : FVec Ideal S4096x64 .bf16) (v106 : Vec Ideal S32 .f32) (v113 v120 : FVec Ideal S256x4x4x32 .f32)
    (v126 : FVec Ideal S4096x32 .f32) (v128 : Vec Ideal S1x64x32 .bf16)
    (hx : ∀ (p : Fin 256) (H W : Fin 4) (k : Fin 64),
      v105 (ix2 ⟨p.val * 16 + H.val * 4 + W.val, by have := p.isLt; have := H.isLt; have := W.isLt; omega⟩ k) = A (pix t p) H W k)
    (h106 : ∀ f : Fin 32, v106 (ix1 f) = b (ix1 f))
    (h113 : ∀ (p : Fin 256) (H W : Fin 4) (f : Fin 32), v113 (ix4 p H W f) = (∑ k : Fin 64, A (pix t p) H W k * w (ix4 0 0 f k)) + b (ix1 f))
    (h120 : ∀ (p : Fin 256) (H W : Fin 4) (f : Fin 32), v120 (ix4 p H W f) = (∑ k : Fin 64, A (pix t p) H W k * w (ix4 0 1 f k)) + b (ix1 f))
    (h126 : ∀ (p : Fin 256) (H W : Fin 4) (f : Fin 32),
      v126 (ix2 ⟨p.val * 16 + H.val * 4 + W.val, by have := p.isLt; have := H.isLt; have := W.isLt; omega⟩ f) = (∑ k : Fin 64, A (pix t p) H W k * w (ix4 1 0 f k)) + b (ix1 f))
    (h128 : ∀ (k : Fin 64) (f : Fin 32), v128 (ix3 (0 : Fin 1) k f) = w (ix4 1 1 f k))
    (p : Fin 256) (Y X : Fin 8) (f : Fin 32) :
    k0_pay15 (F := Ideal) v105 v106 v113 v120 v126 v128
        (ix2 ⟨p.val * 64 + Y.val * 8 + X.val, by have := p.isLt; have := Y.isLt; have := X.isLt; omega⟩ f)
      = max (pre2 A w b (pix t p) Y X f) z32 := by
  unfold k0_pay15
  refine (truncf_apply (φ := .f32) (ψ := .bf16) _ bitsLt_bf16_f32 _).trans ?_
  refine (Layout2.reflat_apply _ _ p Y X f).trans ?_
  refine (maximumf_apply _ _ _).trans ?_
  refine congrArg (fun s => max s z32) ?_
  refine (Layout2.interleave_apply v113 v120 _ _ _ _ _ _ _ _ _ _ _ _ p Y X f).trans ?_
  refine interleaved_eq t A w b v113 v120 _ _ h113 h120
    (fun p H W f => (Layout2.unflat_apply v126 _ p H W f).trans (h126 p H W f)) (fun p H W f => ?_) p Y X f
  refine (Layout2.product_apply v105 v128 v106 _ _ _ _ p H W f).trans ?_
  rw [h106]
  exact congrArg (· + b (ix1 f)) (Finset.sum_congr rfl fun k _ => by rw [hx, h128])

end Cert.Decoder.Stage2

end
-- ==== Proof.Layout3.lean ====
/-
  Doubling step 3 of the decoder, as array layouts: a block of 256 pixels, each a 8×8 grid of 32 channels, goes to
  16×16 grids of 3 channels.

  The rows of the flat [16384, ·] arrays are (pixel, grid row, grid column) in row-major order. Four products, one per pair
  of parities (a, c), give four [256, 8, 8, 3] arrays; stacking the two of one c on a new axis after the grid row, then
  the two stacks on a new axis after the grid column, and merging (row, a) and (column, c), interleaves them: output
  cell (Y, X) is cell (Y / 2, X / 2) of the array of parities (Y % 2, X % 2).
-/
import proofs.«118323_j87299505258574_2_alg».proof.Proof.LibArrays

noncomputable section

namespace Cert.Decoder.Layout3

open Idealize.ShloMosaic Idealize.ShloMosaic.ValueIdx Cert.Decoder.Lib

variable {α : Type}

/-- The flat rows regrouped by pixel and grid cell. -/
theorem unflat_apply (v : (⟨2, ![16384, 3]⟩ : Shape).Idx → α) (h : (⟨2, ![16384, 3]⟩ : Shape).ShapeCasts ⟨4, ![256, 8, 8, 3]⟩)
    (p : Fin 256) (H W : Fin 8) (f : Fin 3) :
    shapeCast ⟨4, ![256, 8, 8, 3]⟩ v h (ix4 p H W f)
      = v (ix2 ⟨p.val * 64 + H.val * 8 + W.val, by have := p.isLt; have := H.isLt; have := W.isLt; omega⟩ f) :=
  shapeCast_apply v h _ _ (by
    rw [Shape.rowMajor_val_two, Shape.rowMajor_val_four]
    show (p.val * 64 + H.val * 8 + W.val) * 3 + f.val = ((p.val * 8 + H.val) * 8 + W.val) * 3 + f.val
    omega)

/-- Two arrays stacked on a new axis after the grid row: the new coordinate chooses. -/
theorem stack_rows_apply (u v : (⟨4, ![256, 8, 8, 3]⟩ : Shape).Idx → α)
    (h1 h2 : (⟨4, ![256, 8, 8, 3]⟩ : Shape).ShapeCasts ⟨5, ![256, 8, 1, 8, 3]⟩)
    (hc : Shape.Concatenates [(⟨5, ![256, 8, 1, 8, 3]⟩ : Shape), ⟨5, ![256, 8, 1, 8, 3]⟩] ⟨5, ![256, 8, 2, 8, 3]⟩ 2)
    (p : Fin 256) (H : Fin 8) (a : Fin 2) (W : Fin 8) (f : Fin 3) :
    concatenate ⟨5, ![256, 8, 2, 8, 3]⟩ 2 [⟨⟨5, ![256, 8, 1, 8, 3]⟩, shapeCast ⟨5, ![256, 8, 1, 8, 3]⟩ u h1⟩,
        ⟨⟨5, ![256, 8, 1, 8, 3]⟩, shapeCast ⟨5, ![256, 8, 1, 8, 3]⟩ v h2⟩] hc (ix5 p H a W f)
      = if a.val = 0 then u (ix4 p H W f) else v (ix4 p H W f) := by
  have hpos : ∀ (x : (⟨4, ![256, 8, 8, 3]⟩ : Shape).Idx → α) (h : (⟨4, ![256, 8, 8, 3]⟩ : Shape).ShapeCasts ⟨5, ![256, 8, 1, 8, 3]⟩),
      shapeCast ⟨5, ![256, 8, 1, 8, 3]⟩ x h (ix5 p H (0 : Fin 1) W f) = x (ix4 p H W f) := fun x h =>
    shapeCast_apply x h _ _ (by
      rw [Shape.rowMajor_val_four, Shape.rowMajor_val_five]
      show ((p.val * 8 + H.val) * 8 + W.val) * 3 + f.val = (((p.val * 8 + H.val) * 1 + 0) * 8 + W.val) * 3 + f.val
      omega)
  by_cases ha : a.val = 0
  · rw [if_pos ha]
    refine (concatenate_pair_apply_left 2 _ _ hc (ix5 p H a W f) rfl (ix5 p H (0 : Fin 1) W f) (fun b => ?_)).trans (hpos u h1)
    match b with
    | ⟨0, _⟩ => rfl
    | ⟨1, _⟩ => rfl
    | ⟨2, _⟩ => show 0 = a.val; omega
    | ⟨3, _⟩ => rfl
    | ⟨4, _⟩ => rfl
  · rw [if_neg ha]
    refine (concatenate_pair_apply_right 2 _ _ hc (ix5 p H a W f) rfl rfl (ix5 p H (0 : Fin 1) W f) (fun b hb => ?_) ?_).trans (hpos v h2)
    · match b with
      | ⟨0, _⟩ => rfl
      | ⟨1, _⟩ => rfl
      | ⟨2, _⟩ => exact absurd rfl hb
      | ⟨3, _⟩ => rfl
      | ⟨4, _⟩ => rfl
    · show 0 + 1 = a.val
      have := a.isLt; omega

/-- Two arrays stacked on a new axis after the grid column: the new coordinate chooses. -/
theorem stack_cols_apply (u v : (⟨5, ![256, 8, 2, 8, 3]⟩ : Shape).Idx → α)
    (h1 h2 : (⟨5, ![256, 8, 2, 8, 3]⟩ : Shape).ShapeCasts ⟨6, ![256, 8, 2, 8, 1, 3]⟩)
    (hc : Shape.Concatenates [(⟨6, ![256, 8, 2, 8, 1, 3]⟩ : Shape), ⟨6, ![256, 8, 2, 8, 1, 3]⟩] ⟨6, ![256, 8, 2, 8, 2, 3]⟩ 4)
    (p : Fin 256) (H : Fin 8) (a : Fin 2) (W : Fin 8) (c : Fin 2) (f : Fin 3) :
    concatenate ⟨6, ![256, 8, 2, 8, 2, 3]⟩ 4 [⟨⟨6, ![256, 8, 2, 8, 1, 3]⟩, shapeCast ⟨6, ![256, 8, 2, 8, 1, 3]⟩ u h1⟩,
        ⟨⟨6, ![256, 8, 2, 8, 1, 3]⟩, shapeCast ⟨6, ![256, 8, 2, 8, 1, 3]⟩ v h2⟩] hc (ix6 p H a W c f)
      = if c.val = 0 then u (ix5 p H a W f) else v (ix5 p H a W f) := by
  have hpos : ∀ (x : (⟨5, ![256, 8, 2, 8, 3]⟩ : Shape).Idx → α) (h : (⟨5, ![256, 8, 2, 8, 3]⟩ : Shape).ShapeCasts ⟨6, ![256, 8, 2, 8, 1, 3]⟩),
      shapeCast ⟨6, ![256, 8, 2, 8, 1, 3]⟩ x h (ix6 p H a W (0 : Fin 1) f) = x (ix5 p H a W f) := fun x h =>
    shapeCast_apply x h _ _ (by
      rw [Shape.rowMajor_val_five, Shape.rowMajor_val_six]
      show (((p.val * 8 + H.val) * 2 + a.val) * 8 + W.val) * 3 + f.val
        = ((((p.val * 8 + H.val) * 2 + a.val) * 8 + W.val) * 1 + 0) * 3 + f.val
      omega)
  by_cases hc0 : c.val = 0
  · rw [if_pos hc0]
    refine (concatenate_pair_apply_left 4 _ _ hc (ix6 p H a W c f) rfl (ix6 p H a W (0 : Fin 1) f) (fun b => ?_)).trans (hpos u h1)
    match b with
    | ⟨0, _⟩ => rfl
    | ⟨1, _⟩ => rfl
    | ⟨2, _⟩ => rfl
    | ⟨3, _⟩ => rfl
    | ⟨4, _⟩ => show 0 = c.val; omega
    | ⟨5, _⟩ => rfl
  · rw [if_neg hc0]
    refine (concatenate_pair_apply_right 4 _ _ hc (ix6 p H a W c f) rfl rfl (ix6 p H a W (0 : Fin 1) f) (fun b hb => ?_) ?_).trans (hpos v h2)
    · match b with
      | ⟨0, _⟩ => rfl
      | ⟨1, _⟩ => rfl
      | ⟨2, _⟩ => rfl
      | ⟨3, _⟩ => rfl
      | ⟨4, _⟩ => exact absurd rfl hb
      | ⟨5, _⟩ => rfl
    · show 0 + 1 = c.val
      have := c.isLt; omega

/-- Merging (grid row, a) and (grid column, c): cell (Y, X) of the merged grid. -/
theorem merge_apply (z : (⟨6, ![256, 8, 2, 8, 2, 3]⟩ : Shape).Idx → α)
    (h : (⟨6, ![256, 8, 2, 8, 2, 3]⟩ : Shape).ShapeCasts ⟨4, ![256, 16, 16, 3]⟩)
    (p : Fin 256) (Y X : Fin 16) (f : Fin 3) :
    shapeCast ⟨4, ![256, 16, 16, 3]⟩ z h (ix4 p Y X f)
      = z (ix6 p ⟨Y.val / 2, by have := Y.isLt; omega⟩ ⟨Y.val % 2, by omega⟩ ⟨X.val / 2, by have := X.isLt; omega⟩ ⟨X.val % 2, by omega⟩ f) :=
  shapeCast_apply z h _ _ (by
    rw [Shape.rowMajor_val_six, Shape.rowMajor_val_four]
    show ((((p.val * 8 + Y.val / 2) * 2 + Y.val % 2) * 8 + X.val / 2) * 2 + X.val % 2) * 3 + f.val
      = ((p.val * 16 + Y.val) * 16 + X.val) * 3 + f.val
    omega)

/-- The four arrays interleaved. -/
theorem interleave_apply (y00 y01 y10 y11 : (⟨4, ![256, 8, 8, 3]⟩ : Shape).Idx → α)
    (h1 h2 h3 h4 : (⟨4, ![256, 8, 8, 3]⟩ : Shape).ShapeCasts ⟨5, ![256, 8, 1, 8, 3]⟩)
    (hr hr' : Shape.Concatenates [(⟨5, ![256, 8, 1, 8, 3]⟩ : Shape), ⟨5, ![256, 8, 1, 8, 3]⟩] ⟨5, ![256, 8, 2, 8, 3]⟩ 2)
    (h5 h6 : (⟨5, ![256, 8, 2, 8, 3]⟩ : Shape).ShapeCasts ⟨6, ![256, 8, 2, 8, 1, 3]⟩)
    (hcc : Shape.Concatenates [(⟨6, ![256, 8, 2, 8, 1, 3]⟩ : Shape), ⟨6, ![256, 8, 2, 8, 1, 3]⟩] ⟨6, ![256, 8, 2, 8, 2, 3]⟩ 4)
    (hm : (⟨6, ![256, 8, 2, 8, 2, 3]⟩ : Shape).ShapeCasts ⟨4, ![256, 16, 16, 3]⟩)
    (p : Fin 256) (Y X : Fin 16) (f : Fin 3) :
    shapeCast ⟨4, ![256, 16, 16, 3]⟩
        (concatenate ⟨6, ![256, 8, 2, 8, 2, 3]⟩ 4
          [⟨⟨6, ![256, 8, 2, 8, 1, 3]⟩, shapeCast ⟨6, ![256, 8, 2, 8, 1, 3]⟩
              (concatenate ⟨5, ![256, 8, 2, 8, 3]⟩ 2 [⟨⟨5, ![256, 8, 1, 8, 3]⟩, shapeCast ⟨5, ![256, 8, 1, 8, 3]⟩ y00 h1⟩,
                ⟨⟨5, ![256, 8, 1, 8, 3]⟩, shapeCast ⟨5, ![256, 8, 1, 8, 3]⟩ y10 h2⟩] hr) h5⟩,
           ⟨⟨6, ![256, 8, 2, 8, 1, 3]⟩, shapeCast ⟨6, ![256, 8, 2, 8, 1, 3]⟩
              (concatenate ⟨5, ![256, 8, 2, 8, 3]⟩ 2 [⟨⟨5, ![256, 8, 1, 8, 3]⟩, shapeCast ⟨5, ![256, 8, 1, 8, 3]⟩ y01 h3⟩,
                ⟨⟨5, ![256, 8, 1, 8, 3]⟩, shapeCast ⟨5, ![256, 8, 1, 8, 3]⟩ y11 h4⟩] hr') h6⟩] hcc) hm (ix4 p Y X f)
      = if X.val % 2 = 0 then
          (if Y.val % 2 = 0 then y00 (ix4 p ⟨Y.val / 2, by have := Y.isLt; omega⟩ ⟨X.val / 2, by have := X.isLt; omega⟩ f)
           else y10 (ix4 p ⟨Y.val / 2, by have := Y.isLt; omega⟩ ⟨X.val / 2, by have := X.isLt; omega⟩ f))
        else
          (if Y.val % 2 = 0 then y01 (ix4 p ⟨Y.val / 2, by have := Y.isLt; omega⟩ ⟨X.val / 2, by have := X.isLt; omega⟩ f)
           else y11 (ix4 p ⟨Y.val / 2, by have := Y.isLt; omega⟩ ⟨X.val / 2, by have := X.isLt; omega⟩ f)) := by
  rw [merge_apply, stack_cols_apply]
  by_cases hx : X.val % 2 = 0
  · rw [if_pos hx, if_pos hx, stack_rows_apply]
  · rw [if_neg hx, if_neg hx, stack_rows_apply]

/-- The merged grids flattened back to rows (pixel, grid row, grid column). -/
theorem reflat_apply (y : (⟨4, ![256, 16, 16, 3]⟩ : Shape).Idx → α) (h : (⟨4, ![256, 16, 16, 3]⟩ : Shape).ShapeCasts ⟨2, ![65536, 3]⟩)
    (p : Fin 256) (Y X : Fin 16) (f : Fin 3) :
    shapeCast ⟨2, ![65536, 3]⟩ y h
        (ix2 ⟨p.val * 256 + Y.val * 16 + X.val, by have := p.isLt; have := Y.isLt; have := X.isLt; omega⟩ f)
      = y (ix4 p Y X f) :=
  shapeCast_apply y h _ _ (by
    rw [Shape.rowMajor_val_two, Shape.rowMajor_val_four]
    show ((p.val * 16 + Y.val) * 16 + X.val) * 3 + f.val = (p.val * 256 + Y.val * 16 + X.val) * 3 + f.val
    omega)

/-- The block's rows times a slot of the stage's matrices, from the zero accumulator: entry (r, f). -/
theorem mm_apply {φ₁ φ₂ : FTy} (xf : FVec Ideal ⟨2, ![16384, 32]⟩ φ₁) (slot : FVec Ideal ⟨3, ![1, 32, 3]⟩ φ₂)
    (hs : (⟨3, ![1, 32, 3]⟩ : Shape).ShapeCasts ⟨2, ![32, 3]⟩) (r : Fin 16384) (f : Fin 3) :
    (matmul (DotDims.plain 16384 32 3) none xf (shapeCast ⟨2, ![32, 3]⟩ slot hs) (constant ⟨2, ![16384, 3]⟩ .f32 0x00000000#32)
        : FVec Ideal ⟨2, ![16384, 3]⟩ .f32) (ix2 r f)
      = ∑ k : Fin 32, xf (ix2 r k) * slot (ix3 (0 : Fin 1) k f) := by
  rw [matmul_rows_apply]
  exact Finset.sum_congr rfl fun k _ => by rw [slot_apply]

/-- The same plus the bias added to every row. -/
theorem rows_apply {φ₁ φ₂ : FTy} (xf : FVec Ideal ⟨2, ![16384, 32]⟩ φ₁) (slot : FVec Ideal ⟨3, ![1, 32, 3]⟩ φ₂)
    (b : FVec Ideal ⟨1, ![3]⟩ .f32)
    (hs : (⟨3, ![1, 32, 3]⟩ : Shape).ShapeCasts ⟨2, ![32, 3]⟩) (hb1 : (⟨1, ![3]⟩ : Shape).ShapeCasts ⟨2, ![1, 3]⟩)
    (hb2 : (⟨2, ![1, 3]⟩ : Shape).Broadcasts ⟨2, ![16384, 3]⟩) (r : Fin 16384) (f : Fin 3) :
    (addf (matmul (DotDims.plain 16384 32 3) none xf (shapeCast ⟨2, ![32, 3]⟩ slot hs) (constant ⟨2, ![16384, 3]⟩ .f32 0x00000000#32))
          (broadcastTo ⟨2, ![16384, 3]⟩ (shapeCast ⟨2, ![1, 3]⟩ b hb1) hb2) : FVec Ideal ⟨2, ![16384, 3]⟩ .f32) (ix2 r f)
      = (∑ k : Fin 32, xf (ix2 r k) * slot (ix3 (0 : Fin 1) k f)) + b (ix1 f) := by
  rw [addf_apply, mm_apply, bias_rows_apply]

/-- One of the four products regrouped by pixel and grid cell. -/
theorem product_apply {φ₁ φ₂ : FTy} (xf : FVec Ideal ⟨2, ![16384, 32]⟩ φ₁) (slot : FVec Ideal ⟨3, ![1, 32, 3]⟩ φ₂)
    (b : FVec Ideal ⟨1, ![3]⟩ .f32)
    (hs : (⟨3, ![1, 32, 3]⟩ : Shape).ShapeCasts ⟨2, ![32, 3]⟩) (hb1 : (⟨1, ![3]⟩ : Shape).ShapeCasts ⟨2, ![1, 3]⟩)
    (hb2 : (⟨2, ![1, 3]⟩ : Shape).Broadcasts ⟨2, ![16384, 3]⟩) (hu : (⟨2, ![16384, 3]⟩ : Shape).ShapeCasts ⟨4, ![256, 8, 8, 3]⟩)
    (p : Fin 256) (H W : Fin 8) (f : Fin 3) :
    shapeCast ⟨4, ![256, 8, 8, 3]⟩
        (addf (matmul (DotDims.plain 16384 32 3) none xf (shapeCast ⟨2, ![32, 3]⟩ slot hs) (constant ⟨2, ![16384, 3]⟩ .f32 0x00000000#32))
          (broadcastTo ⟨2, ![16384, 3]⟩ (shapeCast ⟨2, ![1, 3]⟩ b hb1) hb2) : FVec Ideal ⟨2, ![16384, 3]⟩ .f32) hu (ix4 p H W f)
      = (∑ k : Fin 32, xf (ix2 ⟨p.val * 64 + H.val * 8 + W.val, by have := p.isLt; have := H.isLt; have := W.isLt; omega⟩ k)
            * slot (ix3 (0 : Fin 1) k f)) + b (ix1 f) := by
  rw [unflat_apply, rows_apply]

/-- The last flattening: a pixel's 16×16×3 picture laid along one row of 768. -/
theorem lanes_apply (y : (⟨4, ![256, 16, 16, 3]⟩ : Shape).Idx → α) (h : (⟨4, ![256, 16, 16, 3]⟩ : Shape).ShapeCasts ⟨2, ![256, 768]⟩)
    (p : Fin 256) (q : Fin 768) :
    shapeCast ⟨2, ![256, 768]⟩ y h (ix2 p q)
      = y (ix4 p ⟨q.val / 48, by have := q.isLt; omega⟩ ⟨q.val / 3 % 16, by omega⟩ ⟨q.val % 3, by omega⟩) :=
  shapeCast_apply y h _ _ (by
    rw [Shape.rowMajor_val_two, Shape.rowMajor_val_four]
    show ((p.val * 16 + q.val / 48) * 16 + q.val / 3 % 16) * 3 + q.val % 3 = p.val * 768 + q.val
    omega)

end Cert.Decoder.Layout3

end
-- ==== Proof.Stage3.lean ====
/-
  Doubling step 3 inside the kernel body: from the block's 8×8 cells of 32 channels to its 16×16 pictures of 3.

  The body multiplies the block's 16384 rows (pixel, cell row, cell column) by each of the four 32×3 matrices and adds the
  bias: four arrays, one per pair of parities. The first two arrive regrouped by pixel and cell; of the third the product
  and the broadcast bias arrive apart and are added and regrouped here; the fourth is computed here. Interleaved they are
  the block's 16×16 grids, each laid along one row of 768 numbers, and the logistic function is applied entry by entry.
  Slot 2·a + c of the stacked matrices is the weight array at parities (a, c).
-/
import proofs.«118323_j87299505258574_2_alg».proof.Proof.Gen.KernelIdeal.Skeleton
import proofs.«118323_j87299505258574_2_alg».proof.Proof.Spec
import proofs.«118323_j87299505258574_2_alg».proof.Proof.Layout3

noncomputable section

namespace Cert.Decoder.Stage3

open Idealize.ShloMosaic Idealize.ShloMosaic.ValueIdx Cert.KernelIdeal Cert.KernelIdeal.Gen Cert.Decoder

/-- Pixel p of block t. -/
abbrev pix (t : Fin 64) (p : Fin 256) : Fin 16384 := ⟨256 * t.val + p.val, by have := t.isLt; have := p.isLt; omega⟩

/-- The logistic function of an array, entry by entry. -/
theorem logistic_apply {s : Shape} (v : FVec Ideal s .f32) (i : s.Idx) : logistic v i = Ideal.logistic (v i) := rfl

/-- Four arrays holding the four parities' products, read at the cell and parities of (Y, X), are the step's value. -/
theorem interleaved_eq (t : Fin 64) (A : Fin 16384 → Fin 8 → Fin 8 → Fin 32 → EReal) (w : Arr4 2 2 3 32) (b : Arr1 3)
    (y00 y01 y10 y11 : (⟨4, ![256, 8, 8, 3]⟩ : Shape).Idx → EReal)
    (h00 : ∀ (p : Fin 256) (H W : Fin 8) (f : Fin 3), y00 (ix4 p H W f) = (∑ k : Fin 32, A (pix t p) H W k * w (ix4 0 0 f k)) + b (ix1 f))
    (h01 : ∀ (p : Fin 256) (H W : Fin 8) (f : Fin 3), y01 (ix4 p H W f) = (∑ k : Fin 32, A (pix t p) H W k * w (ix4 0 1 f k)) + b (ix1 f))
    (h10 : ∀ (p : Fin 256) (H W : Fin 8) (f : Fin 3), y10 (ix4 p H W f) = (∑ k : Fin 32, A (pix t p) H W k * w (ix4 1 0 f k)) + b (ix1 f))
    (h11 : ∀ (p : Fin 256) (H W : Fin 8) (f : Fin 3), y11 (ix4 p H W f) = (∑ k : Fin 32, A (pix t p) H W k * w (ix4 1 1 f k)) + b (ix1 f))
    (p : Fin 256) (Y X : Fin 16) (f : Fin 3) :
    (if X.val % 2 = 0 then
        (if Y.val % 2 = 0 then y00 (ix4 p ⟨Y.val / 2, by have := Y.isLt; omega⟩ ⟨X.val / 2, by have := X.isLt; omega⟩ f)
         else y10 (ix4 p ⟨Y.val / 2, by have := Y.isLt; omega⟩ ⟨X.val / 2, by have := X.isLt; omega⟩ f))
      else
        (if Y.val % 2 = 0 then y01 (ix4 p ⟨Y.val / 2, by have := Y.isLt; omega⟩ ⟨X.val / 2, by have := X.isLt; omega⟩ f)
         else y11 (ix4 p ⟨Y.val / 2, by have := Y.isLt; omega⟩ ⟨X.val / 2, by have := X.isLt; omega⟩ f)))
      = pre3 A w b (pix t p) Y X f := by
  have key : ∀ (a c : Fin 2), a.val = Y.val % 2 → c.val = X.val % 2 →
      (∑ k : Fin 32, A (pix t p) ⟨Y.val / 2, by have := Y.isLt; omega⟩ ⟨X.val / 2, by have := X.isLt; omega⟩ k * w (ix4 a c f k)) + b (ix1 f)
        = pre3 A w b (pix t p) Y X f := by
    intro a c ha hc
    have ea : a = ⟨Y.val % 2, Nat.mod_lt _ (by decide)⟩ := Fin.ext ha
    have ec : c = ⟨X.val % 2, Nat.mod_lt _ (by decide)⟩ := Fin.ext hc
    subst ea; subst ec
    rfl
  by_cases hx : X.val % 2 = 0
  · by_cases hy : Y.val % 2 = 0
    · rw [if_pos hx, if_pos hy, h00]; exact key 0 0 (by show 0 = _; omega) (by show 0 = _; omega)
    · rw [if_pos hx, if_neg hy, h10]; exact key 1 0 (by show 1 = _; omega) (by show 0 = _; omega)
  · by_cases hy : Y.val % 2 = 0
    · rw [if_neg hx, if_pos hy, h01]; exact key 0 1 (by show 0 = _; omega) (by show 1 = _; omega)
    · rw [if_neg hx, if_neg hy, h11]; exact key 1 1 (by show 1 = _; omega) (by show 1 = _; omega)

/-- One product of the step, as the body computes the first two: rows of the cells times a slot, plus the bias,
    regrouped by pixel and cell. -/
theorem pay16_apply (v105 : FVec Ideal S4096x64 .bf16) (v106 : Vec Ideal S32 .f32) (v113 v120 : FVec Ideal S256x4x4x32 .f32)
    (v126 : FVec Ideal S4096x32 .f32) (v128 : Vec Ideal S1x64x32 .bf16)
    (v149 : Vec Ideal S3 .f32) (v150 : Vec Ideal S1x32x3 .bf16) (p : Fin 256) (H W : Fin 8) (f : Fin 3) :
    k0_pay16 (F := Ideal) v105 v106 v113 v120 v126 v128 v149 v150 (ix4 p H W f)
      = (∑ k : Fin 32, k0_pay15 (F := Ideal) v105 v106 v113 v120 v126 v128
            (ix2 ⟨p.val * 64 + H.val * 8 + W.val, by have := p.isLt; have := H.isLt; have := W.isLt; omega⟩ k) * v150 (ix3 (0 : Fin 1) k f))
          + v149 (ix1 f) := by
  unfold k0_pay16
  exact Layout3.product_apply _ v150 v149 _ _ _ _ p H W f

/-- The second product has the first one's text. -/
theorem pay17_eq : @k0_pay17 Ideal _ = @k0_pay16 Ideal _ := rfl

/-- The third product arrives as the bare product of the rows with its slot: entry (r, f). -/
theorem pay18_apply (v105 : FVec Ideal S4096x64 .bf16) (v106 : Vec Ideal S32 .f32) (v113 v120 : FVec Ideal S256x4x4x32 .f32)
    (v126 : FVec Ideal S4096x32 .f32) (v128 : Vec Ideal S1x64x32 .bf16)
    (v164 : Vec Ideal S1x32x3 .bf16) (r : Fin 16384) (f : Fin 3) :
    k0_pay18 (F := Ideal) v105 v106 v113 v120 v126 v128 v164 (ix2 r f)
      = ∑ k : Fin 32, k0_pay15 (F := Ideal) v105 v106 v113 v120 v126 v128 (ix2 r k) * v164 (ix3 (0 : Fin 1) k f) := by
  unfold k0_pay18
  exact Layout3.mm_apply _ v164 _ r f

/-- The bias broadcast down the 16384 rows: entry (r, f) is the bias at f. -/
theorem pay19_apply (v149 : Vec Ideal S3 .f32) (r : Fin 16384) (f : Fin 3) :
    k0_pay19 (F := Ideal) v149 (ix2 r f) = v149 (ix1 f) := by
  unfold k0_pay19
  exact Cert.Decoder.Lib.bias_rows_apply 16384 3 v149 _ _ r f

/-- The step's result in the body: the third product with its bias, the fourth product, the interleaving, each pixel's
    picture along one row, and the logistic function. -/
theorem pay1_apply (t : Fin 64) (A : Fin 16384 → Fin 8 → Fin 8 → Fin 32 → EReal) (w : Arr4 2 2 3 32) (b : Arr1 3)
    (v148 : FVec Ideal S16384x32 .bf16) (v149 : Vec Ideal S3 .f32) (v156 v163 : FVec Ideal S256x8x8x3 .f32)
    (v166 v168 : FVec Ideal S16384x3 .f32) (v171 : Vec Ideal S1x32x3 .bf16)
    (hx : ∀ (p : Fin 256) (H W : Fin 8) (k : Fin 32),
      v148 (ix2 ⟨p.val * 64 + H.val * 8 + W.val, by have := p.isLt; have := H.isLt; have := W.isLt; omega⟩ k) = A (pix t p) H W k)
    (h149 : ∀ f : Fin 3, v149 (ix1 f) = b (ix1 f))
    (h156 : ∀ (p : Fin 256) (H W : Fin 8) (f : Fin 3), v156 (ix4 p H W f) = (∑ k : Fin 32, A (pix t p) H W k * w (ix4 0 0 f k)) + b (ix1 f))
    (h163 : ∀ (p : Fin 256) (H W : Fin 8) (f : Fin 3), v163 (ix4 p H W f) = (∑ k : Fin 32, A (pix t p) H W k * w (ix4 0 1 f k)) + b (ix1 f))
    (h166 : ∀ (p : Fin 256) (H W : Fin 8) (f : Fin 3),
      v166 (ix2 ⟨p.val * 64 + H.val * 8 + W.val, by have := p.isLt; have := H.isLt; have := W.isLt; omega⟩ f) = ∑ k : Fin 32, A (pix t p) H W k * w (ix4 1 0 f k))
    (h168 : ∀ (r : Fin 16384) (f : Fin 3), v168 (ix2 r f) = b (ix1 f))
    (h171 : ∀ (k : Fin 32) (f : Fin 3), v171 (ix3 (0 : Fin 1) k f) = w (ix4 1 1 f k))
    (p : Fin 256) (q : Fin 768) :
    k0_pay1 (F := Ideal) v148 v149 v156 v163 v166 v168 v171 (ix2 p q)
      = Ideal.logistic (pre3 A w b (pix t p) ⟨q.val / 48, by have := q.isLt; omega⟩ ⟨q.val / 3 % 16, by omega⟩ ⟨q.val % 3, by omega⟩) := by
  unfold k0_pay1
  refine (logistic_apply _ _).trans (congrArg Ideal.logistic ?_)
  refine (Layout3.lanes_apply _ _ p q).trans ?_
  refine (Layout3.interleave_apply v156 v163 _ _ _ _ _ _ _ _ _ _ _ _ p _ _ _).trans ?_
  refine interleaved_eq t A w b v156 v163 _ _ h156 h163 (fun p H W f => ?_) (fun p H W f => ?_) p _ _ _
  · exact (Layout3.unflat_apply (addf v166 v168) _ p H W f).trans (by rw [addf_apply, h166, h168])
  · refine (Layout3.product_apply v148 v171 v149 _ _ _ _ p H W f).trans ?_
    rw [h149]
    exact congrArg (· + b (ix1 f)) (Finset.sum_congr rfl fun k _ => by rw [hx, h171])

end Cert.Decoder.Stage3

end
-- ==== Proof.KernelBlock.lean ====
/-
  What the kernel body leaves in its output block, entry by entry: the decoder's picture of the block's pixels.

  The body's value is a tower: the three dense rows of each pixel regrouped into cells, then three doubling steps, each
  consuming the previous one's rows. Going up the tower, every finished storey is replaced by a name together with
  what its entries are, so that each step is stated over small terms.
-/
import proofs.«118323_j87299505258574_2_alg».proof.Proof.Gen.KernelIdeal.Frame
import proofs.«118323_j87299505258574_2_alg».proof.Proof.Spec
import proofs.«118323_j87299505258574_2_alg».proof.Proof.KernelCell
import proofs.«118323_j87299505258574_2_alg».proof.Proof.Stage1
import proofs.«118323_j87299505258574_2_alg».proof.Proof.Stage2
import proofs.«118323_j87299505258574_2_alg».proof.Proof.Stage3

noncomputable section

namespace Cert.Decoder.Kernel

open Idealize.ShloMosaic Idealize.ShloMosaic.ValueIdx Cert.KernelIdeal Cert.KernelIdeal.Gen Cert.Decoder

/-- A load of slot i of a stack of matrices, as a one-slot stack, reads at (0, k, f) the stack at (i, k, f). -/
theorem ld_slot_apply {e : EltTy} (N K F : Nat) (x : Vec Ideal ⟨3, ![N, K, F]⟩ e) (i : Fin N)
    (inb : ∀ a, (![i.val, 0, 0] : Fin 3 → Nat) a + (![1, K, F] : Fin 3 → Nat) a ≤ (⟨3, ![N, K, F]⟩ : Shape).size a)
    (k : Fin K) (f : Fin F) :
    View.ld x (Rect.unit (s := ⟨3, ![N, K, F]⟩) ![i.val, 0, 0] ![1, K, F] inb) (ix3 (0 : Fin 1) k f) = x (ix3 i k f) :=
  congrArg x (funext fun a => Fin.ext (by
    match a with
    | ⟨0, _⟩ => show i.val + 1 * 0 = i.val; omega
    | ⟨1, _⟩ => show 0 + 1 * k.val = k.val; omega
    | ⟨2, _⟩ => show 0 + 1 * f.val = f.val; omega))

/-- Block t of the grid holds pixels 256·t … 256·t + 255. If the three input blocks are those rows of the three inputs, the
    dense operands are the dense weights, and slot i of each stage's matrices is the weight array at the parities
    (i / 2, i % 2) with its last two axes exchanged, then entry (p, q) of the body's output block is the picture of pixel
    256·t + p at row q / 48, column q / 3 % 16, channel q % 3. -/
theorem out_block (t : Fin 64) (X0 X1 X2 : Arr2 16384 512) (P : Params)
    (x0 x1 x2 : Vec Ideal S256x512 .f32) (x3 : Vec Ideal S512x512 .bf16) (x4 : Vec Ideal S512 .f32)
    (x5 : Vec Ideal S4x384x64 .bf16) (x6 : Vec Ideal S64 .f32) (x7 : Vec Ideal S4x64x32 .bf16) (x8 : Vec Ideal S32 .f32)
    (x9 : Vec Ideal S4x32x3 .bf16) (x10 : Vec Ideal S3 .f32)
    (h0 : ∀ (p : Fin 256) (k : Fin 512), x0 (ix2 p k) = X0 (ix2 ⟨256 * t.val + p.val, by have := t.isLt; have := p.isLt; omega⟩ k))
    (h1 : ∀ (p : Fin 256) (k : Fin 512), x1 (ix2 p k) = X1 (ix2 ⟨256 * t.val + p.val, by have := t.isLt; have := p.isLt; omega⟩ k))
    (h2 : ∀ (p : Fin 256) (k : Fin 512), x2 (ix2 p k) = X2 (ix2 ⟨256 * t.val + p.val, by have := t.isLt; have := p.isLt; omega⟩ k))
    (h3 : ∀ (k j : Fin 512), x3 (ix2 k j) = P.W (ix2 k j))
    (h4 : ∀ j : Fin 512, x4 (ix1 j) = P.b (ix1 j))
    (h5 : ∀ (i : Fin 4) (k : Fin 384) (f : Fin 64), x5 (ix3 i k f) = P.w1 (ix4 ⟨i.val / 2, by have := i.isLt; omega⟩ ⟨i.val % 2, by omega⟩ f k))
    (h6 : ∀ f : Fin 64, x6 (ix1 f) = P.b1 (ix1 f))
    (h7 : ∀ (i : Fin 4) (k : Fin 64) (f : Fin 32), x7 (ix3 i k f) = P.w2 (ix4 ⟨i.val / 2, by have := i.isLt; omega⟩ ⟨i.val % 2, by omega⟩ f k))
    (h8 : ∀ f : Fin 32, x8 (ix1 f) = P.b2 (ix1 f))
    (h9 : ∀ (i : Fin 4) (k : Fin 32) (f : Fin 3), x9 (ix3 i k f) = P.w3 (ix4 ⟨i.val / 2, by have := i.isLt; omega⟩ ⟨i.val % 2, by omega⟩ f k))
    (h10 : ∀ f : Fin 3, x10 (ix1 f) = P.b3 (ix1 f))
    (p : Fin 256) (q : Fin 768) :
    out0_11 (F := Ideal) x0 x1 x2 x3 x4 x5 x6 x7 x8 x9 x10 (ix2 p q)
      = out X0 X1 X2 P ⟨256 * t.val + p.val, by have := t.isLt; have := p.isLt; omega⟩
          ⟨q.val / 48, by have := q.isLt; omega⟩ ⟨q.val / 3 % 16, by omega⟩ ⟨q.val % 3, by omega⟩ := by
  have hz2 : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_11
  rw [View.canon_unit_zero hz2]
  rw [View.ld_unit_zero (S := S256x512) hz2 _ x0, View.ld_unit_zero (S := S256x512) hz2 _ x1, View.ld_unit_zero (S := S256x512) hz2 _ x2,
    View.ld_unit_zero (S := S512x512) hz2 _ x3, View.ld_unit_zero (S := S512) hz1 _ x4, View.ld_unit_zero (S := S64) hz1 _ x6,
    View.ld_unit_zero (S := S32) hz1 _ x8, View.ld_unit_zero (S := S3) hz1 _ x10]
  -- the cells
  have F7 := KernelCell.cell_block t X0 X1 X2 P.W P.b x0 x1 x2 x3 x4 h0 h1 h2 h3 h4
  -- step 1: the first three products
  have F8 : ∀ (p : Fin 256) (H W : Fin 2) (f : Fin 64),
      k0_pay8 (F := Ideal) (k0_pay2 x0 x3 x4) (k0_pay3 x1 x3 x4) (k0_pay4 x2 x3 x4) (k0_pay5 x0 x3 x4) (k0_pay6 x1 x3 x4) x6 (View.ld x5 r0_4) (ix4 p H W f)
        = (∑ k : Fin 384, cell X0 X1 X2 P.W P.b (Stage1.pix t p) H W k * P.w1 (ix4 0 0 f k)) + P.b1 (ix1 f) := fun p H W f =>
    (Stage1.pay8_apply _ _ _ _ _ _ _ p H W f).trans (by
      rw [h6]
      exact congrArg (· + P.b1 (ix1 f)) (Finset.sum_congr rfl fun k _ => by
        rw [F7]; exact congrArg₂ (· * ·) rfl ((ld_slot_apply 4 384 64 x5 0 _ k f).trans (h5 0 k f))))
  have F9 : ∀ (p : Fin 256) (H W : Fin 2) (f : Fin 64),
      k0_pay9 (F := Ideal) (k0_pay2 x0 x3 x4) (k0_pay3 x1 x3 x4) (k0_pay4 x2 x3 x4) (k0_pay5 x0 x3 x4) (k0_pay6 x1 x3 x4) x6 (View.ld x5 r0_5) (ix4 p H W f)
        = (∑ k : Fin 384, cell X0 X1 X2 P.W P.b (Stage1.pix t p) H W k * P.w1 (ix4 0 1 f k)) + P.b1 (ix1 f) := fun p H W f =>
    (Stage1.pay8_apply _ _ _ _ _ _ _ p H W f).trans (by
      rw [h6]
      exact congrArg (· + P.b1 (ix1 f)) (Finset.sum_congr rfl fun k _ => by
        rw [F7]; exact congrArg₂ (· * ·) rfl ((ld_slot_apply 4 384 64 x5 1 _ k f).trans (h5 1 k f))))
  have F10 : ∀ (p : Fin 256) (H W : Fin 2) (f : Fin 64),
      k0_pay10 (F := Ideal) (k0_pay2 x0 x3 x4) (k0_pay3 x1 x3 x4) (k0_pay4 x2 x3 x4) (k0_pay5 x0 x3 x4) (k0_pay6 x1 x3 x4) x6 (View.ld x5 r0_6) (ix4 p H W f)
        = (∑ k : Fin 384, cell X0 X1 X2 P.W P.b (Stage1.pix t p) H W k * P.w1 (ix4 1 0 f k)) + P.b1 (ix1 f) := fun p H W f =>
    (Stage1.pay8_apply _ _ _ _ _ _ _ p H W f).trans (by
      rw [h6]
      exact congrArg (· + P.b1 (ix1 f)) (Finset.sum_congr rfl fun k _ => by
        rw [F7]; exact congrArg₂ (· * ·) rfl ((ld_slot_apply 4 384 64 x5 2 _ k f).trans (h5 2 k f))))
  generalize k0_pay7 (F := Ideal) (k0_pay2 x0 x3 x4) (k0_pay3 x1 x3 x4) (k0_pay4 x2 x3 x4) (k0_pay5 x0 x3 x4) (k0_pay6 x1 x3 x4) = c7 at F7 ⊢
  generalize k0_pay8 (F := Ideal) (k0_pay2 x0 x3 x4) (k0_pay3 x1 x3 x4) (k0_pay4 x2 x3 x4) (k0_pay5 x0 x3 x4) (k0_pay6 x1 x3 x4) x6 (View.ld x5 r0_4) = y10 at F8 ⊢
  generalize k0_pay9 (F := Ideal) (k0_pay2 x0 x3 x4) (k0_pay3 x1 x3 x4) (k0_pay4 x2 x3 x4) (k0_pay5 x0 x3 x4) (k0_pay6 x1 x3 x4) x6 (View.ld x5 r0_5) = y11 at F9 ⊢
  generalize k0_pay10 (F := Ideal) (k0_pay2 x0 x3 x4) (k0_pay3 x1 x3 x4) (k0_pay4 x2 x3 x4) (k0_pay5 x0 x3 x4) (k0_pay6 x1 x3 x4) x6 (View.ld x5 r0_6) = y12 at F10 ⊢
  -- step 1: the rectified 4×4 grids
  have F11 : ∀ (p : Fin 256) (Y X : Fin 4) (f : Fin 64),
      k0_pay11 (F := Ideal) c7 x6 y10 y11 y12 (View.ld x5 r0_7) (ix2 ⟨p.val * 16 + Y.val * 4 + X.val, by have := p.isLt; have := Y.isLt; have := X.isLt; omega⟩ f)
        = act1 X0 X1 X2 P (Stage1.pix t p) Y X f := fun p Y X f =>
    Stage1.pay11_apply t (cell X0 X1 X2 P.W P.b) P.w1 P.b1 c7 x6 y10 y11 y12 _ F7 h6 F8 F9 F10
      (fun k f => (ld_slot_apply 4 384 64 x5 3 _ k f).trans (h5 3 k f)) p Y X f
  -- step 2: the first three products
  have F12 : ∀ (p : Fin 256) (H W : Fin 4) (f : Fin 32),
      k0_pay12 (F := Ideal) c7 x6 y10 y11 y12 (View.ld x5 r0_7) x8 (View.ld x7 r0_9) (ix4 p H W f)
        = (∑ k : Fin 64, act1 X0 X1 X2 P (Stage1.pix t p) H W k * P.w2 (ix4 0 0 f k)) + P.b2 (ix1 f) := fun p H W f =>
    (Stage2.pay12_apply _ _ _ _ _ _ _ _ p H W f).trans (by
      rw [h8]
      exact congrArg (· + P.b2 (ix1 f)) (Finset.sum_congr rfl fun k _ => by
        rw [F11]; exact congrArg₂ (· * ·) rfl ((ld_slot_apply 4 64 32 x7 0 _ k f).trans (h7 0 k f))))
  have F13 : ∀ (p : Fin 256) (H W : Fin 4) (f : Fin 32),
      k0_pay13 (F := Ideal) c7 x6 y10 y11 y12 (View.ld x5 r0_7) x8 (View.ld x7 r0_10) (ix4 p H W f)
        = (∑ k : Fin 64, act1 X0 X1 X2 P (Stage1.pix t p) H W k * P.w2 (ix4 0 1 f k)) + P.b2 (ix1 f) := fun p H W f =>
    (Stage2.pay12_apply _ _ _ _ _ _ _ _ p H W f).trans (by
      rw [h8]
      exact congrArg (· + P.b2 (ix1 f)) (Finset.sum_congr rfl fun k _ => by
        rw [F11]; exact congrArg₂ (· * ·) rfl ((ld_slot_apply 4 64 32 x7 1 _ k f).trans (h7 1 k f))))
  have F14 : ∀ (p : Fin 256) (H W : Fin 4) (f : Fin 32),
      k0_pay14 (F := Ideal) c7 x6 y10 y11 y12 (View.ld x5 r0_7) x8 (View.ld x7 r0_11) (ix2 ⟨p.val * 16 + H.val * 4 + W.val, by have := p.isLt; have := H.isLt; have := W.isLt; omega⟩ f)
        = (∑ k : Fin 64, act1 X0 X1 X2 P (Stage1.pix t p) H W k * P.w2 (ix4 1 0 f k)) + P.b2 (ix1 f) := fun p H W f =>
    (Stage2.pay14_apply _ _ _ _ _ _ _ _ _ f).trans (by
      rw [h8]
      exact congrArg (· + P.b2 (ix1 f)) (Finset.sum_congr rfl fun k _ => by
        rw [F11]; exact congrArg₂ (· * ·) rfl ((ld_slot_apply 4 64 32 x7 2 _ k f).trans (h7 2 k f))))
  generalize k0_pay12 (F := Ideal) c7 x6 y10 y11 y12 (View.ld x5 r0_7) x8 (View.ld x7 r0_9) = y20 at F12 ⊢
  generalize k0_pay13 (F := Ideal) c7 x6 y10 y11 y12 (View.ld x5 r0_7) x8 (View.ld x7 r0_10) = y21 at F13 ⊢
  generalize k0_pay14 (F := Ideal) c7 x6 y10 y11 y12 (View.ld x5 r0_7) x8 (View.ld x7 r0_11) = y22 at F14 ⊢
  generalize k0_pay11 (F := Ideal) c7 x6 y10 y11 y12 (View.ld x5 r0_7) = a1 at F11 ⊢
  -- step 2: the rectified 8×8 grids
  have F15 : ∀ (p : Fin 256) (Y X : Fin 8) (f : Fin 32),
      k0_pay15 (F := Ideal) a1 x8 y20 y21 y22 (View.ld x7 r0_12) (ix2 ⟨p.val * 64 + Y.val * 8 + X.val, by have := p.isLt; have := Y.isLt; have := X.isLt; omega⟩ f)
        = act2 X0 X1 X2 P (Stage1.pix t p) Y X f := fun p Y X f =>
    Stage2.pay15_apply t (act1 X0 X1 X2 P) P.w2 P.b2 a1 x8 y20 y21 y22 _ F11 h8 F12 F13 F14
      (fun k f => (ld_slot_apply 4 64 32 x7 3 _ k f).trans (h7 3 k f)) p Y X f
  -- step 3: the first two products, the third one's sum, the bias row
  have F16 : ∀ (p : Fin 256) (H W : Fin 8) (f : Fin 3),
      k0_pay16 (F := Ideal) a1 x8 y20 y21 y22 (View.ld x7 r0_12) x10 (View.ld x9 r0_14) (ix4 p H W f)
        = (∑ k : Fin 32, act2 X0 X1 X2 P (Stage1.pix t p) H W k * P.w3 (ix4 0 0 f k)) + P.b3 (ix1 f) := fun p H W f =>
    (Stage3.pay16_apply _ _ _ _ _ _ _ _ p H W f).trans (by
      rw [h10]
      exact congrArg (· + P.b3 (ix1 f)) (Finset.sum_congr rfl fun k _ => by
        rw [F15]; exact congrArg₂ (· * ·) rfl ((ld_slot_apply 4 32 3 x9 0 _ k f).trans (h9 0 k f))))
  have F17 : ∀ (p : Fin 256) (H W : Fin 8) (f : Fin 3),
      k0_pay17 (F := Ideal) a1 x8 y20 y21 y22 (View.ld x7 r0_12) x10 (View.ld x9 r0_15) (ix4 p H W f)
        = (∑ k : Fin 32, act2 X0 X1 X2 P (Stage1.pix t p) H W k * P.w3 (ix4 0 1 f k)) + P.b3 (ix1 f) := fun p H W f =>
    (Stage3.pay16_apply _ _ _ _ _ _ _ _ p H W f).trans (by
      rw [h10]
      exact congrArg (· + P.b3 (ix1 f)) (Finset.sum_congr rfl fun k _ => by
        rw [F15]; exact congrArg₂ (· * ·) rfl ((ld_slot_apply 4 32 3 x9 1 _ k f).trans (h9 1 k f))))
  have F18 : ∀ (p : Fin 256) (H W : Fin 8) (f : Fin 3),
      k0_pay18 (F := Ideal) a1 x8 y20 y21 y22 (View.ld x7 r0_12) (View.ld x9 r0_16) (ix2 ⟨p.val * 64 + H.val * 8 + W.val, by have := p.isLt; have := H.isLt; have := W.isLt; omega⟩ f)
        = ∑ k : Fin 32, act2 X0 X1 X2 P (Stage1.pix t p) H W k * P.w3 (ix4 1 0 f k) := fun p H W f =>
    (Stage3.pay18_apply _ _ _ _ _ _ _ _ f).trans (Finset.sum_congr rfl fun k _ => by
      rw [F15]; exact congrArg₂ (· * ·) rfl ((ld_slot_apply 4 32 3 x9 2 _ k f).trans (h9 2 k f)))
  have F19 : ∀ (r : Fin 16384) (f : Fin 3), k0_pay19 (F := Ideal) x10 (ix2 r f) = P.b3 (ix1 f) := fun r f =>
    (Stage3.pay19_apply x10 r f).trans (h10 f)
  generalize k0_pay16 (F := Ideal) a1 x8 y20 y21 y22 (View.ld x7 r0_12) x10 (View.ld x9 r0_14) = y30 at F16 ⊢
  generalize k0_pay17 (F := Ideal) a1 x8 y20 y21 y22 (View.ld x7 r0_12) x10 (View.ld x9 r0_15) = y31 at F17 ⊢
  generalize k0_pay18 (F := Ideal) a1 x8 y20 y21 y22 (View.ld x7 r0_12) (View.ld x9 r0_16) = m3 at F18 ⊢
  generalize k0_pay19 (F := Ideal) x10 = b3v at F19 ⊢
  generalize k0_pay15 (F := Ideal) a1 x8 y20 y21 y22 (View.ld x7 r0_12) = a2 at F15 ⊢
  -- step 3: the pictures
  exact Stage3.pay1_apply t (act2 X0 X1 X2 P) P.w3 P.b3 a2 x10 y30 y31 m3 b3v _ F15 h10 F16 F17 F18 F19
    (fun k f => (ld_slot_apply 4 32 3 x9 3 _ k f).trans (h9 3 k f)) p q

end Cert.Decoder.Kernel

end
-- ==== Proof.RunHost.lean ====
/-
  The arrays the kernel's region finds, read off the host operations before it: the three inputs' pixels as rows, the dense
  matrix unchanged (a change of format is the identity on the extended reals), and each stage's weight array with its last
  two axes exchanged and its first two merged, read entry by entry.
-/
import proofs.«118323_j87299505258574_2_alg».proof.Proof.KernelBlock
import Idealize.ShloMosaic.Lib.Pipeline.Value
import Idealize.ShloMosaic.Lib.Tactic

noncomputable section

namespace Cert.Decoder.Run

open Idealize.ShloMosaic Idealize.ShloMosaic.TcCoe Idealize.SL.Sem Idealize.ShloMosaic.ValueIdx
open Idealize.ShloMosaic.Pipeline (Dat)
open Cert.KernelIdeal Cert.KernelIdeal.Gen Cert.Decoder

variable (m : (ℓ : Loc nD τ sig) → Buf (Elt Ideal) ℓ) (ρ : Dev nD → PrngReg)

/-- A weight array [2, 2, F, K] with its last two axes exchanged and its first two merged, read at (i, k, f): the entry
    (i / 2, i % 2, f, k) — the slot i of the merged axis is the pair of parities (i / 2, i % 2) in row-major order. -/
theorem relaid_apply {K Fo : Nat} (w : (⟨4, ![2, 2, Fo, K]⟩ : Shape).Idx → EReal)
    (hT : (⟨4, ![2, 2, Fo, K]⟩ : Shape).Transposes [0, 1, 3, 2] ⟨4, ![2, 2, K, Fo]⟩)
    (hC : (⟨4, ![2, 2, K, Fo]⟩ : Shape).ShapeCasts ⟨3, ![4, K, Fo]⟩)
    (i : Fin 4) (k : Fin K) (f : Fin Fo) :
    shapeCast (⟨3, ![4, K, Fo]⟩ : Shape) (transpose (⟨4, ![2, 2, K, Fo]⟩ : Shape) [0, 1, 3, 2] w hT) hC (ix3 i k f)
      = w (ix4 ⟨i.val / 2, by have := i.isLt; omega⟩ ⟨i.val % 2, by omega⟩ f k) := by
  refine (shapeCast_apply _ hC (ix3 i k f) (ix4 ⟨i.val / 2, by have := i.isLt; omega⟩ ⟨i.val % 2, by omega⟩ k f) ?_).trans ?_
  · rw [Shape.rowMajor_val_four, Shape.rowMajor_val_three]
    show ((i.val / 2 * 2 + i.val % 2) * K + k.val) * Fo + f.val = (i.val * K + k.val) * Fo + f.val
    have : i.val / 2 * 2 + i.val % 2 = i.val := by omega
    rw [this]
  · refine transpose_apply _ w hT _ _ ?_
    intro b
    match b with
    | ⟨0, _⟩ => rfl
    | ⟨1, _⟩ => rfl
    | ⟨2, _⟩ => rfl
    | ⟨3, _⟩ => rfl

/-- The array the region finds in the reshaped copy of argument 0: the argument's pixels as rows. -/
theorem V_v0 (c : Dev nD) : (V m c main_v0 : S16384x512.Idx → EReal)
    = shapeCast _ (m ((c : Thread nD τ).loc main_arg0) : S16x32x32x512.Idx → EReal) casts_in := by
  show StableHlo.after hostOps0 (fun b => m (c, b)) (Proc.devRef .tc main_v0) = _
  after_results
  rfl

/-- The array the region finds in the reshaped copy of argument 1: the argument's pixels as rows. -/
theorem V_v1 (c : Dev nD) : (V m c main_v1 : S16384x512.Idx → EReal)
    = shapeCast _ (m ((c : Thread nD τ).loc main_arg1) : S16x32x32x512.Idx → EReal) casts_in := by
  show StableHlo.after hostOps0 (fun b => m (c, b)) (Proc.devRef .tc main_v1) = _
  after_results
  rfl

/-- The array the region finds in the reshaped copy of argument 2: the argument's pixels as rows. -/
theorem V_v2 (c : Dev nD) : (V m c main_v2 : S16384x512.Idx → EReal)
    = shapeCast _ (m ((c : Thread nD τ).loc main_arg2) : S16x32x32x512.Idx → EReal) casts_in := by
  show StableHlo.after hostOps0 (fun b => m (c, b)) (Proc.devRef .tc main_v2) = _
  after_results
  rfl

/-- The dense matrix the region finds is argument 3: the change of format is the identity on the extended reals. -/
theorem V_v3 (c : Dev nD) : (V m c main_v3 : S512x512.Idx → EReal)
    = (m ((c : Thread nD τ).loc main_arg3) : S512x512.Idx → EReal) := by
  show StableHlo.after hostOps0 (fun b => m (c, b)) (Proc.devRef .tc main_v3) = _
  after_results
  rfl

/-- The array the region finds in the re-laid copy of argument 5: the argument with its last two axes exchanged and its
    first two merged. -/
theorem V_v6 (c : Dev nD) : (V m c main_v6 : S4x384x64.Idx → EReal)
    = shapeCast S4x384x64 (transpose S2x2x384x64 [0, 1, 3, 2] (m ((c : Thread nD τ).loc main_arg5) : S2x2x64x384.Idx → EReal) transposes_S2x2x64x384_S2x2x384x64_0_1_3_2) shapeCasts_S2x2x384x64_S4x384x64 := by
  show StableHlo.after hostOps0 (fun b => m (c, b)) (Proc.devRef .tc main_v6) = _
  after_results
  rfl

/-- Read at (i, k, f): the argument's entry (i / 2, i % 2, f, k). -/
theorem V_v6_apply (c : Dev nD) (i : Fin 4) (k : Fin 384) (f : Fin 64) :
    (V m c main_v6 : S4x384x64.Idx → EReal) (ix3 i k f)
      = (m ((c : Thread nD τ).loc main_arg5) : S2x2x64x384.Idx → EReal) (ix4 ⟨i.val / 2, by have := i.isLt; omega⟩ ⟨i.val % 2, by omega⟩ f k) := by
  rw [V_v6]
  exact relaid_apply _ _ _ i k f

/-- The array the region finds in the re-laid copy of argument 7: the argument with its last two axes exchanged and its
    first two merged. -/
theorem V_v9 (c : Dev nD) : (V m c main_v9 : S4x64x32.Idx → EReal)
    = shapeCast S4x64x32 (transpose S2x2x64x32 [0, 1, 3, 2] (m ((c : Thread nD τ).loc main_arg7) : S2x2x32x64.Idx → EReal) transposes_S2x2x32x64_S2x2x64x32_0_1_3_2) shapeCasts_S2x2x64x32_S4x64x32 := by
  show StableHlo.after hostOps0 (fun b => m (c, b)) (Proc.devRef .tc main_v9) = _
  after_results
  rfl

/-- Read at (i, k, f): the argument's entry (i / 2, i % 2, f, k). -/
theorem V_v9_apply (c : Dev nD) (i : Fin 4) (k : Fin 64) (f : Fin 32) :
    (V m c main_v9 : S4x64x32.Idx → EReal) (ix3 i k f)
      = (m ((c : Thread nD τ).loc main_arg7) : S2x2x32x64.Idx → EReal) (ix4 ⟨i.val / 2, by have := i.isLt; omega⟩ ⟨i.val % 2, by omega⟩ f k) := by
  rw [V_v9]
  exact relaid_apply _ _ _ i k f

/-- The array the region finds in the re-laid copy of argument 9: the argument with its last two axes exchanged and its
    first two merged. -/
theorem V_v12 (c : Dev nD) : (V m c main_v12 : S4x32x3.Idx → EReal)
    = shapeCast S4x32x3 (transpose S2x2x32x3 [0, 1, 3, 2] (m ((c : Thread nD τ).loc main_arg9) : S2x2x3x32.Idx → EReal) transposes_S2x2x3x32_S2x2x32x3_0_1_3_2) shapeCasts_S2x2x32x3_S4x32x3 := by
  show StableHlo.after hostOps0 (fun b => m (c, b)) (Proc.devRef .tc main_v12) = _
  after_results
  rfl

/-- Read at (i, k, f): the argument's entry (i / 2, i % 2, f, k). -/
theorem V_v12_apply (c : Dev nD) (i : Fin 4) (k : Fin 32) (f : Fin 3) :
    (V m c main_v12 : S4x32x3.Idx → EReal) (ix3 i k f)
      = (m ((c : Thread nD τ).loc main_arg9) : S2x2x3x32.Idx → EReal) (ix4 ⟨i.val / 2, by have := i.isLt; omega⟩ ⟨i.val % 2, by omega⟩ f k) := by
  rw [V_v12]
  exact relaid_apply _ _ _ i k f

end Cert.Decoder.Run

end
-- ==== Proof.RunBlocks.lean ====
/-
  Each block of the kernel's grid, read entry by entry. Block t of the 64 holds pixels 256·t … 256·t + 255: the three
  input windows' blocks are those rows of the inputs, the eight weight windows' blocks are the whole weight arrays, and
  what the body leaves in the output window's block is those rows of the array [16384, 768] of all pixels' pictures,
  a picture's (row, column, channel) flattened along the second axis.
-/
import proofs.«118323_j87299505258574_2_alg».proof.Proof.RunHost

noncomputable section

namespace Cert.Decoder.Run

open Idealize.ShloMosaic Idealize.ShloMosaic.TcCoe Idealize.SL.Sem Idealize.ShloMosaic.ValueIdx
open Idealize.ShloMosaic.Pipeline (Dat)
open Cert.KernelIdeal Cert.KernelIdeal.Gen Cert.Decoder

variable (m : (ℓ : Loc nD τ sig) → Buf (Elt Ideal) ℓ) (ρ : Dev nD → PrngReg)

/-- A point of the grid as a number below 64. -/
theorem pt_lt (t : Fin cfg0.N) : t.val < 64 := Nat.lt_of_lt_of_eq t.isLt (N_0 : cfg0.N = 64)

def pt (t : Fin cfg0.N) : Fin 64 := ⟨t.val, pt_lt t⟩

/-! ## Where each window's block sits: the index maps over the grid -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 1) = 0 :=
  (by decide +kernel : ∀ t : Fin grid0.N, _)

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idx6 : ∀ t : Fin cfg0.N, win0_6.index t (0 : Fin 1) = 0 :=
  (by decide +kernel : ∀ t : Fin grid0.N, _)

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem idx8 : ∀ t : Fin cfg0.N, win0_8.index t (0 : Fin 1) = 0 :=
  (by decide +kernel : ∀ t : Fin grid0.N, _)

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem idx10 : ∀ t : Fin cfg0.N, win0_10.index t (0 : Fin 1) = 0 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

/-! ## The input windows' blocks, read at an index of the array the region finds -/

theorem iblk0_apply (c : Dev nD) (t : Fin cfg0.N) (p : Fin 256) (k : Fin 512) (hn : 256 * t.val + p.val < 16384) :
    (iblk m c 0 t : Vec Ideal S256x512 .f32) (ix2 p k)
      = (V m c main_v0 : S16384x512.Idx → EReal) (ix2 ⟨256 * t.val + p.val, hn⟩ k) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 512 + 1 * k.val = k.val; rw [e1]; omega

theorem iblk1_apply (c : Dev nD) (t : Fin cfg0.N) (p : Fin 256) (k : Fin 512) (hn : 256 * t.val + p.val < 16384) :
    (iblk m c 1 t : Vec Ideal S256x512 .f32) (ix2 p k)
      = (V m c main_v1 : S16384x512.Idx → EReal) (ix2 ⟨256 * t.val + p.val, hn⟩ k) := by
  obtain ⟨e0, e1⟩ := idx1 t
  unfold iblk
  rw [View.read_apply]
  show V m c main_v1 _ = V m c main_v1 _
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 512 + 1 * k.val = k.val; rw [e1]; omega

theorem iblk2_apply (c : Dev nD) (t : Fin cfg0.N) (p : Fin 256) (k : Fin 512) (hn : 256 * t.val + p.val < 16384) :
    (iblk m c 2 t : Vec Ideal S256x512 .f32) (ix2 p k)
      = (V m c main_v2 : S16384x512.Idx → EReal) (ix2 ⟨256 * t.val + p.val, hn⟩ k) := by
  obtain ⟨e0, e1⟩ := idx2 t
  unfold iblk
  rw [View.read_apply]
  show V m c main_v2 _ = V m c main_v2 _
  congr 1
  funext a
  apply Fin.ext
  match a with
  | ⟨0, _⟩ => show win0_2.index t (0 : Fin 2) * 256 + 1 * p.val = 256 * t.val + p.val; rw [e0]; omega
  | ⟨1, _⟩ => show win0_2.index t (1 : Fin 2) * 512 + 1 * k.val = k.val; rw [e1]; omega

theorem iblk3_apply (c : Dev nD) (t : Fin cfg0.N) (p : Fin 512) (k : Fin 512) :
    (iblk m c 3 t : Vec Ideal S512x512 .bf16) (ix2 p k)
      = (V m c main_v3 : S512x512.Idx → EReal) (ix2 p k) := by
  obtain ⟨e0, e1⟩ := idx3 t
  unfold iblk
  rw [View.read_apply]
  show V m c main_v3 _ = V m c main_v3 _
  congr 1
  funext a
  apply Fin.ext
  match a with
  | ⟨0, _⟩ => show win0_3.index t (0 : Fin 2) * 512 + 1 * p.val = p.val; rw [e0]; omega
  | ⟨1, _⟩ => show win0_3.index t (1 : Fin 2) * 512 + 1 * k.val = k.val; rw [e1]; omega

theorem iblk4_apply (c : Dev nD) (t : Fin cfg0.N) (j : Fin 512) :
    (iblk m c 4 t : Vec Ideal S512 .f32) (ix1 j)
      = (V m c main_arg4 : S512.Idx → EReal) (ix1 j) := by
  obtain e0 := idx4 t
  unfold iblk
  rw [View.read_apply]
  show V m c main_arg4 _ = V m c main_arg4 _
  congr 1
  funext a
  apply Fin.ext
  match a with
  | ⟨0, _⟩ => show win0_4.index t (0 : Fin 1) * 512 + 1 * j.val = j.val; rw [e0]; omega

theorem iblk5_apply (c : Dev nD) (t : Fin cfg0.N) (i : Fin 4) (k : Fin 384) (f : Fin 64) :
    (iblk m c 5 t : Vec Ideal S4x384x64 .bf16) (ix3 i k f)
      = (V m c main_v6 : S4x384x64.Idx → EReal) (ix3 i k f) := by
  obtain ⟨e0, e1, e2⟩ := idx5 t
  unfold iblk
  rw [View.read_apply]
  show V m c main_v6 _ = V m c main_v6 _
  congr 1
  funext a
  apply Fin.ext
  match a with
  | ⟨0, _⟩ => show win0_5.index t (0 : Fin 3) * 4 + 1 * i.val = i.val; rw [e0]; omega
  | ⟨1, _⟩ => show win0_5.index t (1 : Fin 3) * 384 + 1 * k.val = k.val; rw [e1]; omega
  | ⟨2, _⟩ => show win0_5.index t (2 : Fin 3) * 64 + 1 * f.val = f.val; rw [e2]; omega

theorem iblk6_apply (c : Dev nD) (t : Fin cfg0.N) (j : Fin 64) :
    (iblk m c 6 t : Vec Ideal S64 .f32) (ix1 j)
      = (V m c main_arg6 : S64.Idx → EReal) (ix1 j) := by
  obtain e0 := idx6 t
  unfold iblk
  rw [View.read_apply]
  show V m c main_arg6 _ = V m c main_arg6 _
  congr 1
  funext a
  apply Fin.ext
  match a with
  | ⟨0, _⟩ => show win0_6.index t (0 : Fin 1) * 64 + 1 * j.val = j.val; rw [e0]; omega

theorem iblk7_apply (c : Dev nD) (t : Fin cfg0.N) (i : Fin 4) (k : Fin 64) (f : Fin 32) :
    (iblk m c 7 t : Vec Ideal S4x64x32 .bf16) (ix3 i k f)
      = (V m c main_v9 : S4x64x32.Idx → EReal) (ix3 i k f) := by
  obtain ⟨e0, e1, e2⟩ := idx7 t
  unfold iblk
  rw [View.read_apply]
  show V m c main_v9 _ = V m c main_v9 _
  congr 1
  funext a
  apply Fin.ext
  match a with
  | ⟨0, _⟩ => show win0_7.index t (0 : Fin 3) * 4 + 1 * i.val = i.val; rw [e0]; omega
  | ⟨1, _⟩ => show win0_7.index t (1 : Fin 3) * 64 + 1 * k.val = k.val; rw [e1]; omega
  | ⟨2, _⟩ => show win0_7.index t (2 : Fin 3) * 32 + 1 * f.val = f.val; rw [e2]; omega

theorem iblk8_apply (c : Dev nD) (t : Fin cfg0.N) (j : Fin 32) :
    (iblk m c 8 t : Vec Ideal S32 .f32) (ix1 j)
      = (V m c main_arg8 : S32.Idx → EReal) (ix1 j) := by
  obtain e0 := idx8 t
  unfold iblk
  rw [View.read_apply]
  show V m c main_arg8 _ = V m c main_arg8 _
  congr 1
  funext a
  apply Fin.ext
  match a with
  | ⟨0, _⟩ => show win0_8.index t (0 : Fin 1) * 32 + 1 * j.val = j.val; rw [e0]; omega

theorem iblk9_apply (c : Dev nD) (t : Fin cfg0.N) (i : Fin 4) (k : Fin 32) (f : Fin 3) :
    (iblk m c 9 t : Vec Ideal S4x32x3 .bf16) (ix3 i k f)
      = (V m c main_v12 : S4x32x3.Idx → EReal) (ix3 i k f) := by
  obtain ⟨e0, e1, e2⟩ := idx9 t
  unfold iblk
  rw [View.read_apply]
  show V m c main_v12 _ = V m c main_v12 _
  congr 1
  funext a
  apply Fin.ext
  match a with
  | ⟨0, _⟩ => show win0_9.index t (0 : Fin 3) * 4 + 1 * i.val = i.val; rw [e0]; omega
  | ⟨1, _⟩ => show win0_9.index t (1 : Fin 3) * 32 + 1 * k.val = k.val; rw [e1]; omega
  | ⟨2, _⟩ => show win0_9.index t (2 : Fin 3) * 3 + 1 * f.val = f.val; rw [e2]; omega

theorem iblk10_apply (c : Dev nD) (t : Fin cfg0.N) (j : Fin 3) :
    (iblk m c 10 t : Vec Ideal S3 .f32) (ix1 j)
      = (V m c main_arg10 : S3.Idx → EReal) (ix1 j) := by
  obtain e0 := idx10 t
  unfold iblk
  rw [View.read_apply]
  show V m c main_arg10 _ = V m c main_arg10 _
  congr 1
  funext a
  apply Fin.ext
  match a with
  | ⟨0, _⟩ => show win0_10.index t (0 : Fin 1) * 3 + 1 * j.val = j.val; rw [e0]; omega

/-! ## The decoder's arguments on core c, and the array of all pictures -/

/-- The three inputs of core c, as they arrive. -/
abbrev inp0 (c : Dev nD) : In4 := m ((c : Thread nD τ).loc main_arg0)
abbrev inp1 (c : Dev nD) : In4 := m ((c : Thread nD τ).loc main_arg1)
abbrev inp2 (c : Dev nD) : In4 := m ((c : Thread nD τ).loc main_arg2)

/-- An input's pixels as rows. -/
abbrev rows (a : In4) : Arr2 16384 512 := shapeCast _ a casts_in

/-- The weights and biases of core c. -/
abbrev prm (c : Dev nD) : Params :=
  ⟨m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

theorem casts_flat : (⟨4, ![16384, 16, 16, 3]⟩ : Shape).ShapeCasts S16384x768 := by decide

/-- All pixels' pictures as the array [16384, 768] the kernel writes: row n is pixel n's picture with its (row, column,
    channel) flattened in row-major order. -/
def G (X0 X1 X2 : Arr2 16384 512) (P : Params) : S16384x768.Idx → EReal :=
  shapeCast S16384x768 (out4 X0 X1 X2 P) casts_flat

/-- Entry (n, q) of that array: pixel n's picture at row q / 48, column q / 3 % 16, channel q % 3. -/
theorem G_apply (X0 X1 X2 : Arr2 16384 512) (P : Params) (n : Fin 16384) (q : Fin 768) :
    G X0 X1 X2 P (ix2 n q)
      = out X0 X1 X2 P n ⟨q.val / 48, by have := q.isLt; omega⟩ ⟨q.val / 3 % 16, by omega⟩ ⟨q.val % 3, by omega⟩ := by
  unfold G
  refine (shapeCast_apply _ casts_flat (ix2 n q)
    (ix4 n ⟨q.val / 48, by have := q.isLt; omega⟩ ⟨q.val / 3 % 16, by omega⟩ ⟨q.val % 3, by omega⟩) ?_).trans rfl
  rw [Shape.rowMajor_val_four, Shape.rowMajor_val_two]
  show ((n.val * 16 + q.val / 48) * 16 + q.val / 3 % 16) * 3 + q.val % 3 = n.val * 768 + q.val
  omega

/-! ## What a point writes back -/

/-- Entry j of the output block of point t, computed from input blocks that are rows 256·t … of the inputs and the whole
    weight arrays, is the entry of the array of all pictures at row 256·t + j₀ and the same column. -/
theorem block_entry (t : Fin 64) (X0 X1 X2 : Arr2 16384 512) (P : Params)
    (x0 x1 x2 : Vec Ideal S256x512 .f32) (x3 : Vec Ideal S512x512 .bf16) (x4 : Vec Ideal S512 .f32)
    (x5 : Vec Ideal S4x384x64 .bf16) (x6 : Vec Ideal S64 .f32) (x7 : Vec Ideal S4x64x32 .bf16) (x8 : Vec Ideal S32 .f32)
    (x9 : Vec Ideal S4x32x3 .bf16) (x10 : Vec Ideal S3 .f32)
    (h0 : ∀ (p : Fin 256) (k : Fin 512), x0 (ix2 p k) = X0 (ix2 ⟨256 * t.val + p.val, by have := t.isLt; have := p.isLt; omega⟩ k))
    (h1 : ∀ (p : Fin 256) (k : Fin 512), x1 (ix2 p k) = X1 (ix2 ⟨256 * t.val + p.val, by have := t.isLt; have := p.isLt; omega⟩ k))
    (h2 : ∀ (p : Fin 256) (k : Fin 512), x2 (ix2 p k) = X2 (ix2 ⟨256 * t.val + p.val, by have := t.isLt; have := p.isLt; omega⟩ k))
    (h3 : ∀ (k j : Fin 512), x3 (ix2 k j) = P.W (ix2 k j))
    (h4 : ∀ j : Fin 512, x4 (ix1 j) = P.b (ix1 j))
    (h5 : ∀ (i : Fin 4) (k : Fin 384) (f : Fin 64), x5 (ix3 i k f) = P.w1 (ix4 ⟨i.val / 2, by have := i.isLt; omega⟩ ⟨i.val % 2, by omega⟩ f k))
    (h6 : ∀ f : Fin 64, x6 (ix1 f) = P.b1 (ix1 f))
    (h7 : ∀ (i : Fin 4) (k : Fin 64) (f : Fin 32), x7 (ix3 i k f) = P.w2 (ix4 ⟨i.val / 2, by have := i.isLt; omega⟩ ⟨i.val % 2, by omega⟩ f k))
    (h8 : ∀ f : Fin 32, x8 (ix1 f) = P.b2 (ix1 f))
    (h9 : ∀ (i : Fin 4) (k : Fin 32) (f : Fin 3), x9 (ix3 i k f) = P.w3 (ix4 ⟨i.val / 2, by have := i.isLt; omega⟩ ⟨i.val % 2, by omega⟩ f k))
    (h10 : ∀ f : Fin 3, x10 (ix1 f) = P.b3 (ix1 f))
    (j : S256x768.Idx) (i : S16384x768.Idx)
    (hi0 : (i 0).val = 256 * t.val + (j 0).val) (hi1 : (i 1).val = (j 1).val) :
    out0_11 (F := Ideal) x0 x1 x2 x3 x4 x5 x6 x7 x8 x9 x10 j = G X0 X1 X2 P i := by
  obtain ⟨p, q, rfl⟩ : ∃ (p : Fin 256) (q : Fin 768), j = ix2 p q := ⟨j 0, j 1, eq_ix2 j⟩
  have hb : 256 * t.val + p.val < 16384 := by have := t.isLt; have := p.isLt; omega
  obtain ⟨n, q', rfl⟩ : ∃ (n : Fin 16384) (q' : Fin 768), i = ix2 n q' := ⟨i 0, i 1, eq_ix2 i⟩
  obtain rfl : n = ⟨256 * t.val + p.val, hb⟩ := Fin.ext hi0
  obtain rfl : q' = q := Fin.ext hi1
  rw [G_apply]
  exact Cert.Decoder.Kernel.out_block t X0 X1 X2 P x0 x1 x2 x3 x4 x5 x6 x7 x8 x9 x10 h0 h1 h2 h3 h4 h5 h6 h7 h8 h9 h10 p _

/-- What point t writes back to the output array is block t of the array of all pictures of core c's arguments. -/
theorem flushed_eq (c : Dev nD) (t : Fin cfg0.N) :
    (dats m 0 c).flushed 11 t
      = ((cfg0.win 11).blk t).view.read (Elt Ideal) (G (rows (inp0 m c)) (rows (inp1 m c)) (rows (inp2 m c)) (prm m c)) := by
  show (cfg0.win 11).cut (grid0.coords t) ((dats m 0 c).after 11 t) = _
  rw [after0_11]
  obtain ⟨e0, e1⟩ := idx11 t
  funext j
  rw [View.read_apply]
  refine block_entry (pt t) (rows (inp0 m c)) (rows (inp1 m c)) (rows (inp2 m c)) (prm m c)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (fun p k => (iblk0_apply m c t p k (by have := pt_lt t; have := p.isLt; omega)).trans (congrFun (V_v0 m c) _))
    (fun p k => (iblk1_apply m c t p k (by have := pt_lt t; have := p.isLt; omega)).trans (congrFun (V_v1 m c) _))
    (fun p k => (iblk2_apply m c t p k (by have := pt_lt t; have := p.isLt; omega)).trans (congrFun (V_v2 m c) _))
    (fun k j => (iblk3_apply m c t k j).trans (congrFun (V_v3 m c) _))
    (fun j => (iblk4_apply m c t j).trans (congrFun (V_main_arg4 m c) _))
    (fun i k f => (iblk5_apply m c t i k f).trans (V_v6_apply m c i k f))
    (fun f => (iblk6_apply m c t f).trans (congrFun (V_main_arg6 m c) _))
    (fun i k f => (iblk7_apply m c t i k f).trans (V_v9_apply m c i k f))
    (fun f => (iblk8_apply m c t f).trans (congrFun (V_main_arg8 m c) _))
    (fun i k f => (iblk9_apply m c t i k f).trans (V_v12_apply m c i k f))
    (fun f => (iblk10_apply m c t f).trans (congrFun (V_main_arg10 m c) _))
    j (((cfg0.win 11).blk t).view.emb j) ?_ ?_
  · show win0_11.index t (0 : Fin 2) * 256 + 1 * (j 0).val = 256 * t.val + (j 0).val
    rw [e0]; omega
  · show win0_11.index t (1 : Fin 2) * 768 + 1 * (j 1).val = (j 1).val
    rw [e1]; omega

end Cert.Decoder.Run

end
-- ==== Proof.RunArray.lean ====
/-
  From the blocks to the result. Row r of the output array [16384, 768] lies in the block of point r / 256, so the 64
  blocks cover the array, and after the run it is the array of all pixels' pictures. The one host operation after the
  region reshapes it to [16, 32, 32, 16, 16, 3]; a reshape of a reshape is the reshape, so the program's result is the
  decoder's result, and its arguments end as they were launched.
-/
import proofs.«118323_j87299505258574_2_alg».proof.Proof.RunBlocks

noncomputable section

namespace Cert.Decoder.Run

open Idealize.ShloMosaic Idealize.ShloMosaic.TcCoe Idealize.SL.Sem Idealize.ShloMosaic.ValueIdx
open Idealize.ShloMosaic.Pipeline (Dat)
open Cert.KernelIdeal Cert.KernelIdeal.Gen Cert.Decoder

variable (m : (ℓ : Loc nD τ sig) → Buf (Elt Ideal) ℓ) (ρ : Dev nD → PrngReg)

/-! ## The output array after the run -/

/-- An index of the output array is in point t's block iff each coordinate is in the block's range on its axis. -/
theorem mem_blk (t : Fin cfg0.N) (i : S16384x768.Idx) :
    i ∈ ((cfg0.win 11).blk t).view.set ↔ ∀ a : Fin 2, win0_11.index t a * S256x768.size a ≤ (i a).val ∧ (i a).val < win0_11.index t a * S256x768.size a + S256x768.size a := by
  show i ∈ ((View.whole main_v13).slice (win0_11.rect t)).set ↔ _
  rw [View.set_slice_whole, Rect.mem_set_unit]
  exact Iff.rfl

/-- Every index of the output array is in the block of the point its row divided by 256 names. -/
theorem cover (i : S16384x768.Idx) :
    ∃ t : Fin cfg0.N, (cfg0.win 11).flush t = true ∧ i ∈ ((cfg0.win 11).blk t).view.set := by
  have hi0 : (i 0).val < 16384 := (i 0).isLt
  have hi1 : (i 1).val < 768 := (i 1).isLt
  obtain ⟨t, ht⟩ : ∃ t : Fin cfg0.N, t.val = (i 0).val / 256 :=
    ⟨⟨(i 0).val / 256, Nat.lt_of_lt_of_eq (by omega : (i 0).val / 256 < 64) (N_0 : cfg0.N = 64).symm⟩, rfl⟩
  obtain ⟨e0, e1⟩ := idx11 t
  refine ⟨t, flush0_11 t, ?_⟩
  rw [mem_blk]
  intro a
  match a with
  | ⟨0, _⟩ =>
    show win0_11.index t (0 : Fin 2) * 256 ≤ (i 0).val ∧ (i 0).val < win0_11.index t (0 : Fin 2) * 256 + 256
    rw [e0, ht]; omega
  | ⟨1, _⟩ =>
    show win0_11.index t (1 : Fin 2) * 768 ≤ (i 1).val ∧ (i 1).val < win0_11.index t (1 : Fin 2) * 768 + 768
    rw [e1]; omega

/-- After the run the output array is the array of all pictures of core c's arguments. -/
theorem final (c : Dev nD) :
    (dats m 0 c).arrAt 11 cfg0.N = G (rows (inp0 m c)) (rows (inp1 m c)) (rows (inp2 m c)) (prm m c) :=
  (dats m 0 c).arrAt_eq_of_cover 11 (G (rows (inp0 m c)) (rows (inp1 m c)) (rows (inp2 m c)) (prm m c))
    (fun t _ => flushed_eq m c t) cover

/-! ## The reshape after the region -/

/-- The array of all pictures, its pixel axis split into [16, 32, 32] and its flattened axis into [16, 16, 3], is the
    four-axis array of pictures reshaped at once: both read the same row-major position. -/
theorem cast_flat (X0 X1 X2 : Arr2 16384 512) (P : Params)
    (h : S16384x768.ShapeCasts S16x32x32x16x16x3) :
    shapeCast S16x32x32x16x16x3 (G X0 X1 X2 P) h = shapeCast _ (out4 X0 X1 X2 P) casts_out := by
  funext i
  unfold G
  show out4 X0 X1 X2 P (Shape.reshapeEquiv _ (Shape.reshapeEquiv _ i)) = out4 X0 X1 X2 P (Shape.reshapeEquiv _ i)
  rw [Shape.reshapeEquiv_reshapeEquiv]

/-- What the host operation after the region leaves in the result buffer: the decoder's result. -/
theorem tail_eq (c : Dev nD) :
    Pipeline.afterTail₀ cfgs (dats m) 0 (V0 m) [hostOps1] c main_v14
      = result (inp0 m c) (inp1 m c) (inp2 m c) (prm m c) := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = G (rows (inp0 m c)) (rows (inp1 m c)) (rows (inp2 m c)) (prm m c) :=
    (Pipeline.withArrays_arr spec0 launch0.win.arr_inj c _ _ 11).trans (final m c)
  rw [e]
  exact cast_flat _ _ _ _ _

/-! ## The run -/

/-- Every weakly fair execution of the program from a memory m with zero counters terminates without a fault; on every
    core the result buffer ends at the decoder's result of that core's arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
            ⟨m ((c.tc : Thread nD τ).loc main_arg3), m ((c.tc : Thread nD τ).loc main_arg4), m ((c.tc : Thread nD τ).loc main_arg5), m ((c.tc : Thread nD τ).loc main_arg6),
             m ((c.tc : Thread nD τ).loc main_arg7), m ((c.tc : Thread nD τ).loc main_arg8), m ((c.tc : Thread nD τ).loc main_arg9), m ((c.tc : Thread nD τ).loc main_arg10)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c)))⟩)
    (run_main m ρ)

end Cert.Decoder.Run

end
-- ==== Proof.lean ====
/-
  The kernel and its reference compute one decoder, pixel by pixel.

  Each of the 16384 pixels carries three rows of 512 numbers. Both programs send every row through the same affine map
  and rectifier, regroup the three results into a 2×2 grid of 384 channels, and double the grid three times by a
  transposed convolution of kernel 2 and stride 2 — whose patches do not overlap, so that every output cell is an affine
  image of one input cell — with a rectifier after the first two doublings and the logistic function after the third.
  The kernel does this on blocks of 256 pixels, with products of flattened rows by the four parity matrices of each
  doubling and an interleaving of the four results; the reference does it with one contraction per doubling followed by
  a transposition and a merge of axes. On the extended reals a change of float format is the identity, the kernel's
  logistic operation is by definition 1 / (1 + exp (-x)), which the reference spells out, and the two sums of each entry
  have the same terms up to the order of the two factors: no entry needs its inputs to be finite.

  Spec.lean states the decoder; the Ref… modules show the reference's result is it; KernelCell…, Layout…, Stage… and
  KernelBlock show the kernel body's block is it; the Run… modules carry that through the grid of blocks and the final
  reshape; Claims assembles the five conjuncts. The idealized kernel is the kernel's own text, so there is nothing to
  preserve.
-/
import proofs.«118323_j87299505258574_2_alg».proof.Defs
import proofs.«118323_j87299505258574_2_alg».proof.Proof.Gen.Kernel
import proofs.«118323_j87299505258574_2_alg».proof.Proof.Gen.Kernel.Frame
import proofs.«118323_j87299505258574_2_alg».proof.Proof.Gen.KernelIdeal
import proofs.«118323_j87299505258574_2_alg».proof.Proof.Gen.KernelIdeal.Frame
import proofs.«118323_j87299505258574_2_alg».proof.Proof.Gen.ReferenceIdeal
import proofs.«118323_j87299505258574_2_alg».proof.Proof.Gen.Pre_finite_inputs
import proofs.«118323_j87299505258574_2_alg».proof.Proof.Gen.ReferenceIdeal.Run
import proofs.«118323_j87299505258574_2_alg».proof.Proof.Gen.ReferenceIdeal.Read
import proofs.«118323_j87299505258574_2_alg».proof.Proof.Claims
import proofs.«118323_j87299505258574_2_alg».proof.Proof.RunArray
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Decoder.Claims.frame_k, Cert.Decoder.Claims.frame_ki, Cert.Decoder.Claims.frame_ri, Cert.Decoder.Claims.preserves,
    Cert.Decoder.Claims.algebraic_of Cert.Decoder.Run.run⟩

end Cert.Proof

end
